-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8 : Shape := ⟨2, ![2048, 8]⟩
abbrev S8 : Shape := ⟨1, ![8]⟩
abbrev S_ : Shape := ⟨0, ![]⟩

class Facts : Prop where
  bcast_S_S2048x8 : S_.BroadcastsInDim S2048x8 (![] : Fin 0 → Fin S2048x8.rank)
  reducesTo_S2048x8_S_d0_1 : S2048x8.ReducesTo [0, 1] S_
  h_S_ : 0 < S_.numel
  bcast_S_S8 : S_.BroadcastsInDim S8 (![] : Fin 0 → Fin S8.rank)
  reducesTo_S8_S_d0 : S8.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S2048x8 .f32) (main_arg1 : FVec F S2048x8 .f32) (main_arg2 : FVec F S8 .f32) (main_arg3 : FVec F S_ .f32) : IVec S_ 1 :=
  let main_v0 : FVec F S2048x8 .f32 := Host.absf main_arg0
  let main_cst : FVec F S_ .f32 := constant S_ .f32 0x7F800000#32
  let main_v1 : FVec F S2048x8 .f32 := broadcastInDim S2048x8 ![] bcast_S_S2048x8 main_cst
  let main_v2 : IVec S2048x8 1 := cmpf .olt main_v0 main_v1
  let main_c : IVec S_ 1 := constantI S_ 1 1#1
  let main_v3 : IVec S_ 1 := (fun x v => Host.reduce IntOp.andi x v reducesTo_S2048x8_S_d0_1 h_S_) main_v2 main_c
  let main_v4 : FVec F S2048x8 .f32 := Host.absf main_arg1
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_c_1 : IVec S_ 1 := constantI S_ 1 1#1
  let main_v7 : IVec S_ 1 := (fun x v => Host.reduce IntOp.andi x v reducesTo_S2048x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S2048x8 : Shape := ⟨2, ![2048, 8]⟩
abbrev S8 : Shape := ⟨1, ![8]⟩
abbrev S_ : Shape := ⟨0, ![]⟩
abbrev S1x1 : Shape := ⟨2, ![1, 1]⟩
abbrev S2048x2048 : Shape := ⟨2, ![2048, 2048]⟩
abbrev S2048x16384 : Shape := ⟨2, ![2048, 16384]⟩
abbrev S2048x131072 : Shape := ⟨2, ![2048, 131072]⟩
abbrev S128x8 : Shape := ⟨2, ![128, 8]⟩
abbrev S256x8 : Shape := ⟨2, ![256, 8]⟩
abbrev S128x256 : Shape := ⟨2, ![128, 256]⟩
abbrev S128x2048 : Shape := ⟨2, ![128, 2048]⟩
abbrev S128x16384 : Shape := ⟨2, ![128, 16384]⟩
abbrev S8x256 : Shape := ⟨2, ![8, 256]⟩
abbrev S128x1 : Shape := ⟨2, ![128, 1]⟩
abbrev S1x256 : Shape := ⟨2, ![1, 256]⟩
abbrev S1 : Shape := ⟨1, ![1]⟩
abbrev S128x256x1 : Shape := ⟨3, ![128, 256, 1]⟩
abbrev S128x256x8 : Shape := ⟨3, ![128, 256, 8]⟩
abbrev S128x256x1x8 : Shape := ⟨4, ![128, 256, 1, 8]⟩
abbrev S128x256x8x8 : Shape := ⟨4, ![128, 256, 8, 8]⟩
abbrev S2048x2048x8 : Shape := ⟨3, ![2048, 2048, 8]⟩
abbrev S2048x2048x8x8 : Shape := ⟨4, ![2048, 2048, 8, 8]⟩

abbrev nBuf : Space → Nat
  | .hbm => 17
  | .vmem => 14
  | .smem => 0
  | _ => 0

abbrev bufTy : (tb : Table) → Fin (tcTables nBuf tb) → BufTy
  | .hbm, ⟨0, _⟩ => ⟨S2048x8, .f32⟩
  | .hbm, ⟨1, _⟩ => ⟨S2048x8, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S1x1, .f32⟩
  | .hbm, ⟨10, _⟩ => ⟨S2048x2048, .f32⟩
  | .hbm, ⟨11, _⟩ => ⟨S2048x16384, .f32⟩
  | .hbm, ⟨12, _⟩ => ⟨S2048x16384, .f32⟩
  | .hbm, ⟨13, _⟩ => ⟨S2048x131072, .f32⟩
  | .hbm, ⟨14, _⟩ => ⟨S2048x2048x8, .f32⟩
  | .hbm, ⟨15, _⟩ => ⟨S2048x2048x8, .f32⟩
  | .hbm, ⟨16, _⟩ => ⟨S2048x2048x8x8, .f32⟩
  | .local _ .vmem, ⟨0, _⟩ => ⟨S8, .f32⟩
  | .local _ .vmem, ⟨1, _⟩ => ⟨S1x1, .f32⟩
  | .local _ .vmem, ⟨2, _⟩ => ⟨S128x8, .f32⟩
  | .local _ .vmem, ⟨3, _⟩ => ⟨S128x8, .f32⟩
  | .local _ .vmem, ⟨4, _⟩ => ⟨S256x8, .f32⟩
  | .local _ .vmem, ⟨5, _⟩ => ⟨S256x8, .f32⟩
  | .local _ .vmem, ⟨6, _⟩ => ⟨S128x256, .f32⟩
  | .local _ .vmem, ⟨7, _⟩ => ⟨S128x256, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x16384, .f32⟩
  | .local _ .vmem, ⟨13, _⟩ => ⟨S128x16384, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S8 : S_.BroadcastsInDim S8 (![] : Fin 0 → Fin S8.rank)
  shapeCasts_S_S1x1 : S_.ShapeCasts S1x1
  inb_S8_S8_0 : ∀ a, (![0] : Fin 1 → Nat) a + S8.size a ≤ S8.size a
  h_S8 : 0 < S8.numel
  shapeCasts_S8_S8 : S8.ShapeCasts S8
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x8_S128x8_0_0 : ∀ a, (![0, 0] : Fin 2 → Nat) a + S128x8.size a ≤ S128x8.size a
  h_S128x8 : 0 < S128x8.numel
  inb_S256x8_S256x8_0_0 : ∀ a, (![0, 0] : Fin 2 → Nat) a + S256x8.size a ≤ S256x8.size a
  h_S256x8 : 0 < S256x8.numel
  transposes_S256x8_p1_0_S8x256 : S256x8.Transposes [1, 0] S8x256
  slices_S128x8_o0_0_S128x1 : S128x8.Slices ![0, 0] S128x1
  slices_S8x256_o0_0_S1x256 : S8x256.Slices ![0, 0] S1x256
  broadcasts_S128x1_S128x256 : S128x1.Broadcasts S128x256
  broadcasts_S1x256_S128x256 : S1x256.Broadcasts S128x256
  slices_S8_o0_S1 : S8.Slices ![0] S1
  inpos_S1_p0 : ∀ a, (![0] : Fin 1 → Nat) a < S1.size a
  slices_S128x8_o0_1_S128x1 : S128x8.Slices ![0, 1] S128x1
  slices_S8x256_o1_0_S1x256 : S8x256.Slices ![1, 0] S1x256
  slices_S8_o1_S1 : S8.Slices ![1] S1
  slices_S128x8_o0_2_S128x1 : S128x8.Slices ![0, 2] S128x1
  slices_S8x256_o2_0_S1x256 : S8x256.Slices ![2, 0] S1x256
  slices_S8_o2_S1 : S8.Slices ![2] S1
  slices_S128x8_o0_3_S128x1 : S128x8.Slices ![0, 3] S128x1
  slices_S8x256_o3_0_S1x256 : S8x256.Slices ![3, 0] S1x256
  slices_S8_o3_S1 : S8.Slices ![3] S1
  slices_S128x8_o0_4_S128x1 : S128x8.Slices ![0, 4] S128x1
  slices_S8x256_o4_0_S1x256 : S8x256.Slices ![4, 0] S1x256
  slices_S8_o4_S1 : S8.Slices ![4] S1
  slices_S128x8_o0_5_S128x1 : S128x8.Slices ![0, 5] S128x1
  slices_S8x256_o5_0_S1x256 : S8x256.Slices ![5, 0] S1x256
  slices_S8_o5_S1 : S8.Slices ![5] S1
  slices_S128x8_o0_6_S128x1 : S128x8.Slices ![0, 6] S128x1
  slices_S8x256_o6_0_S1x256 : S8x256.Slices ![6, 0] S1x256
  slices_S8_o6_S1 : S8.Slices ![6] S1
  slices_S128x8_o0_7_S128x1 : S128x8.Slices ![0, 7] S128x1
  slices_S8x256_o7_0_S1x256 : S8x256.Slices ![7, 0] S1x256
  slices_S8_o7_S1 : S8.Slices ![7] S1
  inb_S128x256_S128x256_0_0 : ∀ a, (![0, 0] : Fin 2 → Nat) a + S128x256.size a ≤ S128x256.size a
  h_S128x256 : 0 < S128x256.numel
  shapeCasts_S128x256_S128x256x1 : S128x256.ShapeCasts S128x256x1
  concatenates_S128x256x1_S128x256x1_S128x256x1_S128x256x1_S128x256x1_S128x256x1_S128x256x1_S128x256x1_S128x256x8_d2 : Shape.Concatenates [S128x256x1, S128x256x1, S128x256x1, S128x256x1, S128x256x1, S128x256x1, S128x256x1, S128x256x1] S128x256x8 2
  shapeCasts_S128x256x8_S128x2048 : S128x256x8.ShapeCasts S128x2048
  inb_S128x2048_S128x2048_0_0 : ∀ a, (![0, 0] : Fin 2 → Nat) a + S128x2048.size a ≤ S128x2048.size a
  h_S128x2048 : 0 < S128x2048.numel
  shapeCasts_S128x256x8_S128x256x1x8 : S128x256x8.ShapeCasts S128x256x1x8
  concatenates_S128x256x1x8_S128x256x1x8_S128x256x1x8_S128x256x1x8_S128x256x1x8_S128x256x1x8_S128x256x1x8_S128x256x1x8_S128x256x8x8_d2 : Shape.Concatenates [S128x256x1x8, S128x256x1x8, S128x256x1x8, S128x256x1x8, S128x256x1x8, S128x256x1x8, S128x256x1x8, S128x256x1x8] S128x256x8x8 2
  shapeCasts_S128x256x8x8_S128x16384 : S128x256x8x8.ShapeCasts S128x16384
  inb_S128x16384_S128x16384_0_0 : ∀ a, (![0, 0] : Fin 2 → Nat) a + S128x16384.size a ≤ S128x16384.size a
  h_S128x16384 : 0 < S128x16384.numel
  shapeCasts_S2048x16384_S2048x2048x8 : S2048x16384.ShapeCasts S2048x2048x8
  shapeCasts_S2048x131072_S2048x2048x8x8 : S2048x131072.ShapeCasts S2048x2048x8x8
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8.size a ≤ S8.size a
  hwx0_0 : ∀ i : grid0.Coords, EltTy.bits .f32 = 32 ∨ (Rect.block (s := S8) S8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S2048x8.size a
  hwx0_2 : ∀ i : grid0.Coords, EltTy.bits .f32 = 32 ∨ (Rect.block (s := S2048x8) S128x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S2048x8.size a
  hwx0_3 : ∀ i : grid0.Coords, EltTy.bits .f32 = 32 ∨ (Rect.block (s := S2048x8) S256x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S2048x2048.size a
  hwx0_4 : ∀ i : grid0.Coords, EltTy.bits .f32 = 32 ∨ (Rect.block (s := S2048x2048) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x16384.size a
  hwx0_5 : ∀ i : grid0.Coords, EltTy.bits .f32 = 32 ∨ (Rect.block (s := S2048x16384) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S2048x16384.size a
  hwx0_6 : ∀ i : grid0.Coords, EltTy.bits .f32 = 32 ∨ (Rect.block (s := S2048x16384) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x16384.size a ≤ S2048x131072.size a
  hwx0_7 : ∀ i : grid0.Coords, EltTy.bits .f32 = 32 ∨ (Rect.block (s := S2048x131072) S128x16384.size (cc0_transform_7 i) (hinb0_7 i)).WholeWords (EltTy.packing .f32)

variable [Facts₀]

abbrev win0_0 : Pipeline.Window sig grid0 :=
  Pipeline.Window.ofSpec (Memref.whole main_v2) S8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S128x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S128x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S128x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_3) S128x16384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x8 : Shape := ⟨2, ![2048, 8]⟩
abbrev S8 : Shape := ⟨1, ![8]⟩
abbrev S_ : Shape := ⟨0, ![]⟩
abbrev S2048x1x8 : Shape := ⟨3, ![2048, 1, 8]⟩
abbrev S1x2048x8 : Shape := ⟨3, ![1, 2048, 8]⟩
abbrev S2048x2048x8 : Shape := ⟨3, ![2048, 2048, 8]⟩
abbrev S1x1x8 : Shape := ⟨3, ![1, 1, 8]⟩
abbrev S2048x2048 : Shape := ⟨2, ![2048, 2048]⟩
abbrev S2048x2048x1 : Shape := ⟨3, ![2048, 2048, 1]⟩
abbrev S2048x2048x8x1 : Shape := ⟨4, ![2048, 2048, 8, 1]⟩
abbrev S2048x2048x1x8 : Shape := ⟨4, ![2048, 2048, 1, 8]⟩
abbrev S2048x2048x8x8 : Shape := ⟨4, ![2048, 2048, 8, 8]⟩
abbrev S8x8 : Shape := ⟨2, ![8, 8]⟩
abbrev S8x1 : Shape := ⟨2, ![8, 1]⟩
abbrev S1x1x8x8 : Shape := ⟨4, ![1, 1, 8, 8]⟩
abbrev S2048x2048x1x1 : Shape := ⟨4, ![2048, 2048, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S2048x8, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S2048x1x8, .f32⟩
  | .hbm, ⟨10, _⟩ => ⟨S1x2048x8, .f32⟩
  | .hbm, ⟨11, _⟩ => ⟨S2048x2048x8, .f32⟩
  | .hbm, ⟨12, _⟩ => ⟨S2048x2048x8, .f32⟩
  | .hbm, ⟨13, _⟩ => ⟨S2048x2048x8, .f32⟩
  | .hbm, ⟨14, _⟩ => ⟨S1x1x8, .f32⟩
  | .hbm, ⟨15, _⟩ => ⟨S2048x2048x8, .f32⟩
  | .hbm, ⟨16, _⟩ => ⟨S2048x2048x8, .f32⟩
  | .hbm, ⟨17, _⟩ => ⟨S2048x2048x8, .f32⟩
  | .hbm, ⟨18, _⟩ => ⟨S_, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S1x1x8, .f32⟩
  | .hbm, ⟨27, _⟩ => ⟨S2048x2048x8, .f32⟩
  | .hbm, ⟨28, _⟩ => ⟨S2048x2048x8, .f32⟩
  | .hbm, ⟨29, _⟩ => ⟨S2048x2048x1, .f32⟩
  | .hbm, ⟨30, _⟩ => ⟨S2048x2048x8, .f32⟩
  | .hbm, ⟨31, _⟩ => ⟨S2048x2048x8, .f32⟩
  | .hbm, ⟨32, _⟩ => ⟨S2048x2048x8, .f32⟩
  | .hbm, ⟨33, _⟩ => ⟨S2048x2048x8x1, .f32⟩
  | .hbm, ⟨34, _⟩ => ⟨S2048x2048x8x1, .f32⟩
  | .hbm, ⟨35, _⟩ => ⟨S2048x2048x1x8, .f32⟩
  | .hbm, ⟨36, _⟩ => ⟨S2048x2048x8x8, .f32⟩
  | .hbm, ⟨37, _⟩ => ⟨S2048x2048x8x8, .f32⟩
  | .hbm, ⟨38, _⟩ => ⟨S2048x2048x8x8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8x8, .i32⟩
  | .hbm, ⟨43, _⟩ => ⟨S8x8, .i32⟩
  | .hbm, ⟨44, _⟩ => ⟨S_, .i32⟩
  | .hbm, ⟨45, _⟩ => ⟨S8x8, .i32⟩
  | .hbm, ⟨46, _⟩ => ⟨S8x8, .i32⟩
  | .hbm, ⟨47, _⟩ => ⟨S8x8, .i1⟩
  | .hbm, ⟨48, _⟩ => ⟨S8x1, .f32⟩
  | .hbm, ⟨49, _⟩ => ⟨S_, .f32⟩
  | .hbm, ⟨50, _⟩ => ⟨S8x8, .f32⟩
  | .hbm, ⟨51, _⟩ => ⟨S8x8, .f32⟩
  | .hbm, ⟨52, _⟩ => ⟨S8x8, .f32⟩
  | .hbm, ⟨53, _⟩ => ⟨S1x1x8x8, .f32⟩
  | .hbm, ⟨54, _⟩ => ⟨S2048x2048x8x8, .f32⟩
  | .hbm, ⟨55, _⟩ => ⟨S2048x2048x8x8, .f32⟩
  | .hbm, ⟨56, _⟩ => ⟨S2048x2048x1x1, .f32⟩
  | .hbm, ⟨57, _⟩ => ⟨S2048x2048x8x8, .f32⟩
  | .hbm, ⟨58, _⟩ => ⟨S2048x2048x8x8, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_c : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_cst_0 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S2048x8_S2048x1x8_0_2 : S2048x8.BroadcastsInDim S2048x1x8 (![0, 2] : Fin 2 → Fin S2048x1x8.rank)
  bcast_S2048x8_S1x2048x8_1_2 : S2048x8.BroadcastsInDim S1x2048x8 (![1, 2] : Fin 2 → Fin S1x2048x8.rank)
  bcast_S2048x1x8_S2048x2048x8_0_1_2 : S2048x1x8.BroadcastsInDim S2048x2048x8 (![0, 1, 2] : Fin 3 → Fin S2048x2048x8.rank)
  bcast_S1x2048x8_S2048x2048x8_0_1_2 : S1x2048x8.BroadcastsInDim S2048x2048x8 (![0, 1, 2] : Fin 3 → Fin S2048x2048x8.rank)
  bcast_S8_S1x1x8_2 : S8.BroadcastsInDim S1x1x8 (![2] : Fin 1 → Fin S1x1x8.rank)
  bcast_S1x1x8_S2048x2048x8_0_1_2 : S1x1x8.BroadcastsInDim S2048x2048x8 (![0, 1, 2] : Fin 3 → Fin S2048x2048x8.rank)
  reducesTo_S2048x2048x8_S2048x2048_d2 : S2048x2048x8.ReducesTo [2] S2048x2048
  h_S_ : 0 < S_.numel
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S2048x2048x1_S2048x2048x8_0_1_2 : S2048x2048x1.BroadcastsInDim S2048x2048x8 (![0, 1, 2] : Fin 3 → Fin S2048x2048x8.rank)
  bcast_S2048x2048x8_S2048x2048x8x1_0_1_2 : S2048x2048x8.BroadcastsInDim S2048x2048x8x1 (![0, 1, 2] : Fin 3 → Fin S2048x2048x8x1.rank)
  bcast_S2048x2048x8_S2048x2048x1x8_0_1_3 : S2048x2048x8.BroadcastsInDim S2048x2048x1x8 (![0, 1, 3] : Fin 3 → Fin S2048x2048x1x8.rank)
  bcast_S2048x2048x8x1_S2048x2048x8x8_0_1_2_3 : S2048x2048x8x1.BroadcastsInDim S2048x2048x8x8 (![0, 1, 2, 3] : Fin 4 → Fin S2048x2048x8x8.rank)
  bcast_S2048x2048x1x8_S2048x2048x8x8_0_1_2_3 : S2048x2048x1x8.BroadcastsInDim S2048x2048x8x8 (![0, 1, 2, 3] : Fin 4 → Fin S2048x2048x8x8.rank)
  pads_S8_S8_000 : S8.Pads (![0] : Fin 1 → Nat) ![0] ![0] S8
  bcast_S_S8x8 : S_.BroadcastsInDim S8x8 (![] : Fin 0 → Fin S8x8.rank)
  bcast_S8_S8x1_0 : S8.BroadcastsInDim S8x1 (![0] : Fin 1 → Fin S8x1.rank)
  bcast_S8x1_S8x8_0_1 : S8x1.BroadcastsInDim S8x8 (![0, 1] : Fin 2 → Fin S8x8.rank)
  bcast_S8x8_S1x1x8x8_2_3 : S8x8.BroadcastsInDim S1x1x8x8 (![2, 3] : Fin 2 → Fin S1x1x8x8.rank)
  bcast_S1x1x8x8_S2048x2048x8x8_0_1_2_3 : S1x1x8x8.BroadcastsInDim S2048x2048x8x8 (![0, 1, 2, 3] : Fin 4 → Fin S2048x2048x8x8.rank)
  bcast_S2048x2048_S2048x2048x1x1_0_1 : S2048x2048.BroadcastsInDim S2048x2048x1x1 (![0, 1] : Fin 2 → Fin S2048x2048x1x1.rank)
  bcast_S2048x2048x1x1_S2048x2048x8x8_0_1_2_3 : S2048x2048x1x1.BroadcastsInDim S2048x2048x8x8 (![0, 1, 2, 3] : Fin 4 → Fin S2048x2048x8x8.rank)

variable [Facts₀]

class Facts : Prop extends Facts₀ where

variable [Facts]
-- ==== Proof.Spec.lean ====
/-
  The radial-basis-function covariance and its first and second derivatives, as formulas on the extended reals.

  For a row `a` of the first point set, a row `b` of the second, inverse length scales `ι` and a variance `σ`:
    r k     = (a k − b k) · ι k                      the scaled difference
    rr k    = r k · ι k
    cov     = exp (−½ · Σ_k r k · r k) · σ
    dxx k   = cov · rr k            dx k = −(cov · rr k)
    dxdxx i j = (−rr i · rr j + [i = j] · ι i · ι i) · cov
  Two spellings of each are stated: the one that sums the squares with a single finite sum and multiplies the bracket of
  the second derivative by `cov` at the end (suffix `R`), and the one that accumulates the squares left to right from the
  zero word, writes a negation as `0 − x`, and distributes `cov` over the bracket (suffix `K`). The two agree on real
  entries (Algebra.lean); on infinite entries they need not, since the extended reals do not distribute.
  The float literals stay as the words they were written with: only that they are real numbers (and that the zero word is 0)
  is ever used.
-/
import Idealize.ShloMosaic.PureOps.Ideal
import Idealize.ShloMosaic.Lib.ValueIdx

noncomputable section

open scoped BigOperators

namespace Cert.RbfSpec

open Idealize.ShloMosaic Idealize.ShloMosaic.ValueIdx

/-- The zero word. -/
abbrev z0 : EReal := Ideal.ofBits .f32 0x00000000#32
/-- The word of −½. -/
abbrev mh : EReal := Ideal.ofBits .f32 0xBF000000#32
/-- The word of 1. -/
abbrev w1 : EReal := Ideal.ofBits .f32 0x3F800000#32

/-- The inverse length scale of a free parameter: 1 / exp s. -/
def iscOf (s : EReal) : EReal := Ideal.div w1 (Ideal.exp s)
/-- The variance of a free parameter: exp v. -/
def varOf (v : EReal) : EReal := Ideal.exp v

section Scalar
variable (a b ι : Fin 8 → EReal) (σ : EReal)

/-- The scaled difference of feature `k`. -/
def rk (k : Fin 8) : EReal := (a k - b k) * ι k
/-- The scaled difference scaled once more. -/
def rrk (k : Fin 8) : EReal := rk a b ι k * ι k

/-! ### One finite sum; the bracket times `cov` -/

def covR : EReal := Ideal.exp (mh * (z0 + ∑ k : Fin 8, rk a b ι k * rk a b ι k)) * σ
def dxxR (k : Fin 8) : EReal := covR a b ι σ * rrk a b ι k
def dxR (k : Fin 8) : EReal := -(covR a b ι σ * rrk a b ι k)
/-- The diagonal matrix of the squared inverse length scales. -/
def diagR (i j : Fin 8) : EReal := if i = j then ι i * ι i else z0
def dxdxxR (i j : Fin 8) : EReal := (-(rrk a b ι i) * rrk a b ι j + diagR ι i j) * covR a b ι σ

/-! ### The squares accumulated from the zero word; `0 − x`; `cov` distributed -/

def sqK : EReal :=
  (((((((z0 + rk a b ι 0 * rk a b ι 0) + rk a b ι 1 * rk a b ι 1) + rk a b ι 2 * rk a b ι 2) + rk a b ι 3 * rk a b ι 3)
    + rk a b ι 4 * rk a b ι 4) + rk a b ι 5 * rk a b ι 5) + rk a b ι 6 * rk a b ι 6) + rk a b ι 7 * rk a b ι 7
def covK : EReal := Ideal.exp (mh * sqK a b ι) * σ
/-- `cov · rr k`. -/
def gK (k : Fin 8) : EReal := covK a b ι σ * rrk a b ι k
def dxxK (k : Fin 8) : EReal := gK a b ι σ k
def dxK (k : Fin 8) : EReal := z0 - gK a b ι σ k
def dxdxxK (i j : Fin 8) : EReal :=
  if i = j then (z0 - gK a b ι σ i) * rrk a b ι j + covK a b ι σ * (ι i * ι i) else (z0 - gK a b ι σ i) * rrk a b ι j

/-! ### The same in terms of the scaled differences `ρ k = r k` and the value `c = cov` already computed -/

/-- `cov · rr k` from `c = cov` and `ρ = r`. -/
def gOf (c : EReal) (ρ ι : Fin 8 → EReal) (k : Fin 8) : EReal := c * (ρ k * ι k)
def dxdxxOf (c : EReal) (ρ ι : Fin 8 → EReal) (i j : Fin 8) : EReal :=
  if i = j then (z0 - gOf c ρ ι i) * (ρ j * ι j) + c * (ι i * ι i) else (z0 - gOf c ρ ι i) * (ρ j * ι j)

theorem gK_eq (k : Fin 8) : gK a b ι σ k = gOf (covK a b ι σ) (rk a b ι) ι k := rfl
theorem dxdxxK_eq (i j : Fin 8) : dxdxxK a b ι σ i j = dxdxxOf (covK a b ι σ) (rk a b ι) ι i j := rfl

end Scalar

/-! ## The four result arrays as functions of the four argument arrays -/

section Arrays
variable (x xx : (⟨2, ![2048, 8]⟩ : Shape).Idx → EReal) (s : (⟨1, ![8]⟩ : Shape).Idx → EReal)
  (v : (⟨0, ![]⟩ : Shape).Idx → EReal)

/-- Row `n` of a point set. -/
def rowOf (x : (⟨2, ![2048, 8]⟩ : Shape).Idx → EReal) (n : Fin 2048) : Fin 8 → EReal := fun k => x (ix2 n k)
/-- The inverse length scales of the free parameters. -/
def iscs (s : (⟨1, ![8]⟩ : Shape).Idx → EReal) : Fin 8 → EReal := fun k => iscOf (s (ix1 k))

def Gcov : (⟨2, ![2048, 2048]⟩ : Shape).Idx → EReal := fun j =>
  covR (rowOf x (j 0)) (rowOf xx (j 1)) (iscs s) (varOf (v ix0))
def Gdx : (⟨3, ![2048, 2048, 8]⟩ : Shape).Idx → EReal := fun j =>
  dxR (rowOf x (j 0)) (rowOf xx (j 1)) (iscs s) (varOf (v ix0)) (j 2)
def Gdxx : (⟨3, ![2048, 2048, 8]⟩ : Shape).Idx → EReal := fun j =>
  dxxR (rowOf x (j 0)) (rowOf xx (j 1)) (iscs s) (varOf (v ix0)) (j 2)
def Gdxdxx : (⟨4, ![2048, 2048, 8, 8]⟩ : Shape).Idx → EReal := fun j =>
  dxdxxR (rowOf x (j 0)) (rowOf xx (j 1)) (iscs s) (varOf (v ix0)) (j 2) (j 3)

theorem Gcov_ix (n m : Fin 2048) :
    Gcov x xx s v (ix2 n m) = covR (rowOf x n) (rowOf xx m) (iscs s) (varOf (v ix0)) := rfl
theorem Gdx_ix (n m : Fin 2048) (k : Fin 8) :
    Gdx x xx s v (ix3 n m k) = dxR (rowOf x n) (rowOf xx m) (iscs s) (varOf (v ix0)) k := rfl
theorem Gdxx_ix (n m : Fin 2048) (k : Fin 8) :
    Gdxx x xx s v (ix3 n m k) = dxxR (rowOf x n) (rowOf xx m) (iscs s) (varOf (v ix0)) k := rfl
theorem Gdxdxx_ix (n m : Fin 2048) (i j : Fin 8) :
    Gdxdxx x xx s v (ix4 n m i j) = dxdxxR (rowOf x n) (rowOf xx m) (iscs s) (varOf (v ix0)) i j := rfl

end Arrays

end Cert.RbfSpec

end
-- ==== Proof.Algebra.lean ====
/-
  The two spellings of Spec.lean agree.

  Addition on the extended reals is commutative and associative and the zero word is 0, so the squares accumulated
  left to right from the zero word are the zero word plus the finite sum; `0 − x = −x`; and, multiplication being
  commutative and associative with `(−x)·y = −(x·y)`, an off-diagonal entry `(0 − cov·rr i)·rr j` is
  `(−rr i·rr j + 0)·cov`. Only the DIAGONAL entries, `(0 − cov·rr i)·rr i + cov·(ι i·ι i) = (−rr i·rr i + ι i·ι i)·cov`,
  distribute a product over a sum, which the extended reals do not do at the infinities: there every quantity is a real
  number — the rows and the free parameters are finite, `exp` of a real is a positive real, so is `1 / exp s` — and the
  identity is the real one.
-/
import proofs.«158023_j22204980920839_2_alg».proof.Proof.Spec
import Idealize.ShloMosaic.PureOps.Ideal.Laws

noncomputable section

open scoped BigOperators

namespace Cert.RbfSpec

open Idealize.ShloMosaic

/-! ## The literals -/

theorem z0_val : z0 = 0 := Ideal.ofBits_zero_f32
theorem w1_val : w1 = ((1 : ℝ) : EReal) := by
  show Ideal.ofBits .f32 0x3F800000#32 = _
  simp [Ideal.ofBits, Ideal.ieee, -EReal.coe_mul]; norm_num
theorem mh_val : mh = ((-(1 / 2) : ℝ) : EReal) := by
  show Ideal.ofBits .f32 0xBF000000#32 = _
  simp [Ideal.ofBits, Ideal.ieee, -EReal.coe_mul]; norm_num

/-! ## Real numbers among the extended reals -/

/-- An extended real that is a real number. -/
def IsReal (x : EReal) : Prop := ∃ r : ℝ, x = (r : EReal)

namespace IsReal
theorem coe (r : ℝ) : IsReal (r : EReal) := ⟨r, rfl⟩
theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem exp {x : EReal} (hx : IsReal x) : IsReal (Ideal.exp x) := by
  obtain ⟨a, rfl⟩ := hx; exact ⟨Real.exp a, rfl⟩
theorem z0 : IsReal z0 := ⟨0, by rw [z0_val]; rfl⟩
theorem mh : IsReal mh := ⟨_, mh_val⟩
theorem w1 : IsReal w1 := ⟨_, w1_val⟩
end IsReal

/-- The inverse length scale of a finite free parameter is a real number: `exp s` is a nonzero real. -/
theorem isReal_iscOf {s : EReal} (hs : IsReal s) : IsReal (iscOf s) := by
  obtain ⟨a, rfl⟩ := hs
  unfold iscOf
  rw [Ideal.exp_coe, Ideal.div_coe (Real.exp_pos a).ne']
  exact IsReal.w1.mul (IsReal.coe _)

/-- The variance of a finite free parameter is a real number. -/
theorem isReal_varOf {v : EReal} (hv : IsReal v) : IsReal (varOf v) := hv.exp

section Scalar
variable (a b ι : Fin 8 → EReal) (σ : EReal)

/-! ## What needs no finiteness -/

theorem sqK_eq : sqK a b ι = z0 + ∑ k : Fin 8, rk a b ι k * rk a b ι k := by
  unfold sqK
  simp only [Fin.sum_univ_eight, add_assoc]

theorem covK_eq : covK a b ι σ = covR a b ι σ := by
  unfold covK covR
  rw [sqK_eq]

theorem dxxK_eq (k : Fin 8) : dxxK a b ι σ k = dxxR a b ι σ k := by
  unfold dxxK gK dxxR
  rw [covK_eq]

theorem dxK_eq (k : Fin 8) : dxK a b ι σ k = dxR a b ι σ k := by
  unfold dxK gK dxR
  rw [covK_eq, z0_val, zero_sub]

/-! ## The second derivative -/

variable {a b ι σ}

theorem isReal_rk (ha : ∀ k, IsReal (a k)) (hb : ∀ k, IsReal (b k)) (hι : ∀ k, IsReal (ι k)) (k : Fin 8) :
    IsReal (rk a b ι k) := ((ha k).sub (hb k)).mul (hι k)

theorem isReal_rrk (ha : ∀ k, IsReal (a k)) (hb : ∀ k, IsReal (b k)) (hι : ∀ k, IsReal (ι k)) (k : Fin 8) :
    IsReal (rrk a b ι k) := (isReal_rk ha hb hι k).mul (hι k)

theorem isReal_covR (ha : ∀ k, IsReal (a k)) (hb : ∀ k, IsReal (b k)) (hι : ∀ k, IsReal (ι k)) (hσ : IsReal σ) :
    IsReal (covR a b ι σ) := by
  have h := isReal_rk ha hb hι
  unfold covR
  rw [Fin.sum_univ_eight]
  have hsq := fun k => (h k).mul (h k)
  exact ((IsReal.mh.mul (IsReal.z0.add ((((((((hsq 0).add (hsq 1)).add (hsq 2)).add (hsq 3)).add (hsq 4)).add (hsq 5)).add (hsq 6)).add (hsq 7)))).exp).mul hσ

/-- The one identity that distributes: real `c`, `u`, `w`. -/
theorem diag_entry {c u w : EReal} (hc : IsReal c) (hu : IsReal u) (hw : IsReal w) :
    (z0 - c * u) * u + c * (w * w) = (-u * u + w * w) * c := by
  obtain ⟨C, rfl⟩ := hc; obtain ⟨U, rfl⟩ := hu; obtain ⟨W, rfl⟩ := hw
  rw [z0_val]
  have e1 : (0 - (C : EReal) * U) * U + C * ((W : EReal) * W) = (((0 - C * U) * U + C * (W * W) : ℝ) : EReal) := by
    push_cast; rfl
  have e2 : (-(U : EReal) * U + (W : EReal) * W) * C = (((-U * U + W * W) * C : ℝ) : EReal) := by
    push_cast; rfl
  rw [e1, e2]
  congr 1
  ring

/-- An entry off the diagonal: commutativity, associativity and the sign rule only. -/
theorem offdiag_entry (c u w : EReal) : (z0 - c * u) * w = (-u * w + z0) * c := by
  rw [z0_val, zero_sub, add_zero, neg_mul, neg_mul, neg_mul, mul_assoc, mul_comm c (u * w)]

theorem dxdxxK_eq_R (ha : ∀ k, IsReal (a k)) (hb : ∀ k, IsReal (b k)) (hι : ∀ k, IsReal (ι k)) (hσ : IsReal σ)
    (i j : Fin 8) : dxdxxK a b ι σ i j = dxdxxR a b ι σ i j := by
  unfold dxdxxK dxdxxR diagR gK
  rw [covK_eq]
  by_cases hij : i = j
  · subst hij
    rw [if_pos rfl, if_pos rfl]
    exact diag_entry (isReal_covR ha hb hι hσ) (isReal_rrk ha hb hι i) (hι i)
  · rw [if_neg hij, if_neg hij]
    exact offdiag_entry _ _ _

end Scalar

end Cert.RbfSpec

end
-- ==== Proof.Finite.lean ====
/-
  From the precondition to real entries.

  The precondition is the conjunction of four `all (|x| < +∞)`, one per argument array. A conjunction of one-bit words
  that is 1 has both sides 1; an `and`-reduction over every axis that is 1 met a 1 at every element; and an extended real
  whose absolute value `max x (−x)` is below `+∞` is neither infinity, so it is a real number.
-/
import proofs.«158023_j22204980920839_2_alg».proof.Pre_finite_inputs
import proofs.«158023_j22204980920839_2_alg».proof.Proof.Algebra
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs Cert.RbfSpec

instance : Subsingleton S_.Idx := ⟨fun a b => funext fun d => d.elim0⟩

/-- The word of `+∞`. -/
theorem inf_val : Ideal.ofBits .f32 0x7F800000#32 = ⊤ := by simp [Ideal.ofBits, Ideal.ieee]

/-- `|x| < +∞`, as a comparison that came out 1, says `x` is a real number. -/
theorem isReal_of_abs_lt (x : EReal)
    (h : Ideal.cmp .olt (max x (-x)) (Ideal.ofBits .f32 0x7F800000#32) = 1#1) : IsReal x := by
  rw [inf_val] at h
  have hlt : max x (-x) < ⊤ := by
    by_contra hn
    unfold Ideal.cmp at h
    simp [hn] at h
  induction x using EReal.rec with
  | bot => simp at hlt
  | coe r => exact ⟨r, rfl⟩
  | top => simp at hlt

/-- Under the precondition every entry of every argument array is a real number. -/
theorem real_of_pre [Facts] (x xx : FVec Ideal S2048x8 .f32) (s : FVec Ideal S8 .f32) (v : FVec Ideal S_ .f32)
    (h : fn (F := Ideal) x xx s v = fun _ => 1#1) :
    (∀ i, IsReal (x i)) ∧ (∀ i, IsReal (xx i)) ∧ (∀ i, IsReal (s i)) ∧ (∀ i, IsReal (v i)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => isReal_of_abs_lt _ (Host.reduce_andi_all _ _ _ _ _ h1 i),
    fun i => isReal_of_abs_lt _ (Host.reduce_andi_all _ _ _ _ _ h2 i),
    fun i => isReal_of_abs_lt _ (Host.reduce_andi_all _ _ _ _ _ h3 i),
    fun i => isReal_of_abs_lt _ (Host.reduce_andi_all _ _ _ _ _ h4 i)⟩

end Cert.Pre_finite_inputs.Finite

end
-- ==== Proof.PaySlabs.lean ====
/-
  The kernel body's slabs, read entry by entry.

  The body holds four blocks: the inverse length scales ι (eight numbers), the variance σ (one number), 128 rows of the
  first point set and 256 rows of the second, eight features each. For feature k it forms the [128, 256] slab whose
  (p, q) entry is (a_p k − b_q k) · ι k — column k of the first block spread along the lanes, less row k of the
  transposed second block spread along the sublanes, times ι k. From the eight slabs it forms the covariance slab
  exp (−½ · (((0 + r₀²) + r₁²) + … + r₇²)) · σ, the products cov · (r_k · ι k) and their negations 0 − cov · (r_k · ι k),
  and it stores the covariance slab, and the eight negated (respectively plain) products stacked along a new last axis
  and flattened row-major, so that product k of the pair (p, q) lands in column q · 8 + k of row p.

  Every operation involved acts entry by entry or moves entries without changing them, so each slab and each stored block is
  read here at one entry as the corresponding scalar formula of the radial-basis-function covariance (Spec.lean, the
  spellings with suffix `K`), applied to row p of the first block, row q of the second, ι and σ.
-/
import proofs.«158023_j22204980920839_2_alg».proof.Proof.Gen.KernelIdeal.Frame
import proofs.«158023_j22204980920839_2_alg».proof.Proof.Spec
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Cert.RbfSpec Idealize.ShloMosaic Idealize.ShloMosaic.ValueIdx

/-! ## The layout operations of the body, read at an index given by coordinates -/

section Layout
variable {α : Type}

/-- Column `k` of a `[128, 8]` block, cut out as a `[128, 1]` column, reads row `p` of that column. -/
theorem col_apply (k : Nat) (hk : k < 8) (x : S128x8.Idx → α) (h : S128x8.Slices ![0, k] S128x1) (p : Fin 128) :
    extractStridedSlice S128x1 ![0, k] x h (ix2 p (0 : Fin 1)) = x (ix2 p (⟨k, hk⟩ : Fin 8)) :=
  slice2_axis1_apply k x h p 0 ⟨k, hk⟩ rfl

/-- Row `k` of an `[8, 256]` block, cut out as a `[1, 256]` row, reads entry `q` of that row. -/
theorem row_apply (k : Nat) (hk : k < 8) (y : S8x256.Idx → α) (h : S8x256.Slices ![k, 0] S1x256) (q : Fin 256) :
    extractStridedSlice S1x256 ![k, 0] y h (ix2 (0 : Fin 1) q) = y (ix2 (⟨k, hk⟩ : Fin 8) q) :=
  slice2_axis0_apply k y h 0 q ⟨k, hk⟩ rfl

/-- The transposed `[256, 8]` block at `(k, q)` is the block at `(q, k)`. -/
theorem tr_apply (x : S256x8.Idx → α) (h : S256x8.Transposes [1, 0] S8x256) (k : Fin 8) (q : Fin 256) :
    transpose S8x256 [1, 0] x h (ix2 k q) = x (ix2 q k) :=
  transpose_ix2_apply x h k q

/-- A `[128, 1]` column broadcast along the lanes reads its row. -/
theorem bcol_apply (v : S128x1.Idx → α) (h : S128x1.Broadcasts S128x256) (p : Fin 128) (q : Fin 256) :
    broadcastTo S128x256 v h (ix2 p q) = v (ix2 p (0 : Fin 1)) := by
  refine broadcastTo_apply v h (ix2 p q) (ix2 p (0 : Fin 1)) fun ax => ?_
  match ax with
  | ⟨0, _⟩ =>
    show p.val = if (128 : ℕ) = 1 then 0 else p.val
    rw [if_neg (by decide)]
  | ⟨1, _⟩ => rfl

/-- A `[1, 256]` row broadcast along the sublanes reads its entry. -/
theorem brow_apply (v : S1x256.Idx → α) (h : S1x256.Broadcasts S128x256) (p : Fin 128) (q : Fin 256) :
    broadcastTo S128x256 v h (ix2 p q) = v (ix2 (0 : Fin 1) q) :=
  broadcastTo_1b_ab_apply v h p q

/-- Entry `k` of a vector of eight, cut out as a vector of one and extracted. -/
theorem elt_apply (k : Nat) (hk : k < 8) (w : S8.Idx → α) (h : S8.Slices ![k] S1) (h' : ∀ a, (![0] : Fin 1 → Nat) a < S1.size a) :
    extractAt ![0] (extractStridedSlice S1 ![k] w h) h' = w (ix1 (⟨k, hk⟩ : Fin 8)) := by
  unfold extractAt
  refine extractStridedSlice_apply _ w h _ (ix1 (⟨k, hk⟩ : Fin 8)) fun a => ?_
  match a with
  | ⟨0, _⟩ => rfl

end Layout

/-! ## The four blocks as rows of numbers -/

/-- Row `p` of the first point block. -/
abbrev av (x2 : Vec Ideal S128x8 .f32) (p : Fin 128) : Fin 8 → EReal := fun k => x2 (ix2 p k)
/-- Row `q` of the second point block. -/
abbrev bv (x3 : Vec Ideal S256x8 .f32) (q : Fin 256) : Fin 8 → EReal := fun k => x3 (ix2 q k)
/-- The inverse length scales. -/
abbrev iv (x0 : Vec Ideal S8 .f32) : Fin 8 → EReal := fun k => x0 (ix1 k)
/-- The variance. -/
abbrev sg (x1 : Vec Ideal S1x1 .f32) : EReal := x1 (ix2 (0 : Fin 1) (0 : Fin 1))

/-! ## The slabs read at an index -/

section Slabs
variable (x0 : Vec Ideal S8 .f32) (x1 : Vec Ideal S1x1 .f32) (x2 : Vec Ideal S128x8 .f32) (x3 : Vec Ideal S256x8 .f32)
  (p : Fin 128) (q : Fin 256)

/-- The cast of the inverse length scales to their own shape changes nothing. -/
theorem pay1_eq : k0_pay1 x0 = x0 := shapeCast_self x0 shapeCasts_S8_S8

/-- The variance is the one entry of its block. -/
theorem pay2_eq : k0_pay2 x1 = sg x1 := by
  unfold k0_pay2 extractAt
  exact congrArg x1 (funext fun a => match a with | ⟨0, _⟩ => rfl | ⟨1, _⟩ => rfl)

/-- The transposed second block at `(k, q)` is entry `k` of row `q`. -/
theorem pay3_apply (k : Fin 8) : k0_pay3 x3 (ix2 k q) = x3 (ix2 q k) :=
  tr_apply x3 transposes_S256x8_p1_0_S8x256 k q

/-- One scaled-difference slab: (column `k` of the first block along the lanes − row `k` of the transposed second block
    along the sublanes) · entry `k` of the scales, at `(p, q)`. -/
theorem slab_apply (k : Nat) (hk : k < 8) (v1 : FVec Ideal S8 .f32) (y : FVec Ideal S8x256 .f32)
    (h1 : S128x8.Slices ![0, k] S128x1) (h2 : S8x256.Slices ![k, 0] S1x256) (h3 : S8.Slices ![k] S1) :
    mulf (subf (broadcastTo S128x256 (extractStridedSlice S128x1 ![0, k] x2 h1) broadcasts_S128x1_S128x256)
          (broadcastTo S128x256 (extractStridedSlice S1x256 ![k, 0] y h2) broadcasts_S1x256_S128x256))
        (broadcast S128x256 (extractAt ![0] (extractStridedSlice S1 ![k] v1 h3) inpos_S1_p0)) (ix2 p q)
      = (x2 (ix2 p (⟨k, hk⟩ : Fin 8)) - y (ix2 (⟨k, hk⟩ : Fin 8) q)) * v1 (ix1 (⟨k, hk⟩ : Fin 8)) := by
  rw [mulf_apply, subf_apply, broadcast_apply, bcol_apply, brow_apply, col_apply k hk, row_apply k hk, elt_apply k hk]

/-- Slab 0 is the scaled difference of feature 0. -/
theorem R0_apply : k0_pay4 x0 x2 x3 (ix2 p q) = rk (av x2 p) (bv x3 q) (iv x0) 0 := by
  unfold k0_pay4
  refine (slab_apply x2 p q 0 (by omega) (k0_pay1 x0) (k0_pay3 x3) _ _ _).trans ?_
  rw [pay3_apply, pay1_eq]
  rfl

/-- Slab 1 is the scaled difference of feature 1. -/
theorem R1_apply : k0_pay5 x0 x2 x3 (ix2 p q) = rk (av x2 p) (bv x3 q) (iv x0) 1 := by
  unfold k0_pay5
  refine (slab_apply x2 p q 1 (by omega) (k0_pay1 x0) (k0_pay3 x3) _ _ _).trans ?_
  rw [pay3_apply, pay1_eq]
  rfl

/-- Slab 2 is the scaled difference of feature 2. -/
theorem R2_apply : k0_pay6 x0 x2 x3 (ix2 p q) = rk (av x2 p) (bv x3 q) (iv x0) 2 := by
  unfold k0_pay6
  refine (slab_apply x2 p q 2 (by omega) (k0_pay1 x0) (k0_pay3 x3) _ _ _).trans ?_
  rw [pay3_apply, pay1_eq]
  rfl

/-- Slab 3 is the scaled difference of feature 3. -/
theorem R3_apply : k0_pay8 x0 x2 x3 (ix2 p q) = rk (av x2 p) (bv x3 q) (iv x0) 3 := by
  unfold k0_pay8
  refine (slab_apply x2 p q 3 (by omega) (k0_pay1 x0) (k0_pay3 x3) _ _ _).trans ?_
  rw [pay3_apply, pay1_eq]
  rfl

/-- Slab 4 is the scaled difference of feature 4. -/
theorem R4_apply : k0_pay9 (k0_pay1 x0) x2 (k0_pay3 x3) (ix2 p q) = rk (av x2 p) (bv x3 q) (iv x0) 4 := by
  unfold k0_pay9
  refine (slab_apply x2 p q 4 (by omega) (k0_pay1 x0) (k0_pay3 x3) _ _ _).trans ?_
  rw [pay3_apply, pay1_eq]
  rfl

/-- Slab 5 is the scaled difference of feature 5. -/
theorem R5_apply : k0_pay10 (k0_pay1 x0) x2 (k0_pay3 x3) (ix2 p q) = rk (av x2 p) (bv x3 q) (iv x0) 5 := by
  unfold k0_pay10
  refine (slab_apply x2 p q 5 (by omega) (k0_pay1 x0) (k0_pay3 x3) _ _ _).trans ?_
  rw [pay3_apply, pay1_eq]
  rfl

/-- Slab 6 is the scaled difference of feature 6. -/
theorem R6_apply : k0_pay11 (k0_pay1 x0) x2 (k0_pay3 x3) (ix2 p q) = rk (av x2 p) (bv x3 q) (iv x0) 6 := by
  unfold k0_pay11
  refine (slab_apply x2 p q 6 (by omega) (k0_pay1 x0) (k0_pay3 x3) _ _ _).trans ?_
  rw [pay3_apply, pay1_eq]
  rfl

/-- Slab 7 is the scaled difference of feature 7. -/
theorem R7_apply : k0_pay12 (k0_pay1 x0) x2 (k0_pay3 x3) (ix2 p q) = rk (av x2 p) (bv x3 q) (iv x0) 7 := by
  unfold k0_pay12
  refine (slab_apply x2 p q 7 (by omega) (k0_pay1 x0) (k0_pay3 x3) _ _ _).trans ?_
  rw [pay3_apply, pay1_eq]
  rfl

/-- The exponential of a slab, read at an index. -/
theorem exp_apply {s : Shape} (a : FVec Ideal s .f32) (i : s.Idx) : exp a i = Ideal.exp (a i) := rfl

/-- The running sum of the first three squares, from the zero word. -/
theorem sq3_apply : k0_pay7 x0 x2 x3 (ix2 p q)
    = ((z0 + rk (av x2 p) (bv x3 q) (iv x0) 0 * rk (av x2 p) (bv x3 q) (iv x0) 0)
        + rk (av x2 p) (bv x3 q) (iv x0) 1 * rk (av x2 p) (bv x3 q) (iv x0) 1)
        + rk (av x2 p) (bv x3 q) (iv x0) 2 * rk (av x2 p) (bv x3 q) (iv x0) 2 := by
  unfold k0_pay7
  simp only [addf_apply, mulf_apply, broadcast_apply, R0_apply, R1_apply, R2_apply]
  rfl

/-- The covariance slab: the exponential of −½ times the sum of the eight squares, times the variance. -/
theorem C_apply : k0_pay13 (k0_pay1 x0) (k0_pay2 x1) x2 (k0_pay3 x3) (k0_pay7 x0 x2 x3) (k0_pay8 x0 x2 x3) (ix2 p q)
    = covK (av x2 p) (bv x3 q) (iv x0) (sg x1) := by
  unfold k0_pay13
  simp only [addf_apply, mulf_apply, broadcast_apply, exp_apply, sq3_apply, R3_apply, R4_apply, R5_apply, R6_apply,
    R7_apply, pay2_eq]
  rfl

end Slabs

/-! ## The products with a scale and with the covariance, for any slabs -/

section Generic
variable (v1 : FVec Ideal S8 .f32) (r c : FVec Ideal S128x256 .f32) (p : Fin 128) (q : Fin 256)

/-- A slab times entry 0 of the scales. -/
theorem RR0_apply : k0_pay14 v1 r (ix2 p q) = r (ix2 p q) * v1 (ix1 0) := by
  unfold k0_pay14
  rw [mulf_apply, broadcast_apply, elt_apply 0 (by omega)]
  rfl

/-- A slab times entry 1 of the scales. -/
theorem RR1_apply : k0_pay15 v1 r (ix2 p q) = r (ix2 p q) * v1 (ix1 1) := by
  unfold k0_pay15
  rw [mulf_apply, broadcast_apply, elt_apply 1 (by omega)]
  rfl

/-- A slab times entry 2 of the scales. -/
theorem RR2_apply : k0_pay16 v1 r (ix2 p q) = r (ix2 p q) * v1 (ix1 2) := by
  unfold k0_pay16
  rw [mulf_apply, broadcast_apply, elt_apply 2 (by omega)]
  rfl

/-- A slab times entry 3 of the scales. -/
theorem RR3_apply : k0_pay17 v1 r (ix2 p q) = r (ix2 p q) * v1 (ix1 3) := by
  unfold k0_pay17
  rw [mulf_apply, broadcast_apply, elt_apply 3 (by omega)]
  rfl

/-- A slab times entry 4 of the scales. -/
theorem RR4_apply : k0_pay18 v1 r (ix2 p q) = r (ix2 p q) * v1 (ix1 4) := by
  unfold k0_pay18
  rw [mulf_apply, broadcast_apply, elt_apply 4 (by omega)]
  rfl

/-- A slab times entry 5 of the scales. -/
theorem RR5_apply : k0_pay19 v1 r (ix2 p q) = r (ix2 p q) * v1 (ix1 5) := by
  unfold k0_pay19
  rw [mulf_apply, broadcast_apply, elt_apply 5 (by omega)]
  rfl

/-- A slab times entry 6 of the scales. -/
theorem RR6_apply : k0_pay20 v1 r (ix2 p q) = r (ix2 p q) * v1 (ix1 6) := by
  unfold k0_pay20
  rw [mulf_apply, broadcast_apply, elt_apply 6 (by omega)]
  rfl

/-- A slab times entry 7 of the scales. -/
theorem RR7_apply : k0_pay21 v1 r (ix2 p q) = r (ix2 p q) * v1 (ix1 7) := by
  unfold k0_pay21
  rw [mulf_apply, broadcast_apply, elt_apply 7 (by omega)]
  rfl

/-- The covariance slab times a slab. -/
theorem G0_apply : k0_pay22 c r (ix2 p q) = c (ix2 p q) * r (ix2 p q) := rfl

/-- The covariance slab times (a slab times entry 1 of the scales). -/
theorem G1_apply : k0_pay23 v1 r c (ix2 p q) = c (ix2 p q) * (r (ix2 p q) * v1 (ix1 1)) := by
  unfold k0_pay23
  rw [mulf_apply, RR1_apply]

/-- The covariance slab times (a slab times entry 2 of the scales). -/
theorem G2_apply : k0_pay24 v1 r c (ix2 p q) = c (ix2 p q) * (r (ix2 p q) * v1 (ix1 2)) := by
  unfold k0_pay24
  rw [mulf_apply, RR2_apply]

/-- The covariance slab times (a slab times entry 3 of the scales). -/
theorem G3_apply : k0_pay25 v1 r c (ix2 p q) = c (ix2 p q) * (r (ix2 p q) * v1 (ix1 3)) := by
  unfold k0_pay25
  rw [mulf_apply, RR3_apply]

/-- The covariance slab times (a slab times entry 4 of the scales). -/
theorem G4_apply : k0_pay26 v1 r c (ix2 p q) = c (ix2 p q) * (r (ix2 p q) * v1 (ix1 4)) := by
  unfold k0_pay26
  rw [mulf_apply, RR4_apply]

/-- The covariance slab times (a slab times entry 5 of the scales). -/
theorem G5_apply : k0_pay27 v1 r c (ix2 p q) = c (ix2 p q) * (r (ix2 p q) * v1 (ix1 5)) := by
  unfold k0_pay27
  rw [mulf_apply, RR5_apply]

/-- The covariance slab times (a slab times entry 6 of the scales). -/
theorem G6_apply : k0_pay28 v1 r c (ix2 p q) = c (ix2 p q) * (r (ix2 p q) * v1 (ix1 6)) := by
  unfold k0_pay28
  rw [mulf_apply, RR6_apply]

/-- The covariance slab times (a slab times entry 7 of the scales). -/
theorem G7_apply : k0_pay29 v1 r c (ix2 p q) = c (ix2 p q) * (r (ix2 p q) * v1 (ix1 7)) := by
  unfold k0_pay29
  rw [mulf_apply, RR7_apply]

/-- The zero word less (the covariance slab times a slab). -/
theorem N0_apply : k0_pay30 c r (ix2 p q) = z0 - c (ix2 p q) * r (ix2 p q) := by
  unfold k0_pay30
  rw [subf_apply, broadcast_apply, G0_apply]
  rfl

/-- The zero word less (the covariance slab times (a slab times entry 1 of the scales)). -/
theorem N1_apply : k0_pay31 v1 r c (ix2 p q) = z0 - c (ix2 p q) * (r (ix2 p q) * v1 (ix1 1)) := by
  unfold k0_pay31
  rw [subf_apply, broadcast_apply, G1_apply]
  rfl

/-- The zero word less (the covariance slab times (a slab times entry 2 of the scales)). -/
theorem N2_apply : k0_pay32 v1 r c (ix2 p q) = z0 - c (ix2 p q) * (r (ix2 p q) * v1 (ix1 2)) := by
  unfold k0_pay32
  rw [subf_apply, broadcast_apply, G2_apply]
  rfl

/-- The zero word less (the covariance slab times (a slab times entry 3 of the scales)). -/
theorem N3_apply : k0_pay33 v1 r c (ix2 p q) = z0 - c (ix2 p q) * (r (ix2 p q) * v1 (ix1 3)) := by
  unfold k0_pay33
  rw [subf_apply, broadcast_apply, G3_apply]
  rfl

/-- The zero word less (the covariance slab times (a slab times entry 4 of the scales)). -/
theorem N4_apply : k0_pay34 v1 r c (ix2 p q) = z0 - c (ix2 p q) * (r (ix2 p q) * v1 (ix1 4)) := by
  unfold k0_pay34
  rw [subf_apply, broadcast_apply, G4_apply]
  rfl

/-- The zero word less (the covariance slab times (a slab times entry 5 of the scales)). -/
theorem N5_apply : k0_pay35 v1 r c (ix2 p q) = z0 - c (ix2 p q) * (r (ix2 p q) * v1 (ix1 5)) := by
  unfold k0_pay35
  rw [subf_apply, broadcast_apply, G5_apply]
  rfl

/-- The zero word less (the covariance slab times (a slab times entry 6 of the scales)). -/
theorem N6_apply : k0_pay36 v1 r c (ix2 p q) = z0 - c (ix2 p q) * (r (ix2 p q) * v1 (ix1 6)) := by
  unfold k0_pay36
  rw [subf_apply, broadcast_apply, G6_apply]
  rfl

/-- The zero word less (the covariance slab times (a slab times entry 7 of the scales)). -/
theorem N7_apply : k0_pay37 v1 r c (ix2 p q) = z0 - c (ix2 p q) * (r (ix2 p q) * v1 (ix1 7)) := by
  unfold k0_pay37
  rw [subf_apply, broadcast_apply, G7_apply]
  rfl

end Generic

/-! ## Eight slabs stacked along a new last axis and flattened -/

section Stack
variable {α : Type}

/-- A slab given a unit last axis reads, at `(p, q, 0)`, the slab at `(p, q)`. -/
theorem unit_apply (v : S128x256.Idx → α) (h : S128x256.ShapeCasts S128x256x1) (p : Fin 128) (q : Fin 256) :
    shapeCast S128x256x1 v h (ix3 p q (0 : Fin 1)) = v (ix2 p q) :=
  shapeCast_apply v h _ _ (by
    rw [Shape.rowMajor_val_two, Shape.rowMajor_val_three]
    show p.val * 256 + q.val = (p.val * 256 + q.val) * 1 + 0
    omega)

/-- The row-major cast of `[128, 256, 8]` to `[128, 2048]` reads, at column `q · 8 + k`, the operand at `(p, q, k)`. -/
theorem flat_apply (X : S128x256x8.Idx → α) (h : S128x256x8.ShapeCasts S128x2048) (p : Fin 128) (q : Fin 256) (k : Fin 8)
    (hlt : q.val * 8 + k.val < 2048) :
    shapeCast S128x2048 X h (ix2 p (⟨q.val * 8 + k.val, hlt⟩ : Fin 2048)) = X (ix3 p q k) :=
  shapeCast_apply X h _ _ (by
    rw [Shape.rowMajor_val_three, Shape.rowMajor_val_two]
    show (p.val * 256 + q.val) * 8 + k.val = p.val * 2048 + (q.val * 8 + k.val)
    omega)

/-- Eight `[128, 256, 1]` pieces concatenated along the last axis read, at `(p, q, 0)`, piece 0 at `(p, q, 0)`. -/
theorem cat0_apply (v0 v1 v2 v3 v4 v5 v6 v7 : S128x256x1.Idx → α)
    (hc : Shape.Concatenates [S128x256x1, S128x256x1, S128x256x1, S128x256x1, S128x256x1, S128x256x1, S128x256x1, S128x256x1] S128x256x8 2)
    (p : Fin 128) (q : Fin 256) :
    concatenate S128x256x8 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc (ix3 p q (0 : Fin 8)) = v0 (ix3 p q (0 : Fin 1)) := by
  refine concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc _ 0 (by show (0 : ℕ) < 8; omega) S128x256x1 v0 rfl rfl 0 rfl (ix3 p q (0 : Fin 1)) ?_ rfl
  intro b hb
  match b with
  | ⟨0, _⟩ => rfl
  | ⟨1, _⟩ => rfl
  | ⟨2, _⟩ => exact absurd rfl hb

/-- Eight `[128, 256, 1]` pieces concatenated along the last axis read, at `(p, q, 1)`, piece 1 at `(p, q, 0)`. -/
theorem cat1_apply (v0 v1 v2 v3 v4 v5 v6 v7 : S128x256x1.Idx → α)
    (hc : Shape.Concatenates [S128x256x1, S128x256x1, S128x256x1, S128x256x1, S128x256x1, S128x256x1, S128x256x1, S128x256x1] S128x256x8 2)
    (p : Fin 128) (q : Fin 256) :
    concatenate S128x256x8 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc (ix3 p q (1 : Fin 8)) = v1 (ix3 p q (0 : Fin 1)) := by
  refine concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc _ 1 (by show (1 : ℕ) < 8; omega) S128x256x1 v1 rfl rfl 1 rfl (ix3 p q (0 : Fin 1)) ?_ rfl
  intro b hb
  match b with
  | ⟨0, _⟩ => rfl
  | ⟨1, _⟩ => rfl
  | ⟨2, _⟩ => exact absurd rfl hb

/-- Eight `[128, 256, 1]` pieces concatenated along the last axis read, at `(p, q, 2)`, piece 2 at `(p, q, 0)`. -/
theorem cat2_apply (v0 v1 v2 v3 v4 v5 v6 v7 : S128x256x1.Idx → α)
    (hc : Shape.Concatenates [S128x256x1, S128x256x1, S128x256x1, S128x256x1, S128x256x1, S128x256x1, S128x256x1, S128x256x1] S128x256x8 2)
    (p : Fin 128) (q : Fin 256) :
    concatenate S128x256x8 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc (ix3 p q (2 : Fin 8)) = v2 (ix3 p q (0 : Fin 1)) := by
  refine concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc _ 2 (by show (2 : ℕ) < 8; omega) S128x256x1 v2 rfl rfl 2 rfl (ix3 p q (0 : Fin 1)) ?_ rfl
  intro b hb
  match b with
  | ⟨0, _⟩ => rfl
  | ⟨1, _⟩ => rfl
  | ⟨2, _⟩ => exact absurd rfl hb

/-- Eight `[128, 256, 1]` pieces concatenated along the last axis read, at `(p, q, 3)`, piece 3 at `(p, q, 0)`. -/
theorem cat3_apply (v0 v1 v2 v3 v4 v5 v6 v7 : S128x256x1.Idx → α)
    (hc : Shape.Concatenates [S128x256x1, S128x256x1, S128x256x1, S128x256x1, S128x256x1, S128x256x1, S128x256x1, S128x256x1] S128x256x8 2)
    (p : Fin 128) (q : Fin 256) :
    concatenate S128x256x8 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc (ix3 p q (3 : Fin 8)) = v3 (ix3 p q (0 : Fin 1)) := by
  refine concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc _ 3 (by show (3 : ℕ) < 8; omega) S128x256x1 v3 rfl rfl 3 rfl (ix3 p q (0 : Fin 1)) ?_ rfl
  intro b hb
  match b with
  | ⟨0, _⟩ => rfl
  | ⟨1, _⟩ => rfl
  | ⟨2, _⟩ => exact absurd rfl hb

/-- Eight `[128, 256, 1]` pieces concatenated along the last axis read, at `(p, q, 4)`, piece 4 at `(p, q, 0)`. -/
theorem cat4_apply (v0 v1 v2 v3 v4 v5 v6 v7 : S128x256x1.Idx → α)
    (hc : Shape.Concatenates [S128x256x1, S128x256x1, S128x256x1, S128x256x1, S128x256x1, S128x256x1, S128x256x1, S128x256x1] S128x256x8 2)
    (p : Fin 128) (q : Fin 256) :
    concatenate S128x256x8 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc (ix3 p q (4 : Fin 8)) = v4 (ix3 p q (0 : Fin 1)) := by
  refine concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc _ 4 (by show (4 : ℕ) < 8; omega) S128x256x1 v4 rfl rfl 4 rfl (ix3 p q (0 : Fin 1)) ?_ rfl
  intro b hb
  match b with
  | ⟨0, _⟩ => rfl
  | ⟨1, _⟩ => rfl
  | ⟨2, _⟩ => exact absurd rfl hb

/-- Eight `[128, 256, 1]` pieces concatenated along the last axis read, at `(p, q, 5)`, piece 5 at `(p, q, 0)`. -/
theorem cat5_apply (v0 v1 v2 v3 v4 v5 v6 v7 : S128x256x1.Idx → α)
    (hc : Shape.Concatenates [S128x256x1, S128x256x1, S128x256x1, S128x256x1, S128x256x1, S128x256x1, S128x256x1, S128x256x1] S128x256x8 2)
    (p : Fin 128) (q : Fin 256) :
    concatenate S128x256x8 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc (ix3 p q (5 : Fin 8)) = v5 (ix3 p q (0 : Fin 1)) := by
  refine concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc _ 5 (by show (5 : ℕ) < 8; omega) S128x256x1 v5 rfl rfl 5 rfl (ix3 p q (0 : Fin 1)) ?_ rfl
  intro b hb
  match b with
  | ⟨0, _⟩ => rfl
  | ⟨1, _⟩ => rfl
  | ⟨2, _⟩ => exact absurd rfl hb

/-- Eight `[128, 256, 1]` pieces concatenated along the last axis read, at `(p, q, 6)`, piece 6 at `(p, q, 0)`. -/
theorem cat6_apply (v0 v1 v2 v3 v4 v5 v6 v7 : S128x256x1.Idx → α)
    (hc : Shape.Concatenates [S128x256x1, S128x256x1, S128x256x1, S128x256x1, S128x256x1, S128x256x1, S128x256x1, S128x256x1] S128x256x8 2)
    (p : Fin 128) (q : Fin 256) :
    concatenate S128x256x8 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc (ix3 p q (6 : Fin 8)) = v6 (ix3 p q (0 : Fin 1)) := by
  refine concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc _ 6 (by show (6 : ℕ) < 8; omega) S128x256x1 v6 rfl rfl 6 rfl (ix3 p q (0 : Fin 1)) ?_ rfl
  intro b hb
  match b with
  | ⟨0, _⟩ => rfl
  | ⟨1, _⟩ => rfl
  | ⟨2, _⟩ => exact absurd rfl hb

/-- Eight `[128, 256, 1]` pieces concatenated along the last axis read, at `(p, q, 7)`, piece 7 at `(p, q, 0)`. -/
theorem cat7_apply (v0 v1 v2 v3 v4 v5 v6 v7 : S128x256x1.Idx → α)
    (hc : Shape.Concatenates [S128x256x1, S128x256x1, S128x256x1, S128x256x1, S128x256x1, S128x256x1, S128x256x1, S128x256x1] S128x256x8 2)
    (p : Fin 128) (q : Fin 256) :
    concatenate S128x256x8 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc (ix3 p q (7 : Fin 8)) = v7 (ix3 p q (0 : Fin 1)) := by
  refine concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] hc _ 7 (by show (7 : ℕ) < 8; omega) S128x256x1 v7 rfl rfl 7 rfl (ix3 p q (0 : Fin 1)) ?_ rfl
  intro b hb
  match b with
  | ⟨0, _⟩ => rfl
  | ⟨1, _⟩ => rfl
  | ⟨2, _⟩ => exact absurd rfl hb

end Stack

/-! ## The two stacking payloads at column `q · 8 + k` -/

section Pay3839
variable (v0 v1 v2 v3 v4 v5 v6 v7 : FVec Ideal S128x256 .f32) (p : Fin 128) (q : Fin 256)

/-- Column `q · 8 + 0` of row `p` of the stacked and flattened slabs is slab 0 at `(p, q)`. -/
theorem pay38_0 (hlt : q.val * 8 + 0 < 2048) :
    k0_pay38 v0 v1 v2 v3 v4 v5 v6 v7 (ix2 p (⟨q.val * 8 + 0, hlt⟩ : Fin 2048)) = v0 (ix2 p q) := by
  unfold k0_pay38
  refine (flat_apply _ _ p q (0 : Fin 8) hlt).trans ?_
  refine (cat0_apply _ _ _ _ _ _ _ _ _ p q).trans ?_
  exact unit_apply v0 _ p q

/-- Column `q · 8 + 1` of row `p` of the stacked and flattened slabs is slab 1 at `(p, q)`. -/
theorem pay38_1 (hlt : q.val * 8 + 1 < 2048) :
    k0_pay38 v0 v1 v2 v3 v4 v5 v6 v7 (ix2 p (⟨q.val * 8 + 1, hlt⟩ : Fin 2048)) = v1 (ix2 p q) := by
  unfold k0_pay38
  refine (flat_apply _ _ p q (1 : Fin 8) hlt).trans ?_
  refine (cat1_apply _ _ _ _ _ _ _ _ _ p q).trans ?_
  exact unit_apply v1 _ p q

/-- Column `q · 8 + 2` of row `p` of the stacked and flattened slabs is slab 2 at `(p, q)`. -/
theorem pay38_2 (hlt : q.val * 8 + 2 < 2048) :
    k0_pay38 v0 v1 v2 v3 v4 v5 v6 v7 (ix2 p (⟨q.val * 8 + 2, hlt⟩ : Fin 2048)) = v2 (ix2 p q) := by
  unfold k0_pay38
  refine (flat_apply _ _ p q (2 : Fin 8) hlt).trans ?_
  refine (cat2_apply _ _ _ _ _ _ _ _ _ p q).trans ?_
  exact unit_apply v2 _ p q

/-- Column `q · 8 + 3` of row `p` of the stacked and flattened slabs is slab 3 at `(p, q)`. -/
theorem pay38_3 (hlt : q.val * 8 + 3 < 2048) :
    k0_pay38 v0 v1 v2 v3 v4 v5 v6 v7 (ix2 p (⟨q.val * 8 + 3, hlt⟩ : Fin 2048)) = v3 (ix2 p q) := by
  unfold k0_pay38
  refine (flat_apply _ _ p q (3 : Fin 8) hlt).trans ?_
  refine (cat3_apply _ _ _ _ _ _ _ _ _ p q).trans ?_
  exact unit_apply v3 _ p q

/-- Column `q · 8 + 4` of row `p` of the stacked and flattened slabs is slab 4 at `(p, q)`. -/
theorem pay38_4 (hlt : q.val * 8 + 4 < 2048) :
    k0_pay38 v0 v1 v2 v3 v4 v5 v6 v7 (ix2 p (⟨q.val * 8 + 4, hlt⟩ : Fin 2048)) = v4 (ix2 p q) := by
  unfold k0_pay38
  refine (flat_apply _ _ p q (4 : Fin 8) hlt).trans ?_
  refine (cat4_apply _ _ _ _ _ _ _ _ _ p q).trans ?_
  exact unit_apply v4 _ p q

/-- Column `q · 8 + 5` of row `p` of the stacked and flattened slabs is slab 5 at `(p, q)`. -/
theorem pay38_5 (hlt : q.val * 8 + 5 < 2048) :
    k0_pay38 v0 v1 v2 v3 v4 v5 v6 v7 (ix2 p (⟨q.val * 8 + 5, hlt⟩ : Fin 2048)) = v5 (ix2 p q) := by
  unfold k0_pay38
  refine (flat_apply _ _ p q (5 : Fin 8) hlt).trans ?_
  refine (cat5_apply _ _ _ _ _ _ _ _ _ p q).trans ?_
  exact unit_apply v5 _ p q

/-- Column `q · 8 + 6` of row `p` of the stacked and flattened slabs is slab 6 at `(p, q)`. -/
theorem pay38_6 (hlt : q.val * 8 + 6 < 2048) :
    k0_pay38 v0 v1 v2 v3 v4 v5 v6 v7 (ix2 p (⟨q.val * 8 + 6, hlt⟩ : Fin 2048)) = v6 (ix2 p q) := by
  unfold k0_pay38
  refine (flat_apply _ _ p q (6 : Fin 8) hlt).trans ?_
  refine (cat6_apply _ _ _ _ _ _ _ _ _ p q).trans ?_
  exact unit_apply v6 _ p q

/-- Column `q · 8 + 7` of row `p` of the stacked and flattened slabs is slab 7 at `(p, q)`. -/
theorem pay38_7 (hlt : q.val * 8 + 7 < 2048) :
    k0_pay38 v0 v1 v2 v3 v4 v5 v6 v7 (ix2 p (⟨q.val * 8 + 7, hlt⟩ : Fin 2048)) = v7 (ix2 p q) := by
  unfold k0_pay38
  refine (flat_apply _ _ p q (7 : Fin 8) hlt).trans ?_
  refine (cat7_apply _ _ _ _ _ _ _ _ _ p q).trans ?_
  exact unit_apply v7 _ p q

/-- Column `q · 8 + 0` of row `p` of the stacked and flattened slabs is slab 0 at `(p, q)`. -/
theorem pay39_0 (hlt : q.val * 8 + 0 < 2048) :
    k0_pay39 v0 v1 v2 v3 v4 v5 v6 v7 (ix2 p (⟨q.val * 8 + 0, hlt⟩ : Fin 2048)) = v0 (ix2 p q) := by
  unfold k0_pay39
  refine (flat_apply _ _ p q (0 : Fin 8) hlt).trans ?_
  refine (cat0_apply _ _ _ _ _ _ _ _ _ p q).trans ?_
  exact unit_apply v0 _ p q

/-- Column `q · 8 + 1` of row `p` of the stacked and flattened slabs is slab 1 at `(p, q)`. -/
theorem pay39_1 (hlt : q.val * 8 + 1 < 2048) :
    k0_pay39 v0 v1 v2 v3 v4 v5 v6 v7 (ix2 p (⟨q.val * 8 + 1, hlt⟩ : Fin 2048)) = v1 (ix2 p q) := by
  unfold k0_pay39
  refine (flat_apply _ _ p q (1 : Fin 8) hlt).trans ?_
  refine (cat1_apply _ _ _ _ _ _ _ _ _ p q).trans ?_
  exact unit_apply v1 _ p q

/-- Column `q · 8 + 2` of row `p` of the stacked and flattened slabs is slab 2 at `(p, q)`. -/
theorem pay39_2 (hlt : q.val * 8 + 2 < 2048) :
    k0_pay39 v0 v1 v2 v3 v4 v5 v6 v7 (ix2 p (⟨q.val * 8 + 2, hlt⟩ : Fin 2048)) = v2 (ix2 p q) := by
  unfold k0_pay39
  refine (flat_apply _ _ p q (2 : Fin 8) hlt).trans ?_
  refine (cat2_apply _ _ _ _ _ _ _ _ _ p q).trans ?_
  exact unit_apply v2 _ p q

/-- Column `q · 8 + 3` of row `p` of the stacked and flattened slabs is slab 3 at `(p, q)`. -/
theorem pay39_3 (hlt : q.val * 8 + 3 < 2048) :
    k0_pay39 v0 v1 v2 v3 v4 v5 v6 v7 (ix2 p (⟨q.val * 8 + 3, hlt⟩ : Fin 2048)) = v3 (ix2 p q) := by
  unfold k0_pay39
  refine (flat_apply _ _ p q (3 : Fin 8) hlt).trans ?_
  refine (cat3_apply _ _ _ _ _ _ _ _ _ p q).trans ?_
  exact unit_apply v3 _ p q

/-- Column `q · 8 + 4` of row `p` of the stacked and flattened slabs is slab 4 at `(p, q)`. -/
theorem pay39_4 (hlt : q.val * 8 + 4 < 2048) :
    k0_pay39 v0 v1 v2 v3 v4 v5 v6 v7 (ix2 p (⟨q.val * 8 + 4, hlt⟩ : Fin 2048)) = v4 (ix2 p q) := by
  unfold k0_pay39
  refine (flat_apply _ _ p q (4 : Fin 8) hlt).trans ?_
  refine (cat4_apply _ _ _ _ _ _ _ _ _ p q).trans ?_
  exact unit_apply v4 _ p q

/-- Column `q · 8 + 5` of row `p` of the stacked and flattened slabs is slab 5 at `(p, q)`. -/
theorem pay39_5 (hlt : q.val * 8 + 5 < 2048) :
    k0_pay39 v0 v1 v2 v3 v4 v5 v6 v7 (ix2 p (⟨q.val * 8 + 5, hlt⟩ : Fin 2048)) = v5 (ix2 p q) := by
  unfold k0_pay39
  refine (flat_apply _ _ p q (5 : Fin 8) hlt).trans ?_
  refine (cat5_apply _ _ _ _ _ _ _ _ _ p q).trans ?_
  exact unit_apply v5 _ p q

/-- Column `q · 8 + 6` of row `p` of the stacked and flattened slabs is slab 6 at `(p, q)`. -/
theorem pay39_6 (hlt : q.val * 8 + 6 < 2048) :
    k0_pay39 v0 v1 v2 v3 v4 v5 v6 v7 (ix2 p (⟨q.val * 8 + 6, hlt⟩ : Fin 2048)) = v6 (ix2 p q) := by
  unfold k0_pay39
  refine (flat_apply _ _ p q (6 : Fin 8) hlt).trans ?_
  refine (cat6_apply _ _ _ _ _ _ _ _ _ p q).trans ?_
  exact unit_apply v6 _ p q

/-- Column `q · 8 + 7` of row `p` of the stacked and flattened slabs is slab 7 at `(p, q)`. -/
theorem pay39_7 (hlt : q.val * 8 + 7 < 2048) :
    k0_pay39 v0 v1 v2 v3 v4 v5 v6 v7 (ix2 p (⟨q.val * 8 + 7, hlt⟩ : Fin 2048)) = v7 (ix2 p q) := by
  unfold k0_pay39
  refine (flat_apply _ _ p q (7 : Fin 8) hlt).trans ?_
  refine (cat7_apply _ _ _ _ _ _ _ _ _ p q).trans ?_
  exact unit_apply v7 _ p q

end Pay3839

/-! ## The three stored blocks -/

section Stores
variable (x0 : Vec Ideal S8 .f32) (x1 : Vec Ideal S1x1 .f32) (x2 : Vec Ideal S128x8 .f32) (x3 : Vec Ideal S256x8 .f32)
  (p : Fin 128) (q : Fin 256)

/-- The offsets of a whole-block rectangle of rank one are zero. -/
theorem hz1 : (![0] : Fin 1 → Nat) = fun _ => 0 := funext fun a => match a with | ⟨0, _⟩ => rfl
/-- The offsets of a whole-block rectangle of rank two are zero. -/
theorem hz2 : (![0, 0] : Fin 2 → Nat) = fun _ => 0 := funext fun a => match a with | ⟨0, _⟩ => rfl | ⟨1, _⟩ => rfl

/-- The stored covariance block is the covariance of row `p` and row `q`. -/
theorem out4_apply : out0_4 x0 x1 x2 x3 (ix2 p q) = covK (av x2 p) (bv x3 q) (iv x0) (sg x1) := by
  unfold out0_4
  rw [View.canon_unit_zero hz2]
  simp only [View.ld_unit_zero (S := S8) hz1, View.ld_unit_zero (S := S1x1) hz2, View.ld_unit_zero (S := S128x8) hz2,
    View.ld_unit_zero (S := S256x8) hz2]
  exact C_apply x0 x1 x2 x3 p q

/-- The stored block of the derivative in the first argument: column `q · 8 + k` of row `p` is `0 − cov · rr k`. -/
theorem out5_apply (k : Fin 8) :
    out0_5 x0 x1 x2 x3 (ix2 p (⟨q.val * 8 + k.val, by omega⟩ : Fin 2048))
      = dxK (av x2 p) (bv x3 q) (iv x0) (sg x1) k := by
  unfold out0_5
  rw [View.canon_unit_zero hz2]
  simp only [View.ld_unit_zero (S := S8) hz1, View.ld_unit_zero (S := S1x1) hz2, View.ld_unit_zero (S := S128x8) hz2,
    View.ld_unit_zero (S := S256x8) hz2]
  match k with
  | ⟨0, _⟩ =>
    refine (pay38_0 _ _ _ _ _ _ _ _ p q _).trans ?_
    rw [N0_apply, RR0_apply, C_apply, R0_apply, pay1_eq]
    rfl
  | ⟨1, _⟩ =>
    refine (pay38_1 _ _ _ _ _ _ _ _ p q _).trans ?_
    rw [N1_apply, C_apply, R1_apply, pay1_eq]
    rfl
  | ⟨2, _⟩ =>
    refine (pay38_2 _ _ _ _ _ _ _ _ p q _).trans ?_
    rw [N2_apply, C_apply, R2_apply, pay1_eq]
    rfl
  | ⟨3, _⟩ =>
    refine (pay38_3 _ _ _ _ _ _ _ _ p q _).trans ?_
    rw [N3_apply, C_apply, R3_apply, pay1_eq]
    rfl
  | ⟨4, _⟩ =>
    refine (pay38_4 _ _ _ _ _ _ _ _ p q _).trans ?_
    rw [N4_apply, C_apply, R4_apply, pay1_eq]
    rfl
  | ⟨5, _⟩ =>
    refine (pay38_5 _ _ _ _ _ _ _ _ p q _).trans ?_
    rw [N5_apply, C_apply, R5_apply, pay1_eq]
    rfl
  | ⟨6, _⟩ =>
    refine (pay38_6 _ _ _ _ _ _ _ _ p q _).trans ?_
    rw [N6_apply, C_apply, R6_apply, pay1_eq]
    rfl
  | ⟨7, _⟩ =>
    refine (pay38_7 _ _ _ _ _ _ _ _ p q _).trans ?_
    rw [N7_apply, C_apply, R7_apply, pay1_eq]
    rfl

/-- The stored block of the derivative in the second argument: column `q · 8 + k` of row `p` is `cov · rr k`. -/
theorem out6_apply (k : Fin 8) :
    out0_6 x0 x1 x2 x3 (ix2 p (⟨q.val * 8 + k.val, by omega⟩ : Fin 2048))
      = dxxK (av x2 p) (bv x3 q) (iv x0) (sg x1) k := by
  unfold out0_6
  rw [View.canon_unit_zero hz2]
  simp only [View.ld_unit_zero (S := S8) hz1, View.ld_unit_zero (S := S1x1) hz2, View.ld_unit_zero (S := S128x8) hz2,
    View.ld_unit_zero (S := S256x8) hz2]
  match k with
  | ⟨0, _⟩ =>
    refine (pay39_0 _ _ _ _ _ _ _ _ p q _).trans ?_
    rw [G0_apply, RR0_apply, C_apply, R0_apply, pay1_eq]
    rfl
  | ⟨1, _⟩ =>
    refine (pay39_1 _ _ _ _ _ _ _ _ p q _).trans ?_
    rw [G1_apply, C_apply, R1_apply, pay1_eq]
    rfl
  | ⟨2, _⟩ =>
    refine (pay39_2 _ _ _ _ _ _ _ _ p q _).trans ?_
    rw [G2_apply, C_apply, R2_apply, pay1_eq]
    rfl
  | ⟨3, _⟩ =>
    refine (pay39_3 _ _ _ _ _ _ _ _ p q _).trans ?_
    rw [G3_apply, C_apply, R3_apply, pay1_eq]
    rfl
  | ⟨4, _⟩ =>
    refine (pay39_4 _ _ _ _ _ _ _ _ p q _).trans ?_
    rw [G4_apply, C_apply, R4_apply, pay1_eq]
    rfl
  | ⟨5, _⟩ =>
    refine (pay39_5 _ _ _ _ _ _ _ _ p q _).trans ?_
    rw [G5_apply, C_apply, R5_apply, pay1_eq]
    rfl
  | ⟨6, _⟩ =>
    refine (pay39_6 _ _ _ _ _ _ _ _ p q _).trans ?_
    rw [G6_apply, C_apply, R6_apply, pay1_eq]
    rfl
  | ⟨7, _⟩ =>
    refine (pay39_7 _ _ _ _ _ _ _ _ p q _).trans ?_
    rw [G7_apply, C_apply, R7_apply, pay1_eq]
    rfl

/-- The same block read at any column: column `c` of row `p` belongs to the pair `(p, c / 8)` and feature `c % 8`. -/
theorem out5_col (col : Fin 2048) :
    out0_5 x0 x1 x2 x3 (ix2 p col)
      = dxK (fun k : Fin 8 => x2 (ix2 p k))
          (fun k : Fin 8 => x3 (ix2 (⟨col.val / 8, by have := col.isLt; omega⟩ : Fin 256) k))
          (fun k : Fin 8 => x0 (ix1 k)) (x1 (ix2 0 0)) (⟨col.val % 8, Nat.mod_lt _ (by norm_num)⟩ : Fin 8) := by
  have hc : col = (⟨col.val / 8 * 8 + col.val % 8, by have := col.isLt; omega⟩ : Fin 2048) :=
    Fin.ext (by show col.val = col.val / 8 * 8 + col.val % 8; omega)
  exact (congrArg (fun z => out0_5 x0 x1 x2 x3 (ix2 p z)) hc).trans
    (out5_apply x0 x1 x2 x3 p ⟨col.val / 8, by have := col.isLt; omega⟩ ⟨col.val % 8, Nat.mod_lt _ (by norm_num)⟩)

/-- The same for the derivative in the second argument. -/
theorem out6_col (col : Fin 2048) :
    out0_6 x0 x1 x2 x3 (ix2 p col)
      = dxxK (fun k : Fin 8 => x2 (ix2 p k))
          (fun k : Fin 8 => x3 (ix2 (⟨col.val / 8, by have := col.isLt; omega⟩ : Fin 256) k))
          (fun k : Fin 8 => x0 (ix1 k)) (x1 (ix2 0 0)) (⟨col.val % 8, Nat.mod_lt _ (by norm_num)⟩ : Fin 8) := by
  have hc : col = (⟨col.val / 8 * 8 + col.val % 8, by have := col.isLt; omega⟩ : Fin 2048) :=
    Fin.ext (by show col.val = col.val / 8 * 8 + col.val % 8; omega)
  exact (congrArg (fun z => out0_6 x0 x1 x2 x3 (ix2 p z)) hc).trans
    (out6_apply x0 x1 x2 x3 p ⟨col.val / 8, by have := col.isLt; omega⟩ ⟨col.val % 8, Nat.mod_lt _ (by norm_num)⟩)

end Stores

end Cert.KernelIdeal.Pay

end
-- ==== Proof.PayD2.lean ====
/-
  The second-derivative block of the radial-basis-function kernel, read at one index, over abstract slabs.

  For feature pairs (i, j) the block holds, at row p and column q·64 + i·8 + j, the value
    (0 − g_i)·rr_j  at (p, q),  plus  c·(ι_i·ι_i)  when i = j,
  where c is the covariance slab, rr_k the twice-scaled differences, g_k = c·rr_k, and ι the inverse length scales.
  The value is assembled by stacking: each of the 64 slabs gets a trailing unit axis and eight of them are laid side by
  side into a [128,256,8] row-stack (index (p, q, j)); each row-stack gets a unit axis before its last one and the
  eight are laid along it into [128,256,8,8] (index (p, q, i, j)); the last three axes are then flattened row-major.
  Reading the result at an index therefore goes backwards through one flattening, one stacking, one unit-axis cast,
  another stacking and another unit-axis cast, and ends at one product (and, on the diagonal, one sum) of slab entries.
-/
import proofs.«158023_j22204980920839_2_alg».proof.Proof.Gen.KernelIdeal.Skeleton
import proofs.«158023_j22204980920839_2_alg».proof.Proof.Spec
import Idealize.ShloMosaic.Lib.ValueIdx
import Idealize.ShloMosaic.Lib.Pipeline.Value

noncomputable section

namespace Cert.KernelIdeal.PayD2

open Cert.KernelIdeal Cert.KernelIdeal.Gen Cert.RbfSpec Idealize.ShloMosaic Idealize.ShloMosaic.ValueIdx

/-! ## Layout steps read at an index -/

section Layout
variable {α : Type}

/-- Adding a trailing unit axis: position (p, q, 0) of the cast is position (p, q) of the operand. -/
theorem cast_unit_apply (v : S128x256.Idx → α) (h : S128x256.ShapeCasts S128x256x1) (p : Fin 128) (q : Fin 256) (z : Fin 1) :
    shapeCast S128x256x1 v h (ix3 p q z) = v (ix2 p q) := by
  refine shapeCast_apply v h _ _ ?_
  rw [Shape.rowMajor_val_two, Shape.rowMajor_val_three]
  show p.val * 256 + q.val = (p.val * 256 + q.val) * 1 + z.val
  omega

/-- Inserting a unit axis before the last one: position (p, q, 0, j) of the cast is position (p, q, j) of the operand. -/
theorem cast_row_apply (v : S128x256x8.Idx → α) (h : S128x256x8.ShapeCasts S128x256x1x8) (p : Fin 128) (q : Fin 256) (z : Fin 1)
    (j : Fin 8) : shapeCast S128x256x1x8 v h (ix4 p q z j) = v (ix3 p q j) := by
  refine shapeCast_apply v h _ _ ?_
  rw [Shape.rowMajor_val_three, Shape.rowMajor_val_four]
  show (p.val * 256 + q.val) * 8 + j.val = ((p.val * 256 + q.val) * 1 + z.val) * 8 + j.val
  omega

/-- Flattening the last three axes: column q·64 + i·8 + j of the cast is position (p, q, i, j) of the operand. -/
theorem cast_flat_apply (v : S128x256x8x8.Idx → α) (h : S128x256x8x8.ShapeCasts S128x16384) (p : Fin 128) (q : Fin 256)
    (i j : Fin 8) (hc : q.val * 64 + i.val * 8 + j.val < 16384) :
    shapeCast S128x16384 v h (ix2 p (⟨q.val * 64 + i.val * 8 + j.val, hc⟩ : Fin 16384)) = v (ix4 p q i j) := by
  refine shapeCast_apply v h _ _ ?_
  rw [Shape.rowMajor_val_two, Shape.rowMajor_val_four]
  show ((p.val * 256 + q.val) * 8 + i.val) * 8 + j.val = p.val * 16384 + (q.val * 64 + i.val * 8 + j.val)
  omega

end Layout

section Concat
variable {α : Type}

/-- Eight [128,256,1] pieces laid along the last axis: position (p, q, k) reads piece k at (p, q, 0). -/
theorem concat_unit_apply (v0 v1 v2 v3 v4 v5 v6 v7 : S128x256x1.Idx → α)
    (h : Shape.Concatenates [S128x256x1, S128x256x1, S128x256x1, S128x256x1, S128x256x1, S128x256x1, S128x256x1, S128x256x1] S128x256x8 2)
    (p : Fin 128) (q : Fin 256) (k : Fin 8) :
    concatenate S128x256x8 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] h (ix3 p q k) = (![v0, v1, v2, v3, v4, v5, v6, v7] k) (ix3 p q 0) := by
  have hi : ∀ (k : Fin 8) (b : Fin S128x256x1.rank), b.cast (rfl : S128x256x1.rank = S128x256x8.rank) ≠ 2 →
      ((ix3 p q (0 : Fin 1) : S128x256x1.Idx) b).val = ((ix3 p q k : S128x256x8.Idx) (b.cast rfl)).val := fun k b hb =>
    match b with
    | ⟨0, _⟩ => rfl
    | ⟨1, _⟩ => rfl
    | ⟨2, _⟩ => absurd rfl hb
  fin_cases k
  · exact concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] h _ 0 (by simp) S128x256x1 v0 rfl rfl 0 rfl (ix3 p q 0) (hi _) rfl
  · exact concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] h _ 1 (by simp) S128x256x1 v1 rfl rfl 1 rfl (ix3 p q 0) (hi _) rfl
  · exact concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] h _ 2 (by simp) S128x256x1 v2 rfl rfl 2 rfl (ix3 p q 0) (hi _) rfl
  · exact concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] h _ 3 (by simp) S128x256x1 v3 rfl rfl 3 rfl (ix3 p q 0) (hi _) rfl
  · exact concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] h _ 4 (by simp) S128x256x1 v4 rfl rfl 4 rfl (ix3 p q 0) (hi _) rfl
  · exact concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] h _ 5 (by simp) S128x256x1 v5 rfl rfl 5 rfl (ix3 p q 0) (hi _) rfl
  · exact concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] h _ 6 (by simp) S128x256x1 v6 rfl rfl 6 rfl (ix3 p q 0) (hi _) rfl
  · exact concatenate_apply_piece 2 [⟨S128x256x1, v0⟩, ⟨S128x256x1, v1⟩, ⟨S128x256x1, v2⟩, ⟨S128x256x1, v3⟩, ⟨S128x256x1, v4⟩, ⟨S128x256x1, v5⟩, ⟨S128x256x1, v6⟩, ⟨S128x256x1, v7⟩] h _ 7 (by simp) S128x256x1 v7 rfl rfl 7 rfl (ix3 p q 0) (hi _) rfl

/-- Eight [128,256,1,8] pieces laid along the third axis: position (p, q, i, j) reads piece i at (p, q, 0, j). -/
theorem concat_row_apply (v0 v1 v2 v3 v4 v5 v6 v7 : S128x256x1x8.Idx → α)
    (h : Shape.Concatenates [S128x256x1x8, S128x256x1x8, S128x256x1x8, S128x256x1x8, S128x256x1x8, S128x256x1x8, S128x256x1x8, S128x256x1x8] S128x256x8x8 2)
    (p : Fin 128) (q : Fin 256) (i j : Fin 8) :
    concatenate S128x256x8x8 2 [⟨S128x256x1x8, v0⟩, ⟨S128x256x1x8, v1⟩, ⟨S128x256x1x8, v2⟩, ⟨S128x256x1x8, v3⟩, ⟨S128x256x1x8, v4⟩, ⟨S128x256x1x8, v5⟩, ⟨S128x256x1x8, v6⟩, ⟨S128x256x1x8, v7⟩] h (ix4 p q i j) = (![v0, v1, v2, v3, v4, v5, v6, v7] i) (ix4 p q 0 j) := by
  have hi : ∀ (i : Fin 8) (b : Fin S128x256x1x8.rank), b.cast (rfl : S128x256x1x8.rank = S128x256x8x8.rank) ≠ 2 →
      ((ix4 p q (0 : Fin 1) j : S128x256x1x8.Idx) b).val = ((ix4 p q i j : S128x256x8x8.Idx) (b.cast rfl)).val := fun i b hb =>
    match b with
    | ⟨0, _⟩ => rfl
    | ⟨1, _⟩ => rfl
    | ⟨2, _⟩ => absurd rfl hb
    | ⟨3, _⟩ => rfl
  fin_cases i
  · exact concatenate_apply_piece 2 [⟨S128x256x1x8, v0⟩, ⟨S128x256x1x8, v1⟩, ⟨S128x256x1x8, v2⟩, ⟨S128x256x1x8, v3⟩, ⟨S128x256x1x8, v4⟩, ⟨S128x256x1x8, v5⟩, ⟨S128x256x1x8, v6⟩, ⟨S128x256x1x8, v7⟩] h _ 0 (by simp) S128x256x1x8 v0 rfl rfl 0 rfl (ix4 p q 0 j) (hi _) rfl
  · exact concatenate_apply_piece 2 [⟨S128x256x1x8, v0⟩, ⟨S128x256x1x8, v1⟩, ⟨S128x256x1x8, v2⟩, ⟨S128x256x1x8, v3⟩, ⟨S128x256x1x8, v4⟩, ⟨S128x256x1x8, v5⟩, ⟨S128x256x1x8, v6⟩, ⟨S128x256x1x8, v7⟩] h _ 1 (by simp) S128x256x1x8 v1 rfl rfl 1 rfl (ix4 p q 0 j) (hi _) rfl
  · exact concatenate_apply_piece 2 [⟨S128x256x1x8, v0⟩, ⟨S128x256x1x8, v1⟩, ⟨S128x256x1x8, v2⟩, ⟨S128x256x1x8, v3⟩, ⟨S128x256x1x8, v4⟩, ⟨S128x256x1x8, v5⟩, ⟨S128x256x1x8, v6⟩, ⟨S128x256x1x8, v7⟩] h _ 2 (by simp) S128x256x1x8 v2 rfl rfl 2 rfl (ix4 p q 0 j) (hi _) rfl
  · exact concatenate_apply_piece 2 [⟨S128x256x1x8, v0⟩, ⟨S128x256x1x8, v1⟩, ⟨S128x256x1x8, v2⟩, ⟨S128x256x1x8, v3⟩, ⟨S128x256x1x8, v4⟩, ⟨S128x256x1x8, v5⟩, ⟨S128x256x1x8, v6⟩, ⟨S128x256x1x8, v7⟩] h _ 3 (by simp) S128x256x1x8 v3 rfl rfl 3 rfl (ix4 p q 0 j) (hi _) rfl
  · exact concatenate_apply_piece 2 [⟨S128x256x1x8, v0⟩, ⟨S128x256x1x8, v1⟩, ⟨S128x256x1x8, v2⟩, ⟨S128x256x1x8, v3⟩, ⟨S128x256x1x8, v4⟩, ⟨S128x256x1x8, v5⟩, ⟨S128x256x1x8, v6⟩, ⟨S128x256x1x8, v7⟩] h _ 4 (by simp) S128x256x1x8 v4 rfl rfl 4 rfl (ix4 p q 0 j) (hi _) rfl
  · exact concatenate_apply_piece 2 [⟨S128x256x1x8, v0⟩, ⟨S128x256x1x8, v1⟩, ⟨S128x256x1x8, v2⟩, ⟨S128x256x1x8, v3⟩, ⟨S128x256x1x8, v4⟩, ⟨S128x256x1x8, v5⟩, ⟨S128x256x1x8, v6⟩, ⟨S128x256x1x8, v7⟩] h _ 5 (by simp) S128x256x1x8 v5 rfl rfl 5 rfl (ix4 p q 0 j) (hi _) rfl
  · exact concatenate_apply_piece 2 [⟨S128x256x1x8, v0⟩, ⟨S128x256x1x8, v1⟩, ⟨S128x256x1x8, v2⟩, ⟨S128x256x1x8, v3⟩, ⟨S128x256x1x8, v4⟩, ⟨S128x256x1x8, v5⟩, ⟨S128x256x1x8, v6⟩, ⟨S128x256x1x8, v7⟩] h _ 6 (by simp) S128x256x1x8 v6 rfl rfl 6 rfl (ix4 p q 0 j) (hi _) rfl
  · exact concatenate_apply_piece 2 [⟨S128x256x1x8, v0⟩, ⟨S128x256x1x8, v1⟩, ⟨S128x256x1x8, v2⟩, ⟨S128x256x1x8, v3⟩, ⟨S128x256x1x8, v4⟩, ⟨S128x256x1x8, v5⟩, ⟨S128x256x1x8, v6⟩, ⟨S128x256x1x8, v7⟩] h _ 7 (by simp) S128x256x1x8 v7 rfl rfl 7 rfl (ix4 p q 0 j) (hi _) rfl

end Concat

/-! ## The diagonal term's scalar -/

/-- One entry of an [8] vector, cut out as a one-element slice and extracted, is that entry. -/
theorem slice_extract (w : FVec Ideal S8 .f32) (o : Nat) (ho : o < 8) (h : S8.Slices ![o] S1)
    (h0 : ∀ a, (![0] : Fin 1 → Nat) a < S1.size a) :
    extractAt ![0] (extractStridedSlice S1 ![o] w h) h0 = w (ix1 (⟨o, ho⟩ : Fin 8)) := by
  unfold extractAt
  exact extractStridedSlice_apply ![o] w h _ (ix1 (⟨o, ho⟩ : Fin 8)) fun a => match a with | ⟨0, _⟩ => rfl

/-! ## The final stacking -/

/-- The stored [128,16384] block at column q·64 + i·8 + j is row-stack i at (p, q, j). -/
theorem pay83_apply (R0 R1 R2 R3 R4 R5 R6 R7 : FVec Ideal S128x256x8 .f32) (p : Fin 128) (q : Fin 256) (i j : Fin 8)
    (hc : q.val * 64 + i.val * 8 + j.val < 16384) :
    k0_pay83 R0 R1 R2 R3 R4 R5 R6 R7 (ix2 p (⟨q.val * 64 + i.val * 8 + j.val, hc⟩ : Fin 16384))
      = (![R0, R1, R2, R3, R4, R5, R6, R7] i) (ix3 p q j) := by
  unfold k0_pay83
  refine (cast_flat_apply _ _ p q i j hc).trans ?_
  refine (concat_row_apply _ _ _ _ _ _ _ _ _ p q i j).trans ?_
  fin_cases i <;> exact cast_row_apply _ _ p q 0 j

/-- A statement about a feature index holds once it holds at each of the eight. -/
theorem fin8_cases {P : Fin 8 → Prop} (h0 : P 0) (h1 : P 1) (h2 : P 2) (h3 : P 3) (h4 : P 4) (h5 : P 5) (h6 : P 6) (h7 : P 7) :
    ∀ j, P j := by
  intro j; fin_cases j <;> assumption

/-! ## The eight row-stacks -/

/-- Row-stack 0 at (p, q, j): the product (0 − g)·rr_j, with c·(ι_0·ι_0) added on the diagonal j = 0. -/
theorem row0_apply (v1 : FVec Ideal S8 .f32) (c rr0 rr1 rr2 rr3 rr4 rr5 rr6 rr7 g : FVec Ideal S128x256 .f32)
    (p : Fin 128) (q : Fin 256) (j : Fin 8) :
    (k0_pay48 rr6 rr7 g (k0_pay41 v1 c rr0 g) (k0_pay42 rr1 g) (k0_pay43 rr2 g) (k0_pay44 rr3 g) (k0_pay45 rr4 g) (k0_pay46 rr5 g) (k0_pay47 (F := Ideal))) (ix3 p q j)
      = if (0 : Fin 8) = j then (z0 - g (ix2 p q)) * (![rr0, rr1, rr2, rr3, rr4, rr5, rr6, rr7] j) (ix2 p q) + c (ix2 p q) * (v1 (ix1 (0 : Fin 8)) * v1 (ix1 (0 : Fin 8)))
        else (z0 - g (ix2 p q)) * (![rr0, rr1, rr2, rr3, rr4, rr5, rr6, rr7] j) (ix2 p q) := by
  unfold k0_pay48
  refine (concat_unit_apply _ _ _ _ _ _ _ _ _ p q j).trans ?_
  revert j
  refine fin8_cases ?_ ?_ ?_ ?_ ?_ ?_ ?_ ?_ <;> dsimp only [Matrix.cons_val]
  · rw [if_pos rfl]
    refine (cast_unit_apply _ _ p q 0).trans ?_
    unfold k0_pay41 k0_pay40
    rw [addf_apply, mulf_apply, mulf_apply, broadcast_apply, slice_extract _ 0 (by omega)]
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl

/-- Row-stack 1 at (p, q, j): the product (0 − g)·rr_j, with c·(ι_1·ι_1) added on the diagonal j = 1. -/
theorem row1_apply (v1 : FVec Ideal S8 .f32) (c rr0 rr1 rr2 rr3 rr4 rr5 rr6 rr7 g : FVec Ideal S128x256 .f32)
    (p : Fin 128) (q : Fin 256) (j : Fin 8) :
    (k0_pay57 (k0_pay49 rr0 g) (k0_pay50 c rr1 g (k0_pay40 v1)) (k0_pay51 rr2 g) (k0_pay52 rr3 g) (k0_pay53 rr4 g) (k0_pay54 rr5 g) (k0_pay55 rr6 g) (k0_pay56 rr7 g)) (ix3 p q j)
      = if (1 : Fin 8) = j then (z0 - g (ix2 p q)) * (![rr0, rr1, rr2, rr3, rr4, rr5, rr6, rr7] j) (ix2 p q) + c (ix2 p q) * (v1 (ix1 (1 : Fin 8)) * v1 (ix1 (1 : Fin 8)))
        else (z0 - g (ix2 p q)) * (![rr0, rr1, rr2, rr3, rr4, rr5, rr6, rr7] j) (ix2 p q) := by
  unfold k0_pay57 k0_pay49 k0_pay50 k0_pay51 k0_pay52 k0_pay53 k0_pay54 k0_pay55 k0_pay56
  refine (concat_unit_apply _ _ _ _ _ _ _ _ _ p q j).trans ?_
  revert j
  refine fin8_cases ?_ ?_ ?_ ?_ ?_ ?_ ?_ ?_ <;> dsimp only [Matrix.cons_val]
  · rw [if_neg (by decide)]
    refine (cast_unit_apply _ _ p q 0).trans ?_
    rfl
  · rw [if_pos rfl]
    refine (cast_unit_apply _ _ p q 0).trans ?_
    unfold k0_pay40
    rw [addf_apply, mulf_apply, mulf_apply, broadcast_apply, slice_extract _ 1 (by omega)]
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl

/-- Row-stack 2 at (p, q, j): the product (0 − g)·rr_j, with c·(ι_2·ι_2) added on the diagonal j = 2. -/
theorem row2_apply (v1 : FVec Ideal S8 .f32) (c rr0 rr1 rr2 rr3 rr4 rr5 rr6 rr7 g : FVec Ideal S128x256 .f32)
    (p : Fin 128) (q : Fin 256) (j : Fin 8) :
    (k0_pay58 c rr0 rr1 rr2 rr3 rr4 rr5 rr6 rr7 g (k0_pay40 v1)) (ix3 p q j)
      = if (2 : Fin 8) = j then (z0 - g (ix2 p q)) * (![rr0, rr1, rr2, rr3, rr4, rr5, rr6, rr7] j) (ix2 p q) + c (ix2 p q) * (v1 (ix1 (2 : Fin 8)) * v1 (ix1 (2 : Fin 8)))
        else (z0 - g (ix2 p q)) * (![rr0, rr1, rr2, rr3, rr4, rr5, rr6, rr7] j) (ix2 p q) := by
  unfold k0_pay58
  refine (concat_unit_apply _ _ _ _ _ _ _ _ _ p q j).trans ?_
  revert j
  refine fin8_cases ?_ ?_ ?_ ?_ ?_ ?_ ?_ ?_ <;> dsimp only [Matrix.cons_val]
  · rw [if_neg (by decide)]
    refine (cast_unit_apply _ _ p q 0).trans ?_
    rfl
  · rw [if_neg (by decide)]
    refine (cast_unit_apply _ _ p q 0).trans ?_
    rfl
  · rw [if_pos rfl]
    refine (cast_unit_apply _ _ p q 0).trans ?_
    unfold k0_pay40
    rw [addf_apply, mulf_apply, mulf_apply, broadcast_apply, slice_extract _ 2 (by omega)]
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl

/-- Row-stack 3 at (p, q, j): the product (0 − g)·rr_j, with c·(ι_3·ι_3) added on the diagonal j = 3. -/
theorem row3_apply (v1 : FVec Ideal S8 .f32) (c rr0 rr1 rr2 rr3 rr4 rr5 rr6 rr7 g : FVec Ideal S128x256 .f32)
    (p : Fin 128) (q : Fin 256) (j : Fin 8) :
    (k0_pay62 c rr3 rr4 rr5 rr6 rr7 g (k0_pay40 v1) (k0_pay59 rr0 g) (k0_pay60 rr1 g) (k0_pay61 rr2 g) (Scalar.ofBits .f32 0x00000000#32)) (ix3 p q j)
      = if (3 : Fin 8) = j then (z0 - g (ix2 p q)) * (![rr0, rr1, rr2, rr3, rr4, rr5, rr6, rr7] j) (ix2 p q) + c (ix2 p q) * (v1 (ix1 (3 : Fin 8)) * v1 (ix1 (3 : Fin 8)))
        else (z0 - g (ix2 p q)) * (![rr0, rr1, rr2, rr3, rr4, rr5, rr6, rr7] j) (ix2 p q) := by
  unfold k0_pay62
  refine (concat_unit_apply _ _ _ _ _ _ _ _ _ p q j).trans ?_
  revert j
  refine fin8_cases ?_ ?_ ?_ ?_ ?_ ?_ ?_ ?_ <;> dsimp only [Matrix.cons_val]
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_pos rfl]
    refine (cast_unit_apply _ _ p q 0).trans ?_
    unfold k0_pay40
    rw [addf_apply, mulf_apply, mulf_apply, broadcast_apply, slice_extract _ 3 (by omega)]
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl

/-- Row-stack 4 at (p, q, j): the product (0 − g)·rr_j, with c·(ι_4·ι_4) added on the diagonal j = 4. -/
theorem row4_apply (v1 : FVec Ideal S8 .f32) (c rr0 rr1 rr2 rr3 rr4 rr5 rr6 rr7 g : FVec Ideal S128x256 .f32)
    (p : Fin 128) (q : Fin 256) (j : Fin 8) :
    (k0_pay69 rr5 rr6 rr7 g (k0_pay63 rr0 g) (k0_pay64 rr1 g) (k0_pay65 rr2 g) (k0_pay66 rr3 g) (k0_pay67 c rr4 g (k0_pay40 v1)) (k0_pay68 (F := Ideal))) (ix3 p q j)
      = if (4 : Fin 8) = j then (z0 - g (ix2 p q)) * (![rr0, rr1, rr2, rr3, rr4, rr5, rr6, rr7] j) (ix2 p q) + c (ix2 p q) * (v1 (ix1 (4 : Fin 8)) * v1 (ix1 (4 : Fin 8)))
        else (z0 - g (ix2 p q)) * (![rr0, rr1, rr2, rr3, rr4, rr5, rr6, rr7] j) (ix2 p q) := by
  unfold k0_pay69
  refine (concat_unit_apply _ _ _ _ _ _ _ _ _ p q j).trans ?_
  revert j
  refine fin8_cases ?_ ?_ ?_ ?_ ?_ ?_ ?_ ?_ <;> dsimp only [Matrix.cons_val]
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_pos rfl]
    refine (cast_unit_apply _ _ p q 0).trans ?_
    unfold k0_pay67 k0_pay40
    rw [addf_apply, mulf_apply, mulf_apply, broadcast_apply, slice_extract _ 4 (by omega)]
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl

/-- Row-stack 5 at (p, q, j): the product (0 − g)·rr_j, with c·(ι_5·ι_5) added on the diagonal j = 5. -/
theorem row5_apply (v1 : FVec Ideal S8 .f32) (c rr0 rr1 rr2 rr3 rr4 rr5 rr6 rr7 g : FVec Ideal S128x256 .f32)
    (p : Fin 128) (q : Fin 256) (j : Fin 8) :
    (k0_pay78 (k0_pay70 rr4 g) (k0_pay71 c rr5 g (k0_pay40 v1)) (k0_pay72 rr6 g) (k0_pay73 rr7 g) (k0_pay74 rr0 g) (k0_pay75 rr1 g) (k0_pay76 rr2 g) (k0_pay77 rr3 g)) (ix3 p q j)
      = if (5 : Fin 8) = j then (z0 - g (ix2 p q)) * (![rr0, rr1, rr2, rr3, rr4, rr5, rr6, rr7] j) (ix2 p q) + c (ix2 p q) * (v1 (ix1 (5 : Fin 8)) * v1 (ix1 (5 : Fin 8)))
        else (z0 - g (ix2 p q)) * (![rr0, rr1, rr2, rr3, rr4, rr5, rr6, rr7] j) (ix2 p q) := by
  unfold k0_pay78 k0_pay74 k0_pay75 k0_pay76 k0_pay77
  refine (concat_unit_apply _ _ _ _ _ _ _ _ _ p q j).trans ?_
  revert j
  refine fin8_cases ?_ ?_ ?_ ?_ ?_ ?_ ?_ ?_ <;> dsimp only [Matrix.cons_val]
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_pos rfl]
    refine (cast_unit_apply _ _ p q 0).trans ?_
    unfold k0_pay71 k0_pay40
    rw [addf_apply, mulf_apply, mulf_apply, broadcast_apply, slice_extract _ 5 (by omega)]
    rfl
  · rw [if_neg (by decide)]
    refine (cast_unit_apply _ _ p q 0).trans ?_
    rfl
  · rw [if_neg (by decide)]
    refine (cast_unit_apply _ _ p q 0).trans ?_
    rfl

/-- Row-stack 6 at (p, q, j): the product (0 − g)·rr_j, with c·(ι_6·ι_6) added on the diagonal j = 6. -/
theorem row6_apply (v1 : FVec Ideal S8 .f32) (c rr0 rr1 rr2 rr3 rr4 rr5 rr6 rr7 g : FVec Ideal S128x256 .f32)
    (p : Fin 128) (q : Fin 256) (j : Fin 8) :
    (k0_pay79 c rr0 rr1 rr2 rr3 rr4 rr5 rr6 rr7 g (k0_pay40 v1)) (ix3 p q j)
      = if (6 : Fin 8) = j then (z0 - g (ix2 p q)) * (![rr0, rr1, rr2, rr3, rr4, rr5, rr6, rr7] j) (ix2 p q) + c (ix2 p q) * (v1 (ix1 (6 : Fin 8)) * v1 (ix1 (6 : Fin 8)))
        else (z0 - g (ix2 p q)) * (![rr0, rr1, rr2, rr3, rr4, rr5, rr6, rr7] j) (ix2 p q) := by
  unfold k0_pay79
  refine (concat_unit_apply _ _ _ _ _ _ _ _ _ p q j).trans ?_
  revert j
  refine fin8_cases ?_ ?_ ?_ ?_ ?_ ?_ ?_ ?_ <;> dsimp only [Matrix.cons_val]
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_pos rfl]
    refine (cast_unit_apply _ _ p q 0).trans ?_
    unfold k0_pay40
    rw [addf_apply, mulf_apply, mulf_apply, broadcast_apply, slice_extract _ 6 (by omega)]
    rfl
  · rw [if_neg (by decide)]
    refine (cast_unit_apply _ _ p q 0).trans ?_
    rfl

/-- Row-stack 7 at (p, q, j): the product (0 − g)·rr_j, with c·(ι_7·ι_7) added on the diagonal j = 7. -/
theorem row7_apply (v1 : FVec Ideal S8 .f32) (c rr0 rr1 rr2 rr3 rr4 rr5 rr6 rr7 g : FVec Ideal S128x256 .f32)
    (p : Fin 128) (q : Fin 256) (j : Fin 8) :
    (k0_pay82 c rr2 rr3 rr4 rr5 rr6 rr7 g (k0_pay40 v1) (k0_pay80 rr0 g) (k0_pay81 rr1 g) (Scalar.ofBits .f32 0x00000000#32)) (ix3 p q j)
      = if (7 : Fin 8) = j then (z0 - g (ix2 p q)) * (![rr0, rr1, rr2, rr3, rr4, rr5, rr6, rr7] j) (ix2 p q) + c (ix2 p q) * (v1 (ix1 (7 : Fin 8)) * v1 (ix1 (7 : Fin 8)))
        else (z0 - g (ix2 p q)) * (![rr0, rr1, rr2, rr3, rr4, rr5, rr6, rr7] j) (ix2 p q) := by
  unfold k0_pay82
  refine (concat_unit_apply _ _ _ _ _ _ _ _ _ p q j).trans ?_
  revert j
  refine fin8_cases ?_ ?_ ?_ ?_ ?_ ?_ ?_ ?_ <;> dsimp only [Matrix.cons_val]
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_neg (by decide)]
    refine (cast_unit_apply _ _ p q 0).trans ?_
    rfl
  · rw [if_pos rfl]
    refine (cast_unit_apply _ _ p q 0).trans ?_
    unfold k0_pay40
    rw [addf_apply, mulf_apply, mulf_apply, broadcast_apply, slice_extract _ 7 (by omega)]
    rfl

/-! ## The second-derivative store at an index -/

/-- The stored block at row p, column q·64 + i·8 + j: (0 − g_i)·rr_j at (p, q), plus c·(ι_i·ι_i) when i = j. -/
theorem d2_apply (v1 : FVec Ideal S8 .f32) (c rr0 rr1 rr2 rr3 rr4 rr5 rr6 rr7 g0 g1 g2 g3 g4 g5 g6 g7 : FVec Ideal S128x256 .f32)
    (p : Fin 128) (q : Fin 256) (i j : Fin 8) :
    (k0_pay83 (k0_pay48 rr6 rr7 g0 (k0_pay41 v1 c rr0 g0) (k0_pay42 rr1 g0) (k0_pay43 rr2 g0) (k0_pay44 rr3 g0) (k0_pay45 rr4 g0) (k0_pay46 rr5 g0) (k0_pay47 (F := Ideal))) (k0_pay57 (k0_pay49 rr0 g1) (k0_pay50 c rr1 g1 (k0_pay40 v1)) (k0_pay51 rr2 g1) (k0_pay52 rr3 g1) (k0_pay53 rr4 g1) (k0_pay54 rr5 g1) (k0_pay55 rr6 g1) (k0_pay56 rr7 g1)) (k0_pay58 c rr0 rr1 rr2 rr3 rr4 rr5 rr6 rr7 g2 (k0_pay40 v1)) (k0_pay62 c rr3 rr4 rr5 rr6 rr7 g3 (k0_pay40 v1) (k0_pay59 rr0 g3) (k0_pay60 rr1 g3) (k0_pay61 rr2 g3) (Scalar.ofBits .f32 0x00000000#32)) (k0_pay69 rr5 rr6 rr7 g4 (k0_pay63 rr0 g4) (k0_pay64 rr1 g4) (k0_pay65 rr2 g4) (k0_pay66 rr3 g4) (k0_pay67 c rr4 g4 (k0_pay40 v1)) (k0_pay68 (F := Ideal))) (k0_pay78 (k0_pay70 rr4 g5) (k0_pay71 c rr5 g5 (k0_pay40 v1)) (k0_pay72 rr6 g5) (k0_pay73 rr7 g5) (k0_pay74 rr0 g5) (k0_pay75 rr1 g5) (k0_pay76 rr2 g5) (k0_pay77 rr3 g5)) (k0_pay79 c rr0 rr1 rr2 rr3 rr4 rr5 rr6 rr7 g6 (k0_pay40 v1)) (k0_pay82 c rr2 rr3 rr4 rr5 rr6 rr7 g7 (k0_pay40 v1) (k0_pay80 rr0 g7) (k0_pay81 rr1 g7) (Scalar.ofBits .f32 0x00000000#32)))
      (ix2 p (⟨q.val * 64 + i.val * 8 + j.val, by omega⟩ : Fin 16384))
    = if i = j then (z0 - (![g0, g1, g2, g3, g4, g5, g6, g7] i) (ix2 p q)) * (![rr0, rr1, rr2, rr3, rr4, rr5, rr6, rr7] j) (ix2 p q)
                      + c (ix2 p q) * (v1 (ix1 i) * v1 (ix1 i))
      else (z0 - (![g0, g1, g2, g3, g4, g5, g6, g7] i) (ix2 p q)) * (![rr0, rr1, rr2, rr3, rr4, rr5, rr6, rr7] j) (ix2 p q) := by
  refine (pay83_apply _ _ _ _ _ _ _ _ p q i j _).trans ?_
  revert i
  refine fin8_cases ?_ ?_ ?_ ?_ ?_ ?_ ?_ ?_ <;> dsimp only [Matrix.cons_val]
  · exact row0_apply v1 c rr0 rr1 rr2 rr3 rr4 rr5 rr6 rr7 g0 p q j
  · exact row1_apply v1 c rr0 rr1 rr2 rr3 rr4 rr5 rr6 rr7 g1 p q j
  · exact row2_apply v1 c rr0 rr1 rr2 rr3 rr4 rr5 rr6 rr7 g2 p q j
  · exact row3_apply v1 c rr0 rr1 rr2 rr3 rr4 rr5 rr6 rr7 g3 p q j
  · exact row4_apply v1 c rr0 rr1 rr2 rr3 rr4 rr5 rr6 rr7 g4 p q j
  · exact row5_apply v1 c rr0 rr1 rr2 rr3 rr4 rr5 rr6 rr7 g5 p q j
  · exact row6_apply v1 c rr0 rr1 rr2 rr3 rr4 rr5 rr6 rr7 g6 p q j
  · exact row7_apply v1 c rr0 rr1 rr2 rr3 rr4 rr5 rr6 rr7 g7 p q j

end Cert.KernelIdeal.PayD2

end
-- ==== Proof.PayOut7.lean ====
/-
  The second-derivative block of the radial-basis-function kernel as the body stores it, read at one column.

  The block's value at row p, column q·64 + i·8 + j was read (for abstract slabs) as (0 − g_i)·rr_j at (p, q), plus
  c·(ι_i·ι_i) when i = j. Here the slabs are the body's own: c the covariance of row p of the first block and row q of
  the second, rr_k the scaled difference of feature k times ι_k, and g_k = c·rr_k. With these the value is the
  second derivative of the covariance for the features (i, j) in the spelling that distributes the covariance over the
  bracket, and a column number col splits as q = col / 64, i = col / 8 mod 8, j = col mod 8.
-/
import proofs.«158023_j22204980920839_2_alg».proof.Proof.Gen.KernelIdeal.Frame
import proofs.«158023_j22204980920839_2_alg».proof.Proof.PayD2
import proofs.«158023_j22204980920839_2_alg».proof.Proof.PaySlabs
import proofs.«158023_j22204980920839_2_alg».proof.Proof.Spec
import Idealize.ShloMosaic.Lib.ValueIdx
import Idealize.ShloMosaic.Lib.Pipeline.Value

noncomputable section

namespace Cert.KernelIdeal.PayOut7

open Cert.KernelIdeal Cert.KernelIdeal.Gen Cert.RbfSpec Cert.KernelIdeal.Pay Cert.KernelIdeal.PayD2 Idealize.ShloMosaic
  Idealize.ShloMosaic.ValueIdx

/-- The one-axis zero offsets, spelt as a constant function. -/
theorem zero1 : (![0] : Fin 1 → Nat) = fun _ => 0 := by
  funext a; match a with | ⟨0, _⟩ => rfl

/-- The two-axis zero offsets, spelt as a constant function. -/
theorem zero2 : (![0, 0] : Fin 2 → Nat) = fun _ => 0 := by
  funext a; match a with | ⟨0, _⟩ => rfl | ⟨1, _⟩ => rfl

section Store
variable (x0 : Vec Ideal S8 .f32) (x1 : Vec Ideal S1x1 .f32) (x2 : Vec Ideal S128x8 .f32) (x3 : Vec Ideal S256x8 .f32)
  (p : Fin 128) (q : Fin 256)

/- The slabs the store is built from: the scales, the covariance slab, the eight scaled differences, the eight
   twice-scaled differences, and the eight products of the covariance with a twice-scaled difference. -/

local notation "sV" => k0_pay1 x0
local notation "sC" => k0_pay13 (k0_pay1 x0) (k0_pay2 x1) x2 (k0_pay3 x3) (k0_pay7 x0 x2 x3) (k0_pay8 x0 x2 x3)
local notation "sR0" => k0_pay4 x0 x2 x3
local notation "sR1" => k0_pay5 x0 x2 x3
local notation "sR2" => k0_pay6 x0 x2 x3
local notation "sR3" => k0_pay8 x0 x2 x3
local notation "sR4" => k0_pay9 (k0_pay1 x0) x2 (k0_pay3 x3)
local notation "sR5" => k0_pay10 (k0_pay1 x0) x2 (k0_pay3 x3)
local notation "sR6" => k0_pay11 (k0_pay1 x0) x2 (k0_pay3 x3)
local notation "sR7" => k0_pay12 (k0_pay1 x0) x2 (k0_pay3 x3)
local notation "sQ0" => k0_pay14 sV sR0
local notation "sQ1" => k0_pay15 sV sR1
local notation "sQ2" => k0_pay16 sV sR2
local notation "sQ3" => k0_pay17 sV sR3
local notation "sQ4" => k0_pay18 sV sR4
local notation "sQ5" => k0_pay19 sV sR5
local notation "sQ6" => k0_pay20 sV sR6
local notation "sQ7" => k0_pay21 sV sR7
local notation "sH0" => k0_pay22 sC sQ0
local notation "sH1" => k0_pay23 sV sR1 sC
local notation "sH2" => k0_pay24 sV sR2 sC
local notation "sH3" => k0_pay25 sV sR3 sC
local notation "sH4" => k0_pay26 sV sR4 sC
local notation "sH5" => k0_pay27 sV sR5 sC
local notation "sH6" => k0_pay28 sV sR6 sC
local notation "sH7" => k0_pay29 sV sR7 sC

/-- The twice-scaled difference of feature j at (p, q): the scaled difference times the inverse length scale. -/
theorem rr_read (j : Fin 8) : (![sQ0, sQ1, sQ2, sQ3, sQ4, sQ5, sQ6, sQ7] j) (ix2 p q) = rk (av x2 p) (bv x3 q) (iv x0) j * iv x0 j := by
  revert j
  refine fin8_cases ?_ ?_ ?_ ?_ ?_ ?_ ?_ ?_ <;> dsimp only [Matrix.cons_val]
  · rw [RR0_apply, R0_apply, pay1_eq]
  · rw [RR1_apply, R1_apply, pay1_eq]
  · rw [RR2_apply, R2_apply, pay1_eq]
  · rw [RR3_apply, R3_apply, pay1_eq]
  · rw [RR4_apply, R4_apply, pay1_eq]
  · rw [RR5_apply, R5_apply, pay1_eq]
  · rw [RR6_apply, R6_apply, pay1_eq]
  · rw [RR7_apply, R7_apply, pay1_eq]

/-- The covariance times the twice-scaled difference of feature i at (p, q). -/
theorem g_read (i : Fin 8) :
    (![sH0, sH1, sH2, sH3, sH4, sH5, sH6, sH7] i) (ix2 p q) = gOf (covK (av x2 p) (bv x3 q) (iv x0) (sg x1)) (rk (av x2 p) (bv x3 q) (iv x0)) (iv x0) i := by
  revert i
  refine fin8_cases ?_ ?_ ?_ ?_ ?_ ?_ ?_ ?_ <;> dsimp only [Matrix.cons_val]
  · rw [G0_apply, C_apply, RR0_apply, R0_apply, pay1_eq]
    rfl
  · rw [G1_apply, C_apply, R1_apply, pay1_eq]
    rfl
  · rw [G2_apply, C_apply, R2_apply, pay1_eq]
    rfl
  · rw [G3_apply, C_apply, R3_apply, pay1_eq]
    rfl
  · rw [G4_apply, C_apply, R4_apply, pay1_eq]
    rfl
  · rw [G5_apply, C_apply, R5_apply, pay1_eq]
    rfl
  · rw [G6_apply, C_apply, R6_apply, pay1_eq]
    rfl
  · rw [G7_apply, C_apply, R7_apply, pay1_eq]
    rfl

/-- The stored block at row p, column q·64 + i·8 + j is the second derivative for features (i, j) of the pair (p, q). -/
theorem out7_at (i j : Fin 8) :
    out0_7 x0 x1 x2 x3 (ix2 p (⟨q.val * 64 + i.val * 8 + j.val, by omega⟩ : Fin 16384))
      = dxdxxK (av x2 p) (bv x3 q) (iv x0) (sg x1) i j := by
  unfold out0_7
  rw [View.canon_unit_zero zero2]
  simp only [View.ld_unit_zero (S := S8) zero1, View.ld_unit_zero (S := S1x1) zero2, View.ld_unit_zero (S := S128x8) zero2,
    View.ld_unit_zero (S := S256x8) zero2]
  refine (d2_apply sV sC sQ0 sQ1 sQ2 sQ3 sQ4 sQ5 sQ6 sQ7 sH0 sH1 sH2 sH3 sH4 sH5 sH6 sH7 p q i j).trans ?_
  rw [g_read x0 x1 x2 x3 p q i, rr_read x0 x2 x3 p q j, C_apply, pay1_eq]
  rfl

end Store

/-! ## The store in column form -/

/-- Column col of row p holds the second derivative for the pair (p, col / 64) and the features (col / 8 mod 8, col mod 8). -/
theorem out7_col (x0 : Vec Ideal S8 .f32) (x1 : Vec Ideal S1x1 .f32) (x2 : Vec Ideal S128x8 .f32) (x3 : Vec Ideal S256x8 .f32)
    (p : Fin 128) (col : Fin 16384) :
    out0_7 x0 x1 x2 x3 (ix2 p col)
      = dxdxxK (fun k : Fin 8 => x2 (ix2 p k)) (fun k : Fin 8 => x3 (ix2 (⟨col.val / 64, by have := col.isLt; omega⟩ : Fin 256) k))
          (fun k : Fin 8 => x0 (ix1 k)) (x1 (ix2 0 0))
          (⟨col.val / 8 % 8, Nat.mod_lt _ (by norm_num)⟩ : Fin 8) (⟨col.val % 8, Nat.mod_lt _ (by norm_num)⟩ : Fin 8) := by
  have hcol : col = (⟨col.val / 64 * 64 + col.val / 8 % 8 * 8 + col.val % 8, by have := col.isLt; omega⟩ : Fin 16384) :=
    Fin.ext (by show col.val = col.val / 64 * 64 + col.val / 8 % 8 * 8 + col.val % 8; omega)
  exact (congrArg (fun z => out0_7 x0 x1 x2 x3 (ix2 p z)) hcol).trans
    (out7_at x0 x1 x2 x3 p ⟨col.val / 64, by have := col.isLt; omega⟩ ⟨col.val / 8 % 8, Nat.mod_lt _ (by norm_num)⟩
      ⟨col.val % 8, Nat.mod_lt _ (by norm_num)⟩)

end Cert.KernelIdeal.PayOut7

end
-- ==== Proof.KArrays.lean ====
/-
  From blocks to arrays.

  The grid has 16 × 8 points; at point (i, j) the kernel reads rows i·128 … of the first point set and rows j·256 … of the
  second, the whole vector of inverse length scales and the one variance, and writes block (i, j) of each of its four
  outputs: [128, 256] of the covariance, [128, 256·8] of each first derivative, [128, 256·64] of the second. Given what the
  body leaves in an output block as a function of the input blocks, index by index (the hypotheses `hpay`), each output
  array after the run is ONE function of the arrays the region found: an element of block (i, j) of the function is the
  body's value at the block's own coordinates, because the input blocks are the same rows of the arrays; and the blocks
  cover the array (row r is in block r / 128, column c in block c / width).
  In a flattened row of width 256·8 the column is m·8 + k, so m = c / 8 and k = c % 8; in one of width 256·64,
  c = m·64 + i·8 + j.
-/
import proofs.«158023_j22204980920839_2_alg».proof.Proof.Gen.KernelIdeal.Frame
import proofs.«158023_j22204980920839_2_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.RbfSpec Idealize.ShloMosaic.ValueIdx

variable (m : (ℓ : Loc nD τ sig) → Buf (Elt Ideal) ℓ) (ρ : Dev nD → PrngReg)

/-- The covariance array in the kernel's spelling. -/
def AKcov (x xx : S2048x8.Idx → EReal) (ι : Fin 8 → EReal) (σ : EReal) : S2048x2048.Idx → EReal := fun j =>
  covK (rowOf x ⟨(j 0).val, idx2_lt0 j⟩) (rowOf xx ⟨(j 1).val, idx2_lt1 j⟩) ι σ

/-- The first derivative in the first argument, in the kernel's spelling and layout: column `m·8 + k`. -/
def AKdx (x xx : S2048x8.Idx → EReal) (ι : Fin 8 → EReal) (σ : EReal) : S2048x16384.Idx → EReal := fun j =>
  dxK (rowOf x ⟨(j 0).val, idx2_lt0 j⟩) (rowOf xx ⟨(j 1).val / 8, by have := idx2_lt1 j; omega⟩) ι σ
    ⟨(j 1).val % 8, Nat.mod_lt _ (by norm_num)⟩
/-- The first derivative in the second argument, same layout. -/
def AKdxx (x xx : S2048x8.Idx → EReal) (ι : Fin 8 → EReal) (σ : EReal) : S2048x16384.Idx → EReal := fun j =>
  dxxK (rowOf x ⟨(j 0).val, idx2_lt0 j⟩) (rowOf xx ⟨(j 1).val / 8, by have := idx2_lt1 j; omega⟩) ι σ
    ⟨(j 1).val % 8, Nat.mod_lt _ (by norm_num)⟩
/-- The mixed second derivative, column `m·64 + i·8 + j`. -/
def AKd2 (x xx : S2048x8.Idx → EReal) (ι : Fin 8 → EReal) (σ : EReal) : S2048x131072.Idx → EReal := fun j =>
  dxdxxK (rowOf x ⟨(j 0).val, idx2_lt0 j⟩) (rowOf xx ⟨(j 1).val / 64, by have := idx2_lt1 j; omega⟩) ι σ
    ⟨(j 1).val / 8 % 8, Nat.mod_lt _ (by norm_num)⟩ ⟨(j 1).val % 8, Nat.mod_lt _ (by norm_num)⟩

theorem covK_congr {a a' b b' ι ι' : Fin 8 → EReal} {σ σ' : EReal} (ha : a = a') (hb : b = b') (hι : ι = ι') (hσ : σ = σ') :
    covK a b ι σ = covK a' b' ι' σ' := by subst ha hb hι hσ; rfl
theorem dxK_congr {a a' b b' ι ι' : Fin 8 → EReal} {σ σ' : EReal} {k k' : Fin 8} (ha : a = a') (hb : b = b') (hι : ι = ι')
    (hσ : σ = σ') (hk : k = k') : dxK a b ι σ k = dxK a' b' ι' σ' k' := by subst ha hb hι hσ hk; rfl
theorem dxxK_congr {a a' b b' ι ι' : Fin 8 → EReal} {σ σ' : EReal} {k k' : Fin 8} (ha : a = a') (hb : b = b') (hι : ι = ι')
    (hσ : σ = σ') (hk : k = k') : dxxK a b ι σ k = dxxK a' b' ι' σ' k' := by subst ha hb hι hσ hk; rfl
theorem dxdxxK_congr {a a' b b' ι ι' : Fin 8 → EReal} {σ σ' : EReal} {i i' j j' : Fin 8} (ha : a = a') (hb : b = b')
    (hι : ι = ι') (hσ : σ = σ') (hi : i = i') (hj : j = j') : dxdxxK a b ι σ i j = dxdxxK a' b' ι' σ' i' j' := by
  subst ha hb hι hσ hi hj; rfl

theorem idx_facts : ∀ t : Fin cfg0.N,
    win0_0.index t (0 : Fin 1) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = win0_4.index t (1 : Fin 2) ∧ win0_3.index t (1 : Fin 2) = 0
    ∧ win0_5.index t (0 : Fin 2) = win0_4.index t (0 : Fin 2) ∧ win0_5.index t (1 : Fin 2) = win0_4.index t (1 : Fin 2)
    ∧ win0_6.index t (0 : Fin 2) = win0_4.index t (0 : Fin 2) ∧ win0_6.index t (1 : Fin 2) = win0_4.index t (1 : Fin 2)
    ∧ win0_7.index t (0 : Fin 2) = win0_4.index t (0 : Fin 2) ∧ win0_7.index t (1 : Fin 2) = win0_4.index t (1 : Fin 2)
    ∧ win0_4.index t (0 : Fin 2) ≤ 15 ∧ win0_4.index t (1 : Fin 2) ≤ 7 :=
  (by decide +kernel : ∀ t : Fin grid0.N, _)

theorem idx_onto : ∀ (q0 : Fin 16) (q1 : Fin 8), ∃ t : Fin cfg0.N, win0_4.index t = ![q0.val, q1.val] :=
  (by decide +kernel : ∀ (q0 : Fin 16) (q1 : Fin 8), ∃ t : Fin grid0.N, win0_4.index t = ![q0.val, q1.val])

/-! ## The input blocks at a point, as entries of the arrays the region finds -/

/-- Row `p` of the block of the first point set at a point is row `i·128 + p` of the array. -/
theorem iblk2_apply (c : Dev nD) (t : Fin cfg0.N) (p : Fin 128) (k : Fin 8) (n : Fin 2048)
    (hn : n.val = win0_4.index t (0 : Fin 2) * 128 + p.val) :
    (iblk m c 2 t : Vec Ideal S128x8 .f32) (ix2 p k) = (V m c main_arg0 : S2048x8.Idx → EReal) (ix2 n k) := by
  obtain ⟨-, -, -, e20, e21, -⟩ := idx_facts t
  unfold iblk
  rw [View.read_apply]
  show V m c main_arg0 _ = V m c main_arg0 _
  congr 1
  funext a
  apply Fin.ext
  match a with
  | ⟨0, _⟩ => show win0_2.index t (0 : Fin 2) * 128 + 1 * p.val = n.val; omega
  | ⟨1, _⟩ => show win0_2.index t (1 : Fin 2) * 8 + 1 * k.val = k.val; omega

/-- Row `q` of the block of the second point set at a point is row `j·256 + q` of the array. -/
theorem iblk3_apply (c : Dev nD) (t : Fin cfg0.N) (q : Fin 256) (k : Fin 8) (n : Fin 2048)
    (hn : n.val = win0_4.index t (1 : Fin 2) * 256 + q.val) :
    (iblk m c 3 t : Vec Ideal S256x8 .f32) (ix2 q k) = (V m c main_arg1 : S2048x8.Idx → EReal) (ix2 n k) := by
  obtain ⟨-, -, -, -, -, e30, e31, -⟩ := idx_facts t
  unfold iblk
  rw [View.read_apply]
  show V m c main_arg1 _ = V m c main_arg1 _
  congr 1
  funext a
  apply Fin.ext
  match a with
  | ⟨0, _⟩ => show win0_3.index t (0 : Fin 2) * 256 + 1 * q.val = n.val; omega
  | ⟨1, _⟩ => show win0_3.index t (1 : Fin 2) * 8 + 1 * k.val = k.val; omega

/-- The block of the inverse length scales is the whole vector at every point. -/
theorem iblk0_apply (c : Dev nD) (t : Fin cfg0.N) (k : Fin 8) :
    (iblk m c 0 t : Vec Ideal S8 .f32) (ix1 k) = (V m c main_v2 : S8.Idx → EReal) (ix1 k) := by
  obtain ⟨e0, -⟩ := idx_facts t
  unfold iblk
  rw [View.read_apply]
  show V m c main_v2 _ = V m c main_v2 _
  congr 1
  funext a
  apply Fin.ext
  match a with
  | ⟨0, _⟩ => show win0_0.index t (0 : Fin 1) * 8 + 1 * k.val = k.val; omega

/-- The block of the variance is the one entry at every point. -/
theorem iblk1_apply (c : Dev nD) (t : Fin cfg0.N) :
    (iblk m c 1 t : Vec Ideal S1x1 .f32) (ix2 0 0) = (V m c main_v4 : S1x1.Idx → EReal) (ix2 0 0) := by
  obtain ⟨-, e10, e11, -⟩ := idx_facts t
  unfold iblk
  rw [View.read_apply]
  show V m c main_v4 _ = V m c main_v4 _
  congr 1
  funext a
  apply Fin.ext
  match a with
  | ⟨0, _⟩ => show win0_1.index t (0 : Fin 2) * 1 + 1 * 0 = 0; omega
  | ⟨1, _⟩ => show win0_1.index t (1 : Fin 2) * 1 + 1 * 0 = 0; omega

/-! ## The covariance window -/

theorem flushed4_eq
    (hpay : ∀ (x0 : Vec Ideal S8 .f32) (x1 : Vec Ideal S1x1 .f32) (x2 : Vec Ideal S128x8 .f32) (x3 : Vec Ideal S256x8 .f32)
      (p : Fin 128) (q : Fin 256), out0_4 x0 x1 x2 x3 (ix2 p q)
        = covK (fun k : Fin 8 => x2 (ix2 p k)) (fun k : Fin 8 => x3 (ix2 q k)) (fun k : Fin 8 => x0 (ix1 k)) (x1 (ix2 0 0)))
    (c : Dev nD) (t : Fin cfg0.N) :
    (dats m 0 c).flushed 4 t = ((cfg0.win 4).blk t).view.read (Elt Ideal)
      (AKcov (V m c main_arg0) (V m c main_arg1) (fun k => V m c main_v2 (ix1 k)) (V m c main_v4 (ix2 0 0))) := by
  show (cfg0.win 4).cut (grid0.coords t) ((dats m 0 c).after 4 t) = _
  rw [after0_4]
  funext y
  obtain ⟨p, q, rfl⟩ : ∃ (p : Fin 128) (q : Fin 256), y = ix2 p q := ⟨y 0, y 1, eq_ix2 y⟩
  show out0_4 (iblk m c 0 t) (iblk m c 1 t) (iblk m c 2 t) (iblk m c 3 t) (ix2 p q)
    = AKcov (V m c main_arg0) (V m c main_arg1) (fun k => V m c main_v2 (ix1 k)) (V m c main_v4 (ix2 0 0))
        (((cfg0.win 4).blk t).view.emb (ix2 p q))
  rw [hpay]
  unfold AKcov
  have h0 : ((((cfg0.win 4).blk t).view.emb (ix2 p q)) 0).val = win0_4.index t (0 : Fin 2) * 128 + p.val := by
    show win0_4.index t (0 : Fin 2) * 128 + 1 * p.val = _; omega
  have h1 : ((((cfg0.win 4).blk t).view.emb (ix2 p q)) 1).val = win0_4.index t (1 : Fin 2) * 256 + q.val := by
    show win0_4.index t (1 : Fin 2) * 256 + 1 * q.val = _; omega
  exact covK_congr (funext fun k => iblk2_apply m c t p k _ h0) (funext fun k => iblk3_apply m c t q k _ h1)
    (funext fun k => iblk0_apply m c t k) (iblk1_apply m c t)

theorem mem_blk4 (t : Fin cfg0.N) (i : S2048x2048.Idx) :
    i ∈ ((cfg0.win 4).blk t).view.set ↔ ∀ a : Fin 2, win0_4.index t a * S128x256.size a ≤ (i a).val ∧ (i a).val < win0_4.index t a * S128x256.size a + S128x256.size a := by
  show i ∈ ((View.whole main_v5_0).slice (win0_4.rect t)).set ↔ _
  rw [View.set_slice_whole, Rect.mem_set_unit]
  exact Iff.rfl

theorem cover4 (i : S2048x2048.Idx) : ∃ t : Fin cfg0.N, (cfg0.win 4).flush t = true ∧ i ∈ ((cfg0.win 4).blk t).view.set := by
  have hi0 : (i 0).val < 2048 := (i 0).isLt
  have hi1 : (i 1).val < 2048 := (i 1).isLt
  obtain ⟨t, ht⟩ := idx_onto ⟨(i 0).val / 128, by omega⟩ ⟨(i 1).val / 256, by omega⟩
  have q0 : win0_4.index t (0 : Fin 2) = (i 0).val / 128 := congrFun ht 0
  have q1 : win0_4.index t (1 : Fin 2) = (i 1).val / 256 := congrFun ht 1
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 256 ≤ (i 1).val ∧ (i 1).val < win0_4.index t (1 : Fin 2) * 256 + 256; omega

/-- The array after the run. -/
theorem final4
    (hpay : ∀ (x0 : Vec Ideal S8 .f32) (x1 : Vec Ideal S1x1 .f32) (x2 : Vec Ideal S128x8 .f32) (x3 : Vec Ideal S256x8 .f32)
      (p : Fin 128) (q : Fin 256), out0_4 x0 x1 x2 x3 (ix2 p q)
        = covK (fun k : Fin 8 => x2 (ix2 p k)) (fun k : Fin 8 => x3 (ix2 q k)) (fun k : Fin 8 => x0 (ix1 k)) (x1 (ix2 0 0)))
    (c : Dev nD) :
    (dats m 0 c).arrAt 4 cfg0.N
      = AKcov (V m c main_arg0) (V m c main_arg1) (fun k => V m c main_v2 (ix1 k)) (V m c main_v4 (ix2 0 0)) :=
  (dats m 0 c).arrAt_eq_of_cover 4 _ (fun t _ => flushed4_eq m hpay c t) cover4

/-! ## Window 5: the first derivative in the first argument -/

theorem flushed5_eq
    (hpay : ∀ (x0 : Vec Ideal S8 .f32) (x1 : Vec Ideal S1x1 .f32) (x2 : Vec Ideal S128x8 .f32) (x3 : Vec Ideal S256x8 .f32)
      (p : Fin 128) (col : Fin 2048), out0_5 x0 x1 x2 x3 (ix2 p col)
        = dxK (fun k : Fin 8 => x2 (ix2 p k)) (fun k : Fin 8 => x3 (ix2 (⟨col.val / 8, by have := col.isLt; omega⟩ : Fin 256) k))
            (fun k : Fin 8 => x0 (ix1 k)) (x1 (ix2 0 0)) (⟨col.val % 8, Nat.mod_lt _ (by norm_num)⟩ : Fin 8))
    (c : Dev nD) (t : Fin cfg0.N) :
    (dats m 0 c).flushed 5 t = ((cfg0.win 5).blk t).view.read (Elt Ideal)
      (AKdx (V m c main_arg0) (V m c main_arg1) (fun k => V m c main_v2 (ix1 k)) (V m c main_v4 (ix2 0 0))) := by
  obtain ⟨-, -, -, -, -, -, -, e50, e51, e60, e61, e70, e71, b0, b1⟩ := idx_facts t
  show (cfg0.win 5).cut (grid0.coords t) ((dats m 0 c).after 5 t) = _
  rw [after0_5]
  funext y
  obtain ⟨p, col, rfl⟩ : ∃ (p : Fin 128) (col : Fin 2048), y = ix2 p col := ⟨y 0, y 1, eq_ix2 y⟩
  show out0_5 (iblk m c 0 t) (iblk m c 1 t) (iblk m c 2 t) (iblk m c 3 t) (ix2 p col)
    = AKdx (V m c main_arg0) (V m c main_arg1) (fun k => V m c main_v2 (ix1 k)) (V m c main_v4 (ix2 0 0))
        (((cfg0.win 5).blk t).view.emb (ix2 p col))
  rw [hpay]
  unfold AKdx
  have hc : col.val < 2048 := col.isLt
  have h0 : ((((cfg0.win 5).blk t).view.emb (ix2 p col)) 0).val = win0_4.index t (0 : Fin 2) * 128 + p.val := by
    show win0_5.index t (0 : Fin 2) * 128 + 1 * p.val = _; omega
  have h1 : ((((cfg0.win 5).blk t).view.emb (ix2 p col)) 1).val = win0_4.index t (1 : Fin 2) * 2048 + col.val := by
    show win0_5.index t (1 : Fin 2) * 2048 + 1 * col.val = _; omega
  refine dxK_congr (funext fun k => iblk2_apply m c t p k _ h0)
    (funext fun k => iblk3_apply m c t _ k _ (by show (_ : ℕ) / 8 = _ + col.val / 8; omega))
    (funext fun k => iblk0_apply m c t k) (iblk1_apply m c t)
    (Fin.ext (by show col.val % 8 = (_ : ℕ) % 8; omega))

theorem mem_blk5 (t : Fin cfg0.N) (i : S2048x16384.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v5_1).slice (win0_5.rect t)).set ↔ _
  rw [View.set_slice_whole, Rect.mem_set_unit]
  exact Iff.rfl

theorem cover5 (i : S2048x16384.Idx) : ∃ t : Fin cfg0.N, (cfg0.win 5).flush t = true ∧ i ∈ ((cfg0.win 5).blk t).view.set := by
  have hi0 : (i 0).val < 2048 := (i 0).isLt
  have hi1 : (i 1).val < 16384 := (i 1).isLt
  obtain ⟨t, ht⟩ := idx_onto ⟨(i 0).val / 128, by omega⟩ ⟨(i 1).val / 2048, by omega⟩
  obtain ⟨-, -, -, -, -, -, -, e50, e51, e60, e61, e70, e71, -⟩ := idx_facts t
  have q0 : win0_4.index t (0 : Fin 2) = (i 0).val / 128 := congrFun ht 0
  have q1 : win0_4.index t (1 : Fin 2) = (i 1).val / 2048 := congrFun ht 1
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 2048 ≤ (i 1).val ∧ (i 1).val < win0_5.index t (1 : Fin 2) * 2048 + 2048; omega

/-- The array after the run. -/
theorem final5
    (hpay : ∀ (x0 : Vec Ideal S8 .f32) (x1 : Vec Ideal S1x1 .f32) (x2 : Vec Ideal S128x8 .f32) (x3 : Vec Ideal S256x8 .f32)
      (p : Fin 128) (col : Fin 2048), out0_5 x0 x1 x2 x3 (ix2 p col)
        = dxK (fun k : Fin 8 => x2 (ix2 p k)) (fun k : Fin 8 => x3 (ix2 (⟨col.val / 8, by have := col.isLt; omega⟩ : Fin 256) k))
            (fun k : Fin 8 => x0 (ix1 k)) (x1 (ix2 0 0)) (⟨col.val % 8, Nat.mod_lt _ (by norm_num)⟩ : Fin 8))
    (c : Dev nD) :
    (dats m 0 c).arrAt 5 cfg0.N
      = AKdx (V m c main_arg0) (V m c main_arg1) (fun k => V m c main_v2 (ix1 k)) (V m c main_v4 (ix2 0 0)) :=
  (dats m 0 c).arrAt_eq_of_cover 5 _ (fun t _ => flushed5_eq m hpay c t) cover5

/-! ## Window 6: the first derivative in the second argument -/

theorem flushed6_eq
    (hpay : ∀ (x0 : Vec Ideal S8 .f32) (x1 : Vec Ideal S1x1 .f32) (x2 : Vec Ideal S128x8 .f32) (x3 : Vec Ideal S256x8 .f32)
      (p : Fin 128) (col : Fin 2048), out0_6 x0 x1 x2 x3 (ix2 p col)
        = dxxK (fun k : Fin 8 => x2 (ix2 p k)) (fun k : Fin 8 => x3 (ix2 (⟨col.val / 8, by have := col.isLt; omega⟩ : Fin 256) k))
            (fun k : Fin 8 => x0 (ix1 k)) (x1 (ix2 0 0)) (⟨col.val % 8, Nat.mod_lt _ (by norm_num)⟩ : Fin 8))
    (c : Dev nD) (t : Fin cfg0.N) :
    (dats m 0 c).flushed 6 t = ((cfg0.win 6).blk t).view.read (Elt Ideal)
      (AKdxx (V m c main_arg0) (V m c main_arg1) (fun k => V m c main_v2 (ix1 k)) (V m c main_v4 (ix2 0 0))) := by
  obtain ⟨-, -, -, -, -, -, -, e50, e51, e60, e61, e70, e71, b0, b1⟩ := idx_facts t
  show (cfg0.win 6).cut (grid0.coords t) ((dats m 0 c).after 6 t) = _
  rw [after0_6]
  funext y
  obtain ⟨p, col, rfl⟩ : ∃ (p : Fin 128) (col : Fin 2048), y = ix2 p col := ⟨y 0, y 1, eq_ix2 y⟩
  show out0_6 (iblk m c 0 t) (iblk m c 1 t) (iblk m c 2 t) (iblk m c 3 t) (ix2 p col)
    = AKdxx (V m c main_arg0) (V m c main_arg1) (fun k => V m c main_v2 (ix1 k)) (V m c main_v4 (ix2 0 0))
        (((cfg0.win 6).blk t).view.emb (ix2 p col))
  rw [hpay]
  unfold AKdxx
  have hc : col.val < 2048 := col.isLt
  have h0 : ((((cfg0.win 6).blk t).view.emb (ix2 p col)) 0).val = win0_4.index t (0 : Fin 2) * 128 + p.val := by
    show win0_6.index t (0 : Fin 2) * 128 + 1 * p.val = _; omega
  have h1 : ((((cfg0.win 6).blk t).view.emb (ix2 p col)) 1).val = win0_4.index t (1 : Fin 2) * 2048 + col.val := by
    show win0_6.index t (1 : Fin 2) * 2048 + 1 * col.val = _; omega
  refine dxxK_congr (funext fun k => iblk2_apply m c t p k _ h0)
    (funext fun k => iblk3_apply m c t _ k _ (by show (_ : ℕ) / 8 = _ + col.val / 8; omega))
    (funext fun k => iblk0_apply m c t k) (iblk1_apply m c t)
    (Fin.ext (by show col.val % 8 = (_ : ℕ) % 8; omega))

theorem mem_blk6 (t : Fin cfg0.N) (i : S2048x16384.Idx) :
    i ∈ ((cfg0.win 6).blk t).view.set ↔ ∀ a : Fin 2, win0_6.index t a * S128x2048.size a ≤ (i a).val ∧ (i a).val < win0_6.index t a * S128x2048.size a + S128x2048.size a := by
  show i ∈ ((View.whole main_v5_2).slice (win0_6.rect t)).set ↔ _
  rw [View.set_slice_whole, Rect.mem_set_unit]
  exact Iff.rfl

theorem cover6 (i : S2048x16384.Idx) : ∃ t : Fin cfg0.N, (cfg0.win 6).flush t = true ∧ i ∈ ((cfg0.win 6).blk t).view.set := by
  have hi0 : (i 0).val < 2048 := (i 0).isLt
  have hi1 : (i 1).val < 16384 := (i 1).isLt
  obtain ⟨t, ht⟩ := idx_onto ⟨(i 0).val / 128, by omega⟩ ⟨(i 1).val / 2048, by omega⟩
  obtain ⟨-, -, -, -, -, -, -, e50, e51, e60, e61, e70, e71, -⟩ := idx_facts t
  have q0 : win0_4.index t (0 : Fin 2) = (i 0).val / 128 := congrFun ht 0
  have q1 : win0_4.index t (1 : Fin 2) = (i 1).val / 2048 := congrFun ht 1
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 2048 ≤ (i 1).val ∧ (i 1).val < win0_6.index t (1 : Fin 2) * 2048 + 2048; omega

/-- The array after the run. -/
theorem final6
    (hpay : ∀ (x0 : Vec Ideal S8 .f32) (x1 : Vec Ideal S1x1 .f32) (x2 : Vec Ideal S128x8 .f32) (x3 : Vec Ideal S256x8 .f32)
      (p : Fin 128) (col : Fin 2048), out0_6 x0 x1 x2 x3 (ix2 p col)
        = dxxK (fun k : Fin 8 => x2 (ix2 p k)) (fun k : Fin 8 => x3 (ix2 (⟨col.val / 8, by have := col.isLt; omega⟩ : Fin 256) k))
            (fun k : Fin 8 => x0 (ix1 k)) (x1 (ix2 0 0)) (⟨col.val % 8, Nat.mod_lt _ (by norm_num)⟩ : Fin 8))
    (c : Dev nD) :
    (dats m 0 c).arrAt 6 cfg0.N
      = AKdxx (V m c main_arg0) (V m c main_arg1) (fun k => V m c main_v2 (ix1 k)) (V m c main_v4 (ix2 0 0)) :=
  (dats m 0 c).arrAt_eq_of_cover 6 _ (fun t _ => flushed6_eq m hpay c t) cover6

/-! ## Window 7: the mixed second derivative -/

theorem flushed7_eq
    (hpay : ∀ (x0 : Vec Ideal S8 .f32) (x1 : Vec Ideal S1x1 .f32) (x2 : Vec Ideal S128x8 .f32) (x3 : Vec Ideal S256x8 .f32)
      (p : Fin 128) (col : Fin 16384), out0_7 x0 x1 x2 x3 (ix2 p col)
        = dxdxxK (fun k : Fin 8 => x2 (ix2 p k)) (fun k : Fin 8 => x3 (ix2 (⟨col.val / 64, by have := col.isLt; omega⟩ : Fin 256) k))
            (fun k : Fin 8 => x0 (ix1 k)) (x1 (ix2 0 0)) (⟨col.val / 8 % 8, Nat.mod_lt _ (by norm_num)⟩ : Fin 8) (⟨col.val % 8, Nat.mod_lt _ (by norm_num)⟩ : Fin 8))
    (c : Dev nD) (t : Fin cfg0.N) :
    (dats m 0 c).flushed 7 t = ((cfg0.win 7).blk t).view.read (Elt Ideal)
      (AKd2 (V m c main_arg0) (V m c main_arg1) (fun k => V m c main_v2 (ix1 k)) (V m c main_v4 (ix2 0 0))) := by
  obtain ⟨-, -, -, -, -, -, -, e50, e51, e60, e61, e70, e71, b0, b1⟩ := idx_facts t
  show (cfg0.win 7).cut (grid0.coords t) ((dats m 0 c).after 7 t) = _
  rw [after0_7]
  funext y
  obtain ⟨p, col, rfl⟩ : ∃ (p : Fin 128) (col : Fin 16384), y = ix2 p col := ⟨y 0, y 1, eq_ix2 y⟩
  show out0_7 (iblk m c 0 t) (iblk m c 1 t) (iblk m c 2 t) (iblk m c 3 t) (ix2 p col)
    = AKd2 (V m c main_arg0) (V m c main_arg1) (fun k => V m c main_v2 (ix1 k)) (V m c main_v4 (ix2 0 0))
        (((cfg0.win 7).blk t).view.emb (ix2 p col))
  rw [hpay]
  unfold AKd2
  have hc : col.val < 16384 := col.isLt
  have h0 : ((((cfg0.win 7).blk t).view.emb (ix2 p col)) 0).val = win0_4.index t (0 : Fin 2) * 128 + p.val := by
    show win0_7.index t (0 : Fin 2) * 128 + 1 * p.val = _; omega
  have h1 : ((((cfg0.win 7).blk t).view.emb (ix2 p col)) 1).val = win0_4.index t (1 : Fin 2) * 16384 + col.val := by
    show win0_7.index t (1 : Fin 2) * 16384 + 1 * col.val = _; omega
  refine dxdxxK_congr (funext fun k => iblk2_apply m c t p k _ h0)
    (funext fun k => iblk3_apply m c t _ k _ (by show (_ : ℕ) / 64 = _ + col.val / 64; omega))
    (funext fun k => iblk0_apply m c t k) (iblk1_apply m c t)
    (Fin.ext (by show col.val / 8 % 8 = (_ : ℕ) / 8 % 8; omega)) (Fin.ext (by show col.val % 8 = (_ : ℕ) % 8; omega))

theorem mem_blk7 (t : Fin cfg0.N) (i : S2048x131072.Idx) :
    i ∈ ((cfg0.win 7).blk t).view.set ↔ ∀ a : Fin 2, win0_7.index t a * S128x16384.size a ≤ (i a).val ∧ (i a).val < win0_7.index t a * S128x16384.size a + S128x16384.size a := by
  show i ∈ ((View.whole main_v5_3).slice (win0_7.rect t)).set ↔ _
  rw [View.set_slice_whole, Rect.mem_set_unit]
  exact Iff.rfl

theorem cover7 (i : S2048x131072.Idx) : ∃ t : Fin cfg0.N, (cfg0.win 7).flush t = true ∧ i ∈ ((cfg0.win 7).blk t).view.set := by
  have hi0 : (i 0).val < 2048 := (i 0).isLt
  have hi1 : (i 1).val < 131072 := (i 1).isLt
  obtain ⟨t, ht⟩ := idx_onto ⟨(i 0).val / 128, by omega⟩ ⟨(i 1).val / 16384, by omega⟩
  obtain ⟨-, -, -, -, -, -, -, e50, e51, e60, e61, e70, e71, -⟩ := idx_facts t
  have q0 : win0_4.index t (0 : Fin 2) = (i 0).val / 128 := congrFun ht 0
  have q1 : win0_4.index t (1 : Fin 2) = (i 1).val / 16384 := congrFun ht 1
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 16384 ≤ (i 1).val ∧ (i 1).val < win0_7.index t (1 : Fin 2) * 16384 + 16384; omega

/-- The array after the run. -/
theorem final7
    (hpay : ∀ (x0 : Vec Ideal S8 .f32) (x1 : Vec Ideal S1x1 .f32) (x2 : Vec Ideal S128x8 .f32) (x3 : Vec Ideal S256x8 .f32)
      (p : Fin 128) (col : Fin 16384), out0_7 x0 x1 x2 x3 (ix2 p col)
        = dxdxxK (fun k : Fin 8 => x2 (ix2 p k)) (fun k : Fin 8 => x3 (ix2 (⟨col.val / 64, by have := col.isLt; omega⟩ : Fin 256) k))
            (fun k : Fin 8 => x0 (ix1 k)) (x1 (ix2 0 0)) (⟨col.val / 8 % 8, Nat.mod_lt _ (by norm_num)⟩ : Fin 8) (⟨col.val % 8, Nat.mod_lt _ (by norm_num)⟩ : Fin 8))
    (c : Dev nD) :
    (dats m 0 c).arrAt 7 cfg0.N
      = AKd2 (V m c main_arg0) (V m c main_arg1) (fun k => V m c main_v2 (ix1 k)) (V m c main_v4 (ix2 0 0)) :=
  (dats m 0 c).arrAt_eq_of_cover 7 _ (fun t _ => flushed7_eq m hpay c t) cover7

end Cert.KernelIdeal.Arrays

end
-- ==== Proof.KRun.lean ====
/-
  The kernel's run, read: the four results as Spec's arrays.

  Before the region the host computes the inverse length scales `1 / exp s` and the variance `exp v` (reshaped to
  [1, 1]); after it, it reshapes the three flattened outputs: the row-major cast [2048, 2048·8] → [2048, 2048, 8] reads
  column m·8 + k at (n, m, k), and [2048, 2048·64] → [2048, 2048, 8, 8] reads column m·64 + i·8 + j at (n, m, i, j).
  So each result, at an index, is the kernel's spelling of the formula on row n of the first point set and row m of the
  second; on real entries that is the other spelling (Algebra.lean), index by index.
-/
import proofs.«158023_j22204980920839_2_alg».proof.Proof.KArrays
import proofs.«158023_j22204980920839_2_alg».proof.Proof.Algebra
import Idealize.ShloMosaic.Lib.StableHlo.Run

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Arrays Cert.RbfSpec Idealize.ShloMosaic.ValueIdx
  Idealize.ShloMosaic.StableHlo

variable (m : (ℓ : Loc nD τ sig) → Buf (Elt Ideal) ℓ) (ρ : Dev nD → PrngReg)

/-! ## What the region finds in its two small inputs -/

/-- The inverse length scales: `1 / exp s`, entry by entry. -/
theorem V_isc (c : Dev nD) :
    (fun k : Fin 8 => (V m c main_v2 : S8.Idx → EReal) (ix1 k))
      = iscs (m ((c : Thread nD τ).loc main_arg2) : S8.Idx → EReal) := by
  have e : (V m c main_v2 : S8.Idx → EReal) = Host.divf (F := Ideal) (broadcastInDim S8 ![] Facts₀.bcast_S_S8
      (constant (F := Ideal) S_ .f32 0x3F800000#32)) (Host.exp (F := Ideal) (m ((c : Thread nD τ).loc main_arg2))) := by
    show StableHlo.after hostOps0 (fun b => m (c, b)) (Proc.devRef .tc main_v2) = _
    after_results
  rw [e]; rfl

/-- The variance: `exp v`, the scalar reshaped to [1, 1]. -/
theorem V_var (c : Dev nD) :
    (V m c main_v4 : S1x1.Idx → EReal) (ix2 0 0) = varOf ((m ((c : Thread nD τ).loc main_arg3) : S_.Idx → EReal) ix0) := by
  have e : (V m c main_v4 : S1x1.Idx → EReal)
      = shapeCast (α := EReal) S1x1 (Host.exp (F := Ideal) (φ := .f32) (m ((c : Thread nD τ).loc main_arg3))) Facts₀.shapeCasts_S_S1x1 := by
    show StableHlo.after hostOps0 (fun b => m (c, b)) (Proc.devRef .tc main_v4) = _
    after_results
    rfl
  rw [e, shapeCast_apply _ _ _ ix0 (by rw [Shape.rowMajor_val_two]; rfl)]
  rfl

/-! ## The flattened spellings against Spec's arrays -/

section Agree
variable (x xx : S2048x8.Idx → EReal) (s : S8.Idx → EReal) (v : S_.Idx → EReal)

theorem agree_cov : AKcov x xx (iscs s) (varOf (v ix0)) = Gcov x xx s v := by
  funext j
  obtain ⟨n, mm, rfl⟩ : ∃ (n mm : Fin 2048), j = ix2 n mm := ⟨j 0, j 1, eq_ix2 j⟩
  show covK (rowOf x n) (rowOf xx mm) _ _ = covR (rowOf x n) (rowOf xx mm) _ _
  exact covK_eq _ _ _ _

theorem col8 (mm : Fin 2048) (k : Fin 8) : mm.val * 8 + k.val < 16384 := by have := mm.isLt; have := k.isLt; omega
theorem col64 (mm : Fin 2048) (i j : Fin 8) : mm.val * 64 + i.val * 8 + j.val < 131072 := by
  have := mm.isLt; have := i.isLt; have := j.isLt; omega

theorem agree_dx (h : S2048x16384.ShapeCasts S2048x2048x8) :
    shapeCast S2048x2048x8 (AKdx x xx (iscs s) (varOf (v ix0))) h = Gdx x xx s v := by
  funext j
  obtain ⟨n, mm, k, rfl⟩ : ∃ (n mm : Fin 2048) (k : Fin 8), j = ix3 n mm k := ⟨j 0, j 1, j 2, eq_ix3 j⟩
  rw [shapeCast_apply _ h (ix3 n mm k) (ix2 n ⟨mm.val * 8 + k.val, col8 mm k⟩) (by
    rw [Shape.rowMajor_val_two, Shape.rowMajor_val_three]
    show n.val * 16384 + (mm.val * 8 + k.val) = (n.val * 2048 + mm.val) * 8 + k.val
    omega)]
  have e1 : (⟨(mm.val * 8 + k.val) / 8, by have := col8 mm k; omega⟩ : Fin 2048) = mm := Fin.ext (by show _ / 8 = _; have := k.isLt; omega)
  have e2 : (⟨(mm.val * 8 + k.val) % 8, Nat.mod_lt _ (by norm_num)⟩ : Fin 8) = k := Fin.ext (by show _ % 8 = _; have := k.isLt; omega)
  exact (dxK_congr rfl (congrArg (rowOf xx) e1) rfl rfl e2).trans (dxK_eq _ _ _ _ k)

theorem agree_dxx (h : S2048x16384.ShapeCasts S2048x2048x8) :
    shapeCast S2048x2048x8 (AKdxx x xx (iscs s) (varOf (v ix0))) h = Gdxx x xx s v := by
  funext j
  obtain ⟨n, mm, k, rfl⟩ : ∃ (n mm : Fin 2048) (k : Fin 8), j = ix3 n mm k := ⟨j 0, j 1, j 2, eq_ix3 j⟩
  rw [shapeCast_apply _ h (ix3 n mm k) (ix2 n ⟨mm.val * 8 + k.val, col8 mm k⟩) (by
    rw [Shape.rowMajor_val_two, Shape.rowMajor_val_three]
    show n.val * 16384 + (mm.val * 8 + k.val) = (n.val * 2048 + mm.val) * 8 + k.val
    omega)]
  have e1 : (⟨(mm.val * 8 + k.val) / 8, by have := col8 mm k; omega⟩ : Fin 2048) = mm := Fin.ext (by show _ / 8 = _; have := k.isLt; omega)
  have e2 : (⟨(mm.val * 8 + k.val) % 8, Nat.mod_lt _ (by norm_num)⟩ : Fin 8) = k := Fin.ext (by show _ % 8 = _; have := k.isLt; omega)
  exact (dxxK_congr rfl (congrArg (rowOf xx) e1) rfl rfl e2).trans (dxxK_eq _ _ _ _ k)

/-- The second derivative distributes a product over a sum on the diagonal: here the entries must be real. -/
theorem agree_d2 (hx : ∀ i, IsReal (x i)) (hxx : ∀ i, IsReal (xx i)) (hs : ∀ i, IsReal (s i)) (hv : ∀ i, IsReal (v i))
    (h : S2048x131072.ShapeCasts S2048x2048x8x8) :
    shapeCast S2048x2048x8x8 (AKd2 x xx (iscs s) (varOf (v ix0))) h = Gdxdxx x xx s v := by
  funext j
  obtain ⟨n, mm, i, j, rfl⟩ : ∃ (n mm : Fin 2048) (i j' : Fin 8), j = ix4 n mm i j' := ⟨j 0, j 1, j 2, j 3, eq_ix4 j⟩
  rw [shapeCast_apply _ h (ix4 n mm i j) (ix2 n ⟨mm.val * 64 + i.val * 8 + j.val, col64 mm i j⟩) (by
    rw [Shape.rowMajor_val_two, Shape.rowMajor_val_four]
    show n.val * 131072 + (mm.val * 64 + i.val * 8 + j.val) = ((n.val * 2048 + mm.val) * 8 + i.val) * 8 + j.val
    omega)]
  have e1 : (⟨(mm.val * 64 + i.val * 8 + j.val) / 64, by have := col64 mm i j; omega⟩ : Fin 2048) = mm :=
    Fin.ext (by show _ / 64 = _; have := i.isLt; have := j.isLt; omega)
  have e2 : (⟨(mm.val * 64 + i.val * 8 + j.val) / 8 % 8, Nat.mod_lt _ (by norm_num)⟩ : Fin 8) = i :=
    Fin.ext (by show _ / 8 % 8 = _; have := i.isLt; have := j.isLt; omega)
  have e3 : (⟨(mm.val * 64 + i.val * 8 + j.val) % 8, Nat.mod_lt _ (by norm_num)⟩ : Fin 8) = j :=
    Fin.ext (by show _ % 8 = _; have := i.isLt; have := j.isLt; omega)
  exact (dxdxxK_congr rfl (congrArg (rowOf xx) e1) rfl rfl e2 e3).trans
    (dxdxxK_eq_R (fun k => hx _) (fun k => hxx _) (fun k => isReal_iscOf (hs _)) (isReal_varOf (hv _)) i j)

end Agree

/-! ## The three reshapes after the region -/

theorem tail6 (c : Dev nD) : Pipeline.afterTail₀ cfgs (dats m) 0 (V0 m) [hostOps1] c main_v6
    = shapeCast S2048x2048x8 ((dats m 0 c).arrAt 5 cfg0.N) Facts₀.shapeCasts_S2048x16384_S2048x2048x8 := by
  have hw : Pipeline.withArrays (cfgs 0).spec c (V0 m c) (fun w => (dats m 0 c).arrAt w (cfgs 0).N) (Proc.devRef .tc main_v5_1)
      = (dats m 0 c).arrAt 5 cfg0.N := Pipeline.withArrays_arr spec0 launch0.win.arr_inj c _ _ 5
  unfold Pipeline.afterTail₀
  show StableHlo.after hostOps1 _ (Proc.devRef .tc main_v6) = _
  after_results
  rw [hw]
  rfl

theorem tail7 (c : Dev nD) : Pipeline.afterTail₀ cfgs (dats m) 0 (V0 m) [hostOps1] c main_v7
    = shapeCast S2048x2048x8 ((dats m 0 c).arrAt 6 cfg0.N) Facts₀.shapeCasts_S2048x16384_S2048x2048x8 := by
  have hw : Pipeline.withArrays (cfgs 0).spec c (V0 m c) (fun w => (dats m 0 c).arrAt w (cfgs 0).N) (Proc.devRef .tc main_v5_2)
      = (dats m 0 c).arrAt 6 cfg0.N := Pipeline.withArrays_arr spec0 launch0.win.arr_inj c _ _ 6
  unfold Pipeline.afterTail₀
  show StableHlo.after hostOps1 _ (Proc.devRef .tc main_v7) = _
  after_results
  rw [hw]
  rfl

theorem tail8 (c : Dev nD) : Pipeline.afterTail₀ cfgs (dats m) 0 (V0 m) [hostOps1] c main_v8
    = shapeCast S2048x2048x8x8 ((dats m 0 c).arrAt 7 cfg0.N) Facts₀.shapeCasts_S2048x131072_S2048x2048x8x8 := by
  have hw : Pipeline.withArrays (cfgs 0).spec c (V0 m c) (fun w => (dats m 0 c).arrAt w (cfgs 0).N) (Proc.devRef .tc main_v5_3)
      = (dats m 0 c).arrAt 7 cfg0.N := Pipeline.withArrays_arr spec0 launch0.win.arr_inj c _ _ 7
  unfold Pipeline.afterTail₀
  show StableHlo.after hostOps1 _ (Proc.devRef .tc main_v8) = _
  after_results
  rw [hw]
  rfl

/-! ## The run -/

/-- Under real entries every weakly fair execution ends with the four results at Spec's arrays of the argument arrays
    and the arguments unchanged. -/
theorem run
    (hpay4 : ∀ (x0 : Vec Ideal S8 .f32) (x1 : Vec Ideal S1x1 .f32) (x2 : Vec Ideal S128x8 .f32) (x3 : Vec Ideal S256x8 .f32)
      (p : Fin 128) (q : Fin 256), out0_4 x0 x1 x2 x3 (ix2 p q)
        = covK (fun k : Fin 8 => x2 (ix2 p k)) (fun k : Fin 8 => x3 (ix2 q k)) (fun k : Fin 8 => x0 (ix1 k)) (x1 (ix2 0 0)))
    (hpay5 : ∀ (x0 : Vec Ideal S8 .f32) (x1 : Vec Ideal S1x1 .f32) (x2 : Vec Ideal S128x8 .f32) (x3 : Vec Ideal S256x8 .f32)
      (p : Fin 128) (col : Fin 2048), out0_5 x0 x1 x2 x3 (ix2 p col)
        = dxK (fun k : Fin 8 => x2 (ix2 p k)) (fun k : Fin 8 => x3 (ix2 (⟨col.val / 8, by have := col.isLt; omega⟩ : Fin 256) k))
            (fun k : Fin 8 => x0 (ix1 k)) (x1 (ix2 0 0)) (⟨col.val % 8, Nat.mod_lt _ (by norm_num)⟩ : Fin 8))
    (hpay6 : ∀ (x0 : Vec Ideal S8 .f32) (x1 : Vec Ideal S1x1 .f32) (x2 : Vec Ideal S128x8 .f32) (x3 : Vec Ideal S256x8 .f32)
      (p : Fin 128) (col : Fin 2048), out0_6 x0 x1 x2 x3 (ix2 p col)
        = dxxK (fun k : Fin 8 => x2 (ix2 p k)) (fun k : Fin 8 => x3 (ix2 (⟨col.val / 8, by have := col.isLt; omega⟩ : Fin 256) k))
            (fun k : Fin 8 => x0 (ix1 k)) (x1 (ix2 0 0)) (⟨col.val % 8, Nat.mod_lt _ (by norm_num)⟩ : Fin 8))
    (hpay7 : ∀ (x0 : Vec Ideal S8 .f32) (x1 : Vec Ideal S1x1 .f32) (x2 : Vec Ideal S128x8 .f32) (x3 : Vec Ideal S256x8 .f32)
      (p : Fin 128) (col : Fin 16384), out0_7 x0 x1 x2 x3 (ix2 p col)
        = dxdxxK (fun k : Fin 8 => x2 (ix2 p k)) (fun k : Fin 8 => x3 (ix2 (⟨col.val / 64, by have := col.isLt; omega⟩ : Fin 256) k))
            (fun k : Fin 8 => x0 (ix1 k)) (x1 (ix2 0 0)) (⟨col.val / 8 % 8, Nat.mod_lt _ (by norm_num)⟩ : Fin 8) (⟨col.val % 8, Nat.mod_lt _ (by norm_num)⟩ : Fin 8))
    (hx : ∀ (c : Dev nD) i, IsReal ((m ((c : Thread nD τ).loc main_arg0) : S2048x8.Idx → EReal) i))
    (hxx : ∀ (c : Dev nD) i, IsReal ((m ((c : Thread nD τ).loc main_arg1) : S2048x8.Idx → EReal) i))
    (hs : ∀ (c : Dev nD) i, IsReal ((m ((c : Thread nD τ).loc main_arg2) : S8.Idx → EReal) i))
    (hv : ∀ (c : Dev nD) i, IsReal ((m ((c : Thread nD τ).loc main_arg3) : S_.Idx → EReal) i)) :
    θ_run defs (onTc (τ := τ) (main (F := Ideal))) ⟨m, fun _ => 0, ρ⟩ fun r => ∀ c : Dev nD,
      r.2.mem ((c.tc : Thread nD τ).loc main_v5_0) = Gcov (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = Gdx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v7) = Gdxx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v8) = Gdxdxx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    have a4 := final4 m hpay4 c
    have a5 := final5 m hpay5 c
    have a6 := final6 m hpay6 c
    have a7 := final7 m hpay7 c
    rw [V_main_arg0, V_main_arg1, V_isc, V_var] at a4 a5 a6 a7
    refine ⟨?_, ?_, ?_, ?_, ?_, ?_, ?_, ?_⟩
    · exact ((h c).1 4).trans (a4.trans (agree_cov _ _ _ _))
    · refine ((h c).2 main_v6 (Pipeline.mem_restRefs_of main_v6 (by decide) (by decide))).trans ((tail6 m c).trans ?_)
      rw [a5]; exact agree_dx _ _ _ _ _
    · refine ((h c).2 main_v7 (Pipeline.mem_restRefs_of main_v7 (by decide) (by decide))).trans ((tail7 m c).trans ?_)
      rw [a6]; exact agree_dxx _ _ _ _ _
    · refine ((h c).2 main_v8 (Pipeline.mem_restRefs_of main_v8 (by decide) (by decide))).trans ((tail8 m c).trans ?_)
      rw [a7]; exact agree_d2 _ _ _ _ (hx c) (hxx c) (hs c) (hv c) _
    · exact ((h c).1 2).trans (((dats m 0 c).arrAt_in 2 rfl _).trans ((A_eq m c 2).trans (V_main_arg0 m c)))
    · exact ((h c).1 3).trans (((dats m 0 c).arrAt_in 3 rfl _).trans ((A_eq m c 3).trans (V_main_arg1 m c)))
    · exact ((h c).2 main_arg2 (Pipeline.mem_restRefs_of main_arg2 (by decide) (by decide))).trans (W_main_arg2 m (dats m) c)
    · exact ((h c).2 main_arg3 (Pipeline.mem_restRefs_of main_arg3 (by decide) (by decide))).trans (W_main_arg3 m (dats m) c))
    (run_main m ρ)

end Cert.KernelIdeal.Run

end
-- ==== Proof.RefRun.lean ====
/-
  The reference program's run. Its @main is a straight line of host operations once the call of the diagonal-matrix
  function (and, inside it, of the selection function) is unfolded at its call site: fifty-five operations, each
  writing one buffer of its own. Every weakly fair execution terminates, and each buffer then holds the value of the
  operations folded, in order, over the launch contents.
-/
import proofs.«158023_j22204980920839_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded: thirty-six of its own, the diagonal function's ten, the
    selection function's three, then @main's last six. -/
abbrev ops : List (HloOp τ sig (Elt F)) :=
  [ unary main_arg2 main_v0 (Host.exp : (⟨S8, .f32⟩ : BufTy).Contents (Elt F) → (⟨S8, .f32⟩ : BufTy).Contents (Elt F)),
    nullary main_cst (constant S_ .f32 0x3F800000#32),
    unary main_cst main_v1 (broadcastInDim S8 ![] bcast_S_S8 : (⟨S_, .f32⟩ : BufTy).Contents (Elt F) → (⟨S8, .f32⟩ : BufTy).Contents (Elt F)),
    binary main_v1 main_v0 main_v2 (Host.divf : (⟨S8, .f32⟩ : BufTy).Contents (Elt F) → (⟨S8, .f32⟩ : BufTy).Contents (Elt F) → (⟨S8, .f32⟩ : BufTy).Contents (Elt F)),
    unary main_arg3 main_v3 (Host.exp : (⟨S_, .f32⟩ : BufTy).Contents (Elt F) → (⟨S_, .f32⟩ : BufTy).Contents (Elt F)),
    unary main_arg0 main_v4 (broadcastInDim S2048x1x8 ![0, 2] bcast_S2048x8_S2048x1x8_0_2 : (⟨S2048x8, .f32⟩ : BufTy).Contents (Elt F) → (⟨S2048x1x8, .f32⟩ : BufTy).Contents (Elt F)),
    unary main_arg1 main_v5 (broadcastInDim S1x2048x8 ![1, 2] bcast_S2048x8_S1x2048x8_1_2 : (⟨S2048x8, .f32⟩ : BufTy).Contents (Elt F) → (⟨S1x2048x8, .f32⟩ : BufTy).Contents (Elt F)),
    unary main_v4 main_v6 (broadcastInDim S2048x2048x8 ![0, 1, 2] bcast_S2048x1x8_S2048x2048x8_0_1_2 : (⟨S2048x1x8, .f32⟩ : BufTy).Contents (Elt F) → (⟨S2048x2048x8, .f32⟩ : BufTy).Contents (Elt F)),
    unary main_v5 main_v7 (broadcastInDim S2048x2048x8 ![0, 1, 2] bcast_S1x2048x8_S2048x2048x8_0_1_2 : (⟨S1x2048x8, .f32⟩ : BufTy).Contents (Elt F) → (⟨S2048x2048x8, .f32⟩ : BufTy).Contents (Elt F)),
    binary main_v6 main_v7 main_v8 (subf : (⟨S2048x2048x8, .f32⟩ : BufTy).Contents (Elt F) → (⟨S2048x2048x8, .f32⟩ : BufTy).Contents (Elt F) → (⟨S2048x2048x8, .f32⟩ : BufTy).Contents (Elt F)),
    unary main_v2 main_v9 (broadcastInDim S1x1x8 ![2] bcast_S8_S1x1x8_2 : (⟨S8, .f32⟩ : BufTy).Contents (Elt F) → (⟨S1x1x8, .f32⟩ : BufTy).Contents (Elt F)),
    unary main_v9 main_v10 (broadcastInDim S2048x2048x8 ![0, 1, 2] bcast_S1x1x8_S2048x2048x8_0_1_2 : (⟨S1x1x8, .f32⟩ : BufTy).Contents (Elt F) → (⟨S2048x2048x8, .f32⟩ : BufTy).Contents (Elt F)),
    binary main_v8 main_v10 main_v11 (mulf : (⟨S2048x2048x8, .f32⟩ : BufTy).Contents (Elt F) → (⟨S2048x2048x8, .f32⟩ : BufTy).Contents (Elt F) → (⟨S2048x2048x8, .f32⟩ : BufTy).Contents (Elt F)),
    binary main_v11 main_v11 main_v12 (mulf : (⟨S2048x2048x8, .f32⟩ : BufTy).Contents (Elt F) → (⟨S2048x2048x8, .f32⟩ : BufTy).Contents (Elt F) → (⟨S2048x2048x8, .f32⟩ : BufTy).Contents (Elt F)),
    nullary main_cst_0 (constant S_ .f32 0x00000000#32),
    binary main_v12 main_cst_0 main_v13 ((fun x v => Host.reduceAdd x v reducesTo_S2048x2048x8_S2048x2048_d2 h_S_) : (⟨S2048x2048x8, .f32⟩ : BufTy).Contents (Elt F) → (⟨S_, .f32⟩ : BufTy).Contents (Elt F) → (⟨S2048x2048, .f32⟩ : BufTy).Contents (Elt F)),
    nullary main_cst_1 (constant S_ .f32 0xBF000000#32),
    unary main_cst_1 main_v14 (broadcastInDim S2048x2048 ![] bcast_S_S2048x2048 : (⟨S_, .f32⟩ : BufTy).Contents (Elt F) → (⟨S2048x2048, .f32⟩ : BufTy).Contents (Elt F)),
    binary main_v14 main_v13 main_v15 (mulf : (⟨S2048x2048, .f32⟩ : BufTy).Contents (Elt F) → (⟨S2048x2048, .f32⟩ : BufTy).Contents (Elt F) → (⟨S2048x2048, .f32⟩ : BufTy).Contents (Elt F)),
    unary main_v15 main_v16 (Host.exp : (⟨S2048x2048, .f32⟩ : BufTy).Contents (Elt F) → (⟨S2048x2048, .f32⟩ : BufTy).Contents (Elt F)),
    unary main_v3 main_v17 (broadcastInDim S2048x2048 ![] bcast_S_S2048x2048 : (⟨S_, .f32⟩ : BufTy).Contents (Elt F) → (⟨S2048x2048, .f32⟩ : BufTy).Contents (Elt F)),
    binary main_v16 main_v17 main_v18 (mulf : (⟨S2048x2048, .f32⟩ : BufTy).Contents (Elt F) → (⟨S2048x2048, .f32⟩ : BufTy).Contents (Elt F) → (⟨S2048x2048, .f32⟩ : BufTy).Contents (Elt F)),
    unary main_v2 main_v19 (broadcastInDim S1x1x8 ![2] bcast_S8_S1x1x8_2 : (⟨S8, .f32⟩ : BufTy).Contents (Elt F) → (⟨S1x1x8, .f32⟩ : BufTy).Contents (Elt F)),
    unary main_v19 main_v20 (broadcastInDim S2048x2048x8 ![0, 1, 2] bcast_S1x1x8_S2048x2048x8_0_1_2 : (⟨S1x1x8, .f32⟩ : BufTy).Contents (Elt F) → (⟨S2048x2048x8, .f32⟩ : BufTy).Contents (Elt F)),
    binary main_v11 main_v20 main_v21 (mulf : (⟨S2048x2048x8, .f32⟩ : BufTy).Contents (Elt F) → (⟨S2048x2048x8, .f32⟩ : BufTy).Contents (Elt F) → (⟨S2048x2048x8, .f32⟩ : BufTy).Contents (Elt F)),
    unary main_v18 main_v22 (broadcastInDim S2048x2048x1 ![0, 1] bcast_S2048x2048_S2048x2048x1_0_1 : (⟨S2048x2048, .f32⟩ : BufTy).Contents (Elt F) → (⟨S2048x2048x1, .f32⟩ : BufTy).Contents (Elt F)),
    unary main_v22 main_v23 (broadcastInDim S2048x2048x8 ![0, 1, 2] bcast_S2048x2048x1_S2048x2048x8_0_1_2 : (⟨S2048x2048x1, .f32⟩ : BufTy).Contents (Elt F) → (⟨S2048x2048x8, .f32⟩ : BufTy).Contents (Elt F)),
    binary main_v23 main_v21 main_v24 (mulf : (⟨S2048x2048x8, .f32⟩ : BufTy).Contents (Elt F) → (⟨S2048x2048x8, .f32⟩ : BufTy).Contents (Elt F) → (⟨S2048x2048x8, .f32⟩ : BufTy).Contents (Elt F)),
    unary main_v24 main_v25 (Host.negf : (⟨S2048x2048x8, .f32⟩ : BufTy).Contents (Elt F) → (⟨S2048x2048x8, .f32⟩ : BufTy).Contents (Elt F)),
    unary main_v21 main_v26 (broadcastInDim S2048x2048x8x1 ![0, 1, 2] bcast_S2048x2048x8_S2048x2048x8x1_0_1_2 : (⟨S2048x2048x8, .f32⟩ : BufTy).Contents (Elt F) → (⟨S2048x2048x8x1, .f32⟩ : BufTy).Contents (Elt F)),
    unary main_v26 main_v27 (Host.negf : (⟨S2048x2048x8x1, .f32⟩ : BufTy).Contents (Elt F) → (⟨S2048x2048x8x1, .f32⟩ : BufTy).Contents (Elt F)),
    unary main_v21 main_v28 (broadcastInDim S2048x2048x1x8 ![0, 1, 3] bcast_S2048x2048x8_S2048x2048x1x8_0_1_3 : (⟨S2048x2048x8, .f32⟩ : BufTy).Contents (Elt F) → (⟨S2048x2048x1x8, .f32⟩ : BufTy).Contents (Elt F)),
    unary main_v27 main_v29 (broadcastInDim S2048x2048x8x8 ![0, 1, 2, 3] bcast_S2048x2048x8x1_S2048x2048x8x8_0_1_2_3 : (⟨S2048x2048x8x1, .f32⟩ : BufTy).Contents (Elt F) → (⟨S2048x2048x8x8, .f32⟩ : BufTy).Contents (Elt F)),
    unary main_v28 main_v30 (broadcastInDim S2048x2048x8x8 ![0, 1, 2, 3] bcast_S2048x2048x1x8_S2048x2048x8x8_0_1_2_3 : (⟨S2048x2048x1x8, .f32⟩ : BufTy).Contents (Elt F) → (⟨S2048x2048x8x8, .f32⟩ : BufTy).Contents (Elt F)),
    binary main_v29 main_v30 main_v31 (mulf : (⟨S2048x2048x8x8, .f32⟩ : BufTy).Contents (Elt F) → (⟨S2048x2048x8x8, .f32⟩ : BufTy).Contents (Elt F) → (⟨S2048x2048x8x8, .f32⟩ : BufTy).Contents (Elt F)),
    binary main_v2 main_v2 main_v32 (mulf : (⟨S8, .f32⟩ : BufTy).Contents (Elt F) → (⟨S8, .f32⟩ : BufTy).Contents (Elt F) → (⟨S8, .f32⟩ : BufTy).Contents (Elt F)),
    TRef.nullary main_call0.cst (constant S_ .f32 0x00000000#32),
    TRef.binary (.of main_v32) main_call0.cst main_call0.v0 (fun x v => pad S8 ![0] ![0] ![0] x v pads_S8_S8_000 h_S_),
    TRef.nullary main_call0.v1 (iotaInDim S8x8 32 0),
    TRef.nullary main_call0.v2 (iotaInDim S8x8 32 1),
    TRef.nullary main_call0.c (constantI S_ 32 0#32),
    TRef.unary main_call0.c main_call0.v3 (broadcastInDim S8x8 ![] bcast_S_S8x8),
    TRef.binary main_call0.v1 main_call0.v3 main_call0.v4 addi,
    TRef.binary main_call0.v4 main_call0.v2 main_call0.v5 (cmpi .eq),
    TRef.unary main_call0.v0 main_call0.v6 (broadcastInDim S8x1 ![0] bcast_S8_S8x1_0),
    TRef.nullary main_call0.cst_0 (constant S_ .f32 0x00000000#32),
    TRef.unary main_call0.v6 main_call0.call0.v0 (broadcastInDim S8x8 ![0, 1] bcast_S8x1_S8x8_0_1),
    TRef.unary main_call0.cst_0 main_call0.call0.v1 (broadcastInDim S8x8 ![] bcast_S_S8x8),
    TRef.ternary main_call0.v5 main_call0.call0.v0 main_call0.call0.v1 main_call0.call0.v2 select,
    unary main_v33 main_v34 (broadcastInDim S1x1x8x8 ![2, 3] bcast_S8x8_S1x1x8x8_2_3 : (⟨S8x8, .f32⟩ : BufTy).Contents (Elt F) → (⟨S1x1x8x8, .f32⟩ : BufTy).Contents (Elt F)),
    unary main_v34 main_v35 (broadcastInDim S2048x2048x8x8 ![0, 1, 2, 3] bcast_S1x1x8x8_S2048x2048x8x8_0_1_2_3 : (⟨S1x1x8x8, .f32⟩ : BufTy).Contents (Elt F) → (⟨S2048x2048x8x8, .f32⟩ : BufTy).Contents (Elt F)),
    binary main_v31 main_v35 main_v36 (addf : (⟨S2048x2048x8x8, .f32⟩ : BufTy).Contents (Elt F) → (⟨S2048x2048x8x8, .f32⟩ : BufTy).Contents (Elt F) → (⟨S2048x2048x8x8, .f32⟩ : BufTy).Contents (Elt F)),
    unary main_v18 main_v37 (broadcastInDim S2048x2048x1x1 ![0, 1] bcast_S2048x2048_S2048x2048x1x1_0_1 : (⟨S2048x2048, .f32⟩ : BufTy).Contents (Elt F) → (⟨S2048x2048x1x1, .f32⟩ : BufTy).Contents (Elt F)),
    unary main_v37 main_v38 (broadcastInDim S2048x2048x8x8 ![0, 1, 2, 3] bcast_S2048x2048x1x1_S2048x2048x8x8_0_1_2_3 : (⟨S2048x2048x1x1, .f32⟩ : BufTy).Contents (Elt F) → (⟨S2048x2048x8x8, .f32⟩ : BufTy).Contents (Elt F)),
    binary main_v36 main_v38 main_v39 (mulf : (⟨S2048x2048x8x8, .f32⟩ : BufTy).Contents (Elt F) → (⟨S2048x2048x8x8, .f32⟩ : BufTy).Contents (Elt F) → (⟨S2048x2048x8x8, .f32⟩ : BufTy).Contents (Elt F)) ]

set_option maxRecDepth 2048 in
/-- @main is that straight line: the two functions' definitions unfolded at their calls, both sides are one chain of
    steps once sequencing is reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., unary_bufs_sub .., unary_bufs_sub ..,
    unary_bufs_sub .., unary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    unary_bufs_sub .., unary_bufs_sub .., unary_bufs_sub .., unary_bufs_sub .., binary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub ..⟩

/-- From any memory with zero counters every weakly fair execution of @main terminates, and every buffer of every
    device then holds the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The results as composed terms

The value of each result buffer, stated through a few named stages: the inverse length scales, their broadcast, the
scaled differences, the sum of their squares, the covariance, the twice-scaled differences, the two first
derivatives, the outer product, the diagonal matrix and the second derivative. -/

section Stages

variable (x xx : (⟨S2048x8, .f32⟩ : BufTy).Contents (Elt F)) (s : (⟨S8, .f32⟩ : BufTy).Contents (Elt F))
  (v : (⟨S_, .f32⟩ : BufTy).Contents (Elt F))

/-- The inverse length scales: one divided by the exponential of the free parameters. -/
def isc : (⟨S8, .f32⟩ : BufTy).Contents (Elt F) :=
  Host.divf (broadcastInDim S8 ![] bcast_S_S8 (constant (F := F) S_ .f32 0x3F800000#32)) (Host.exp s)

/-- The inverse length scales along the last axis of a [2048, 2048, 8] array. -/
def iscB : (⟨S2048x2048x8, .f32⟩ : BufTy).Contents (Elt F) :=
  broadcastInDim S2048x2048x8 ![0, 1, 2] bcast_S1x1x8_S2048x2048x8_0_1_2 (broadcastInDim S1x1x8 ![2] bcast_S8_S1x1x8_2 (isc s))

/-- The scaled differences of every pair of rows. -/
def sdiff : (⟨S2048x2048x8, .f32⟩ : BufTy).Contents (Elt F) :=
  mulf (subf (broadcastInDim S2048x2048x8 ![0, 1, 2] bcast_S2048x1x8_S2048x2048x8_0_1_2
          (broadcastInDim S2048x1x8 ![0, 2] bcast_S2048x8_S2048x1x8_0_2 x))
        (broadcastInDim S2048x2048x8 ![0, 1, 2] bcast_S1x2048x8_S2048x2048x8_0_1_2
          (broadcastInDim S1x2048x8 ![1, 2] bcast_S2048x8_S1x2048x8_1_2 xx)))
    (iscB s)

/-- The sum over the features of the squared scaled differences, from the zero word. -/
def sqsum : (⟨S2048x2048, .f32⟩ : BufTy).Contents (Elt F) :=
  Host.reduceAdd (mulf (sdiff x xx s) (sdiff x xx s)) (constant (F := F) S_ .f32 0x00000000#32)
    reducesTo_S2048x2048x8_S2048x2048_d2 h_S_

/-- The covariance of every pair of rows. -/
def cov : (⟨S2048x2048, .f32⟩ : BufTy).Contents (Elt F) :=
  mulf (Host.exp (mulf (broadcastInDim S2048x2048 ![] bcast_S_S2048x2048 (constant (F := F) S_ .f32 0xBF000000#32)) (sqsum x xx s)))
    (broadcastInDim S2048x2048 ![] bcast_S_S2048x2048 (Host.exp v))

/-- The scaled differences scaled once more. -/
def sdiff2 : (⟨S2048x2048x8, .f32⟩ : BufTy).Contents (Elt F) :=
  mulf (sdiff x xx s) (iscB s)

/-- The derivative in the second point. -/
def dxx : (⟨S2048x2048x8, .f32⟩ : BufTy).Contents (Elt F) :=
  mulf (broadcastInDim S2048x2048x8 ![0, 1, 2] bcast_S2048x2048x1_S2048x2048x8_0_1_2
      (broadcastInDim S2048x2048x1 ![0, 1] bcast_S2048x2048_S2048x2048x1_0_1 (cov x xx s v)))
    (sdiff2 x xx s)

/-- The derivative in the first point. -/
def dx : (⟨S2048x2048x8, .f32⟩ : BufTy).Contents (Elt F) :=
  Host.negf (dxx x xx s v)

/-- Minus the outer product of the twice-scaled differences with themselves. -/
def outer : (⟨S2048x2048x8x8, .f32⟩ : BufTy).Contents (Elt F) :=
  mulf (broadcastInDim S2048x2048x8x8 ![0, 1, 2, 3] bcast_S2048x2048x8x1_S2048x2048x8x8_0_1_2_3
      (Host.negf (broadcastInDim S2048x2048x8x1 ![0, 1, 2] bcast_S2048x2048x8_S2048x2048x8x1_0_1_2 (sdiff2 x xx s))))
    (broadcastInDim S2048x2048x8x8 ![0, 1, 2, 3] bcast_S2048x2048x1x8_S2048x2048x8x8_0_1_2_3
      (broadcastInDim S2048x2048x1x8 ![0, 1, 3] bcast_S2048x2048x8_S2048x2048x1x8_0_1_3 (sdiff2 x xx s)))

/-- The diagonal matrix of the squared inverse length scales. -/
def diagM : (⟨S8x8, .f32⟩ : BufTy).Contents (Elt F) :=
  select
    (cmpi .eq (addi (iotaInDim S8x8 32 0) (broadcastInDim S8x8 ![] bcast_S_S8x8 (constantI S_ 32 0#32))) (iotaInDim S8x8 32 1))
    (broadcastInDim S8x8 ![0, 1] bcast_S8x1_S8x8_0_1
      (broadcastInDim S8x1 ![0] bcast_S8_S8x1_0
        (pad S8 ![0] ![0] ![0] (mulf (isc s) (isc s)) (constant (F := F) S_ .f32 0x00000000#32) pads_S8_S8_000 h_S_)))
    (broadcastInDim S8x8 ![] bcast_S_S8x8 (constant (F := F) S_ .f32 0x00000000#32))

/-- The mixed second derivative. -/
def dxdxx : (⟨S2048x2048x8x8, .f32⟩ : BufTy).Contents (Elt F) :=
  mulf (addf (outer x xx s)
      (broadcastInDim S2048x2048x8x8 ![0, 1, 2, 3] bcast_S1x1x8x8_S2048x2048x8x8_0_1_2_3
        (broadcastInDim S1x1x8x8 ![2, 3] bcast_S8x8_S1x1x8x8_2_3 (diagM s))))
    (broadcastInDim S2048x2048x8x8 ![0, 1, 2, 3] bcast_S2048x2048x1x1_S2048x2048x8x8_0_1_2_3
      (broadcastInDim S2048x2048x1x1 ![0, 1] bcast_S2048x2048_S2048x2048x1x1_0_1 (cov x xx s v)))

end Stages

attribute [local irreducible] Host.reduceAdd pad

set_option maxRecDepth 8192 in
theorem cov_eq (V : Valuation τ sig (Elt F)) :
    after ops V (main_v18 : DevRef τ sig)
      = cov (V (main_arg0 : DevRef τ sig)) (V (main_arg1 : DevRef τ sig)) (V (main_arg2 : DevRef τ sig)) (V (main_arg3 : DevRef τ sig)) := by
  after_results_simp
  rfl

set_option maxRecDepth 8192 in
theorem dx_eq (V : Valuation τ sig (Elt F)) :
    after ops V (main_v25 : DevRef τ sig)
      = dx (V (main_arg0 : DevRef τ sig)) (V (main_arg1 : DevRef τ sig)) (V (main_arg2 : DevRef τ sig)) (V (main_arg3 : DevRef τ sig)) := by
  after_results_simp
  rfl

set_option maxRecDepth 8192 in
theorem dxx_eq (V : Valuation τ sig (Elt F)) :
    after ops V (main_v24 : DevRef τ sig)
      = dxx (V (main_arg0 : DevRef τ sig)) (V (main_arg1 : DevRef τ sig)) (V (main_arg2 : DevRef τ sig)) (V (main_arg3 : DevRef τ sig)) := by
  after_results_simp
  rfl

set_option maxRecDepth 8192 in
theorem dxdxx_eq (V : Valuation τ sig (Elt F)) :
    after ops V (main_v39 : DevRef τ sig)
      = dxdxx (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

end Cert.ReferenceIdeal.RefValue

end
-- ==== Proof.RefValue.lean ====
/-
  The reference program's four results, read at an index, are the radial-basis-function covariance and its
  derivatives as the specification states them (the spelling with one finite sum). Each stage of the composed term is
  read at an index in turn: a broadcast reads its operand at the index with the new axes dropped, the reduction over
  the feature axis reads the initial value plus the sum over the eight features, the padding with no padding reads its
  operand, and the comparison of the two coordinate arrays selects the diagonal.
-/
import proofs.«158023_j22204980920839_2_alg».proof.Proof.RefRun
import proofs.«158023_j22204980920839_2_alg».proof.Proof.Spec
import Idealize.ShloMosaic.Lib.IdealHost
import Idealize.ShloMosaic.Lib.Pipeline.Value
import Idealize.ShloMosaic.Lib.KernelVsHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.RbfSpec

/-! ## Broadcasts read at an index -/

section Broadcasts
variable {α : Type}

/-- A [2048, 8] array spread along a new middle axis reads row `n`. -/
theorem bcastRow_ix (y : S2048x8.Idx → α) (n m : Fin 2048) (k : Fin 8) :
    broadcastInDim S2048x2048x8 ![0, 1, 2] bcast_S2048x1x8_S2048x2048x8_0_1_2
      (broadcastInDim S2048x1x8 ![0, 2] bcast_S2048x8_S2048x1x8_0_2 y) (ix3 n m k) = y (ix2 n k) :=
  (broadcastInDim_apply _ _ _ (ix3 n m k) (ix3 n (0 : Fin 1) k)
      (fun a => match a with | ⟨0, _⟩ => rfl | ⟨1, _⟩ => rfl | ⟨2, _⟩ => rfl)).trans
    (broadcastInDim_apply _ _ y (ix3 n (0 : Fin 1) k) (ix2 n k)
      (fun a => match a with | ⟨0, _⟩ => rfl | ⟨1, _⟩ => rfl))

/-- A [2048, 8] array spread along a new leading axis reads row `m`. -/
theorem bcastCol_ix (y : S2048x8.Idx → α) (n m : Fin 2048) (k : Fin 8) :
    broadcastInDim S2048x2048x8 ![0, 1, 2] bcast_S1x2048x8_S2048x2048x8_0_1_2
      (broadcastInDim S1x2048x8 ![1, 2] bcast_S2048x8_S1x2048x8_1_2 y) (ix3 n m k) = y (ix2 m k) :=
  (broadcastInDim_apply _ _ _ (ix3 n m k) (ix3 (0 : Fin 1) m k)
      (fun a => match a with | ⟨0, _⟩ => rfl | ⟨1, _⟩ => rfl | ⟨2, _⟩ => rfl)).trans
    (broadcastInDim_apply _ _ y (ix3 (0 : Fin 1) m k) (ix2 m k)
      (fun a => match a with | ⟨0, _⟩ => rfl | ⟨1, _⟩ => rfl))

/-- A vector of eight spread over the two leading axes reads entry `k`. -/
theorem bcastFeat_ix (y : S8.Idx → α) (n m : Fin 2048) (k : Fin 8) :
    broadcastInDim S2048x2048x8 ![0, 1, 2] bcast_S1x1x8_S2048x2048x8_0_1_2
      (broadcastInDim S1x1x8 ![2] bcast_S8_S1x1x8_2 y) (ix3 n m k) = y (ix1 k) :=
  (broadcastInDim_apply _ _ _ (ix3 n m k) (ix3 (0 : Fin 1) (0 : Fin 1) k)
      (fun a => match a with | ⟨0, _⟩ => rfl | ⟨1, _⟩ => rfl | ⟨2, _⟩ => rfl)).trans
    (broadcastInDim_apply _ _ y (ix3 (0 : Fin 1) (0 : Fin 1) k) (ix1 k)
      (fun a => match a with | ⟨0, _⟩ => rfl))

/-- A [2048, 2048] array spread along a new last axis reads entry `(n, m)`. -/
theorem bcastPair3_ix (y : S2048x2048.Idx → α) (n m : Fin 2048) (k : Fin 8) :
    broadcastInDim S2048x2048x8 ![0, 1, 2] bcast_S2048x2048x1_S2048x2048x8_0_1_2
      (broadcastInDim S2048x2048x1 ![0, 1] bcast_S2048x2048_S2048x2048x1_0_1 y) (ix3 n m k) = y (ix2 n m) :=
  (broadcastInDim_apply _ _ _ (ix3 n m k) (ix3 n m (0 : Fin 1))
      (fun a => match a with | ⟨0, _⟩ => rfl | ⟨1, _⟩ => rfl | ⟨2, _⟩ => rfl)).trans
    (broadcastInDim_apply _ _ y (ix3 n m (0 : Fin 1)) (ix2 n m)
      (fun a => match a with | ⟨0, _⟩ => rfl | ⟨1, _⟩ => rfl))

/-- A [2048, 2048] array spread along two new last axes reads entry `(n, m)`. -/
theorem bcastPair4_ix (y : S2048x2048.Idx → α) (n m : Fin 2048) (i j : Fin 8) :
    broadcastInDim S2048x2048x8x8 ![0, 1, 2, 3] bcast_S2048x2048x1x1_S2048x2048x8x8_0_1_2_3
      (broadcastInDim S2048x2048x1x1 ![0, 1] bcast_S2048x2048_S2048x2048x1x1_0_1 y) (ix4 n m i j) = y (ix2 n m) :=
  (broadcastInDim_apply _ _ _ (ix4 n m i j) (ix4 n m (0 : Fin 1) (0 : Fin 1))
      (fun a => match a with | ⟨0, _⟩ => rfl | ⟨1, _⟩ => rfl | ⟨2, _⟩ => rfl | ⟨3, _⟩ => rfl)).trans
    (broadcastInDim_apply _ _ y (ix4 n m (0 : Fin 1) (0 : Fin 1)) (ix2 n m)
      (fun a => match a with | ⟨0, _⟩ => rfl | ⟨1, _⟩ => rfl))

/-- An [8, 8] matrix spread over the two leading axes reads entry `(i, j)`. -/
theorem bcastMat_ix (y : S8x8.Idx → α) (n m : Fin 2048) (i j : Fin 8) :
    broadcastInDim S2048x2048x8x8 ![0, 1, 2, 3] bcast_S1x1x8x8_S2048x2048x8x8_0_1_2_3
      (broadcastInDim S1x1x8x8 ![2, 3] bcast_S8x8_S1x1x8x8_2_3 y) (ix4 n m i j) = y (ix2 i j) :=
  (broadcastInDim_apply _ _ _ (ix4 n m i j) (ix4 (0 : Fin 1) (0 : Fin 1) i j)
      (fun a => match a with | ⟨0, _⟩ => rfl | ⟨1, _⟩ => rfl | ⟨2, _⟩ => rfl | ⟨3, _⟩ => rfl)).trans
    (broadcastInDim_apply _ _ y (ix4 (0 : Fin 1) (0 : Fin 1) i j) (ix2 i j)
      (fun a => match a with | ⟨0, _⟩ => rfl | ⟨1, _⟩ => rfl))

/-- A [2048, 2048, 8] array as a column along the third axis, spread along a new last axis, reads entry `i`. -/
theorem bcastLeft_ix (y : S2048x2048x8.Idx → α) (n m : Fin 2048) (i : Fin 8) :
    broadcastInDim S2048x2048x8x1 ![0, 1, 2] bcast_S2048x2048x8_S2048x2048x8x1_0_1_2 y (ix4 n m i (0 : Fin 1)) = y (ix3 n m i) :=
  broadcastInDim_apply _ _ y (ix4 n m i (0 : Fin 1)) (ix3 n m i)
    (fun a => match a with | ⟨0, _⟩ => rfl | ⟨1, _⟩ => rfl | ⟨2, _⟩ => rfl)

/-- A [2048, 2048, 8, 1] array spread along its last axis reads its one column. -/
theorem bcastLeft4_ix (y : S2048x2048x8x1.Idx → α) (n m : Fin 2048) (i j : Fin 8) :
    broadcastInDim S2048x2048x8x8 ![0, 1, 2, 3] bcast_S2048x2048x8x1_S2048x2048x8x8_0_1_2_3 y (ix4 n m i j)
      = y (ix4 n m i (0 : Fin 1)) :=
  broadcastInDim_apply _ _ y (ix4 n m i j) (ix4 n m i (0 : Fin 1))
    (fun a => match a with | ⟨0, _⟩ => rfl | ⟨1, _⟩ => rfl | ⟨2, _⟩ => rfl | ⟨3, _⟩ => rfl)

/-- A [2048, 2048, 8] array as a row along the last axis, spread along a new third axis, reads entry `j`. -/
theorem bcastRight_ix (y : S2048x2048x8.Idx → α) (n m : Fin 2048) (i j : Fin 8) :
    broadcastInDim S2048x2048x8x8 ![0, 1, 2, 3] bcast_S2048x2048x1x8_S2048x2048x8x8_0_1_2_3
      (broadcastInDim S2048x2048x1x8 ![0, 1, 3] bcast_S2048x2048x8_S2048x2048x1x8_0_1_3 y) (ix4 n m i j) = y (ix3 n m j) :=
  (broadcastInDim_apply _ _ _ (ix4 n m i j) (ix4 n m (0 : Fin 1) j)
      (fun a => match a with | ⟨0, _⟩ => rfl | ⟨1, _⟩ => rfl | ⟨2, _⟩ => rfl | ⟨3, _⟩ => rfl)).trans
    (broadcastInDim_apply _ _ y (ix4 n m (0 : Fin 1) j) (ix3 n m j)
      (fun a => match a with | ⟨0, _⟩ => rfl | ⟨1, _⟩ => rfl | ⟨2, _⟩ => rfl))

/-- A vector of eight as a column, spread along a new second axis, reads entry `i`. -/
theorem bcastDiag_ix (y : S8.Idx → α) (i j : Fin 8) :
    broadcastInDim S8x8 ![0, 1] bcast_S8x1_S8x8_0_1 (broadcastInDim S8x1 ![0] bcast_S8_S8x1_0 y) (ix2 i j) = y (ix1 i) :=
  (broadcastInDim_apply _ _ _ (ix2 i j) (ix2 i (0 : Fin 1))
      (fun a => match a with | ⟨0, _⟩ => rfl | ⟨1, _⟩ => rfl)).trans
    (broadcastInDim_apply _ _ y (ix2 i (0 : Fin 1)) (ix1 i)
      (fun a => match a with | ⟨0, _⟩ => rfl))

end Broadcasts

/-! ## The stages read at an index -/

section Read
variable (x xx : S2048x8.Idx → EReal) (s : S8.Idx → EReal) (v : S_.Idx → EReal)

/-- An inverse length scale is one over the exponential of its free parameter. -/
theorem isc_ix (k : Fin 8) : isc (F := Ideal) s (ix1 k) = iscs s k := rfl

theorem iscB_ix (n m : Fin 2048) (k : Fin 8) : iscB (F := Ideal) s (ix3 n m k) = iscs s k :=
  (bcastFeat_ix (isc (F := Ideal) s) n m k).trans (isc_ix s k)

/-- The scaled difference of rows `n` and `m` at feature `k`. -/
theorem sdiff_ix (n m : Fin 2048) (k : Fin 8) :
    sdiff (F := Ideal) x xx s (ix3 n m k) = rk (rowOf x n) (rowOf xx m) (iscs s) k :=
  congrArg₂ (· * ·) (congrArg₂ (· - ·) (bcastRow_ix x n m k) (bcastCol_ix xx n m k)) (iscB_ix s n m k)

/-- The index over `(n, m)` with `k` inserted on the reduced axis is `(n, m, k)`. -/
theorem lift_ix (h : S2048x2048x8.Reduces [2] S2048x2048) (n m : Fin 2048) (k : Fin 8) :
    h.lift (ix2 n m) k = ix3 n m k := by
  funext c
  match c with
  | ⟨0, _⟩ => rfl
  | ⟨1, _⟩ => rfl
  | ⟨2, _⟩ => rfl

/-- The reduction over the features: the zero word plus the sum of the eight squares. -/
theorem sqsum_ix (n m : Fin 2048) :
    sqsum (F := Ideal) x xx s (ix2 n m)
      = z0 + ∑ k : Fin 8, rk (rowOf x n) (rowOf xx m) (iscs s) k * rk (rowOf x n) (rowOf xx m) (iscs s) k := by
  have h : S2048x2048x8.Reduces [2] S2048x2048 := by decide
  refine (Ideal.hostReduceAdd_single reducesTo_S2048x2048x8_S2048x2048_d2 h
    (mulf (sdiff (F := Ideal) x xx s) (sdiff (F := Ideal) x xx s) : FVec Ideal S2048x2048x8 .f32) z0 (ix2 n m)).trans ?_
  refine congrArg (z0 + ·) (Finset.sum_congr rfl fun k _ => ?_)
  rw [lift_ix h n m k]
  exact congrArg₂ (· * ·) (sdiff_ix x xx s n m k) (sdiff_ix x xx s n m k)

/-- The covariance of rows `n` and `m`. -/
theorem cov_ix (n m : Fin 2048) :
    cov (F := Ideal) x xx s v (ix2 n m) = covR (rowOf x n) (rowOf xx m) (iscs s) (varOf (v ix0)) :=
  congrArg₂ (· * ·)
    (congrArg Ideal.exp (congrArg₂ (· * ·)
      (broadcastInDim_scalar_apply bcast_S_S2048x2048 (constant (F := Ideal) S_ .f32 0xBF000000#32) (ix2 n m))
      (sqsum_ix x xx s n m)))
    (broadcastInDim_scalar_apply bcast_S_S2048x2048 (Host.exp (F := Ideal) (φ := .f32) v) (ix2 n m))

theorem sdiff2_ix (n m : Fin 2048) (k : Fin 8) :
    sdiff2 (F := Ideal) x xx s (ix3 n m k) = rrk (rowOf x n) (rowOf xx m) (iscs s) k :=
  congrArg₂ (· * ·) (sdiff_ix x xx s n m k) (iscB_ix s n m k)

theorem dxx_ix (n m : Fin 2048) (k : Fin 8) :
    dxx (F := Ideal) x xx s v (ix3 n m k) = dxxR (rowOf x n) (rowOf xx m) (iscs s) (varOf (v ix0)) k :=
  congrArg₂ (· * ·) ((bcastPair3_ix (cov (F := Ideal) x xx s v) n m k).trans (cov_ix x xx s v n m)) (sdiff2_ix x xx s n m k)

theorem dx_ix (n m : Fin 2048) (k : Fin 8) :
    dx (F := Ideal) x xx s v (ix3 n m k) = dxR (rowOf x n) (rowOf xx m) (iscs s) (varOf (v ix0)) k :=
  congrArg Neg.neg (dxx_ix x xx s v n m k)

theorem outer_ix (n m : Fin 2048) (i j : Fin 8) :
    outer (F := Ideal) x xx s (ix4 n m i j)
      = -(rrk (rowOf x n) (rowOf xx m) (iscs s) i) * rrk (rowOf x n) (rowOf xx m) (iscs s) j :=
  congrArg₂ (· * ·)
    ((bcastLeft4_ix _ n m i j).trans
      (congrArg Neg.neg ((bcastLeft_ix (sdiff2 (F := Ideal) x xx s) n m i).trans (sdiff2_ix x xx s n m i))))
    ((bcastRight_ix (sdiff2 (F := Ideal) x xx s) n m i j).trans (sdiff2_ix x xx s n m j))

/-- The comparison of the row coordinate (plus the zero word) with the column coordinate selects the diagonal. -/
theorem diagWord (i j : Fin 8) (A B : EReal) :
    Scalar.select (IntOp.cmpi .eq (IntOp.addi (BitVec.ofNat 32 i.val) 0#32) (BitVec.ofNat 32 j.val)) A B
      = if i = j then A else B := by
  fin_cases i <;> fin_cases j <;> rfl

theorem diagM_ix (i j : Fin 8) : diagM (F := Ideal) s (ix2 i j) = diagR (iscs s) i j :=
  (congrArg₂ (Scalar.select (IntOp.cmpi .eq (IntOp.addi (BitVec.ofNat 32 i.val) 0#32) (BitVec.ofNat 32 j.val)))
      ((bcastDiag_ix _ i j).trans
        ((pad_apply_of_inside ![0] ![0] ![0] (mulf (isc (F := Ideal) s) (isc (F := Ideal) s))
            (constant (F := Ideal) S_ .f32 0x00000000#32) pads_S8_S8_000 h_S_ (ix1 i) (ix1 i)
            (fun a => match a with | ⟨0, _⟩ => by simp)).trans
          (congrArg₂ (· * ·) (isc_ix s i) (isc_ix s i))))
      (broadcastInDim_scalar_apply bcast_S_S8x8 (constant (F := Ideal) S_ .f32 0x00000000#32) (ix2 i j))).trans
    (diagWord i j _ _)

theorem dxdxx_ix (n m : Fin 2048) (i j : Fin 8) :
    dxdxx (F := Ideal) x xx s v (ix4 n m i j) = dxdxxR (rowOf x n) (rowOf xx m) (iscs s) (varOf (v ix0)) i j :=
  congrArg₂ (· * ·)
    (congrArg₂ (· + ·) (outer_ix x xx s n m i j) ((bcastMat_ix (diagM (F := Ideal) s) n m i j).trans (diagM_ix s i j)))
    ((bcastPair4_ix (cov (F := Ideal) x xx s v) n m i j).trans (cov_ix x xx s v n m))

/-! ## The whole arrays -/

theorem cov_eq_Gcov : cov (F := Ideal) x xx s v = Gcov x xx s v := by
  funext j
  obtain ⟨n, m, rfl⟩ : ∃ (n m : Fin 2048), j = ix2 n m := ⟨j 0, j 1, eq_ix2 j⟩
  exact cov_ix x xx s v n m

theorem dx_eq_Gdx : dx (F := Ideal) x xx s v = Gdx x xx s v := by
  funext j
  obtain ⟨n, m, k, rfl⟩ : ∃ (n m : Fin 2048) (k : Fin 8), j = ix3 n m k := ⟨j 0, j 1, j 2, eq_ix3 j⟩
  exact dx_ix x xx s v n m k

theorem dxx_eq_Gdxx : dxx (F := Ideal) x xx s v = Gdxx x xx s v := by
  funext j
  obtain ⟨n, m, k, rfl⟩ : ∃ (n m : Fin 2048) (k : Fin 8), j = ix3 n m k := ⟨j 0, j 1, j 2, eq_ix3 j⟩
  exact dxx_ix x xx s v n m k

theorem dxdxx_eq_Gdxdxx : dxdxx (F := Ideal) x xx s v = Gdxdxx x xx s v := by
  funext j
  obtain ⟨n, m, i, k, rfl⟩ : ∃ (n m : Fin 2048) (i k : Fin 8), j = ix4 n m i k := ⟨j 0, j 1, j 2, j 3, eq_ix4 j⟩
  exact dxdxx_ix x xx s v n m i k

end Read

/-! ## The run -/

/-- From any memory with zero counters every weakly fair execution of the reference terminates; its four results are
    then the covariance, the two first derivatives and the mixed second derivative of the specification at the launch
    contents of the four arguments, which are left unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = Cert.RbfSpec.Gcov (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v25) = Cert.RbfSpec.Gdx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v24) = Cert.RbfSpec.Gdxx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v39) = Cert.RbfSpec.Gdxdxx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v18).trans ((cov_eq _).trans (cov_eq_Gcov _ _ _ _)),
       (h c main_v25).trans ((dx_eq _).trans (dx_eq_Gdx _ _ _ _)),
       (h c main_v24).trans ((dxx_eq _).trans (dxx_eq_Gdxx _ _ _ _)),
       (h c main_v39).trans ((dxdxx_eq _).trans (dxdxx_eq_Gdxdxx _ _ _ _)),
       (h c main_arg0).trans (arg0_eq _), (h c main_arg1).trans (arg1_eq _),
       (h c main_arg2).trans (arg2_eq _), (h c main_arg3).trans (arg3_eq _)⟩)
    (run_main m ρ)

end Cert.ReferenceIdeal.RefValue

end
-- ==== Proof.lean ====
/-
  An RBF covariance matrix with its first and mixed second derivatives, as a tiled kernel, against the plain formula.

  Both programs compute, for rows x_n and xx_m of two point sets, inverse length scales ι = 1 / exp s and a variance
  σ = exp v:  r = (x_n − xx_m)·ι,  cov = exp(−½·Σ r²)·σ,  dxx = cov·(r·ι),  dx = −dxx,  and the 8 × 8 matrix
  d²/dx dxx = (−(r·ι)_i (r·ι)_j + [i = j] ι_i²)·cov.  The kernel works on a 16 × 8 grid of [128, 256] tiles, one
  lane-dense slab per feature, accumulates the squares left to right, writes a negation as 0 − x, multiplies `cov` into
  each entry of the second derivative before adding the diagonal term, and lays the derivative axes out flat along the
  lanes; the host reshapes them back. Modules: Spec (the formulas, both spellings, and the four result arrays), Algebra
  (the spellings agree: the sum, the sign and the off-diagonal entries on all extended reals, the diagonal entries — the
  one place a product is distributed over a sum — on real values), Finite (the precondition makes every entry real),
  PaySlabs / PayD2 / PayOut7 (what the kernel body leaves in each output block, index by index), KArrays (blocks to
  arrays), KRun (the kernel's run with its four results named), RefRun / RefValue (the reference's run with its four
  results named). Here: the three frames, and the two runs side by side.
-/
import proofs.«158023_j22204980920839_2_alg».proof.Defs
import proofs.«158023_j22204980920839_2_alg».proof.Proof.Gen.Kernel
import proofs.«158023_j22204980920839_2_alg».proof.Proof.Gen.Kernel.Frame
import proofs.«158023_j22204980920839_2_alg».proof.Proof.Gen.KernelIdeal
import proofs.«158023_j22204980920839_2_alg».proof.Proof.Gen.KernelIdeal.Frame
import proofs.«158023_j22204980920839_2_alg».proof.Proof.Gen.ReferenceIdeal
import proofs.«158023_j22204980920839_2_alg».proof.Proof.Gen.Pre_finite_inputs
import proofs.«158023_j22204980920839_2_alg».proof.Proof.Finite
import proofs.«158023_j22204980920839_2_alg».proof.Proof.PaySlabs
import proofs.«158023_j22204980920839_2_alg».proof.Proof.PayOut7
import proofs.«158023_j22204980920839_2_alg».proof.Proof.KRun
import proofs.«158023_j22204980920839_2_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2)
    (Cert.ReferenceIdeal.RefValue.run m ρ)

/-- The idealization rewrote no operation. -/
theorem preserves : Cert.preserves_Kernel_KernelIdeal := trivial

/-- From memories that agree on the four arguments and hold finite numbers there, both programs end with the same four
    arrays: Spec's, of the arguments. The kernel's run needs the entries real (the diagonal of the second derivative);
    the reference's does not. -/
theorem algebraic : Cert.algebraic_KernelIdeal_ReferenceIdeal := by
  intro m ρ m' ρ' hpre hagree
  have hr := fun c => Cert.Pre_finite_inputs.Finite.real_of_pre _ _ _ _ (hpre c)
  refine ⟨_, _, _, _, Cert.KernelIdeal.Run.run m ρ Cert.KernelIdeal.Pay.out4_apply Cert.KernelIdeal.Pay.out5_col
    Cert.KernelIdeal.Pay.out6_col Cert.KernelIdeal.PayOut7.out7_col (fun c => (hr c).1) (fun c => (hr c).2.1)
    (fun c => (hr c).2.2.1) (fun c => (hr c).2.2.2), ?_⟩
  refine (θ_run Cert.ReferenceIdeal.defs _ _).mono (fun r h c => ?_) (Cert.ReferenceIdeal.RefValue.run m' ρ')
  obtain ⟨h0, h1, h2, h3, hargs⟩ := h c
  obtain ⟨e0, e1, e2, e3⟩ := hagree c
  rw [e0, e1, e2, e3] at h0 h1 h2 h3
  exact ⟨h0, h1, h2, h3, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
